-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x32x128x128 : Shape := ⟨5, ![4, 64, 32, 128, 128]⟩
abbrev S64x256 : Shape := ⟨2, ![64, 256]⟩
abbrev S_ : Shape := ⟨0, ![]⟩

class Facts : Prop where
  bcast_S_S4x64x32x128x128 : S_.BroadcastsInDim S4x64x32x128x128 (![] : Fin 0 → Fin S4x64x32x128x128.rank)
  reducesTo_S4x64x32x128x128_S_d0_1_2_3_4 : S4x64x32x128x128.ReducesTo [0, 1, 2, 3, 4] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S4x64x32x128x128 .f32) (main_arg1 : FVec F S64x256 .f32) : IVec S_ 1 :=
  let main_v0 : FVec F S4x64x32x128x128 .f32 := Host.absf main_arg0
  let main_cst : FVec F S_ .f32 := constant S_ .f32 0x7F800000#32
  let main_v1 : FVec F S4x64x32x128x128 .f32 := broadcastInDim S4x64x32x128x128 ![] bcast_S_S4x64x32x128x128 main_cst
  let main_v2 : IVec S4x64x32x128x128 1 := cmpf .olt main_v0 main_v1
  let main_c : IVec S_ 1 := constantI S_ 1 1#1
  let main_v3 : IVec S_ 1 := (fun x v => Host.reduce IntOp.andi x v reducesTo_S4x64x32x128x128_S_d0_1_2_3_4 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  main_v8
-- ==== Kernel.lean ====
abbrev S4x64x32x128x128 : Shape := ⟨5, ![4, 64, 32, 128, 128]⟩
abbrev S64x256 : Shape := ⟨2, ![64, 256]⟩
abbrev S64x4 : Shape := ⟨2, ![64, 4]⟩
abbrev S4x8x8x128x128 : Shape := ⟨5, ![4, 8, 8, 128, 128]⟩
abbrev S8x4 : Shape := ⟨2, ![8, 4]⟩
abbrev S4x8x128x128 : Shape := ⟨4, ![4, 8, 128, 128]⟩
abbrev S4x8 : Shape := ⟨2, ![4, 8]⟩
abbrev S4x8x1x128x128 : Shape := ⟨5, ![4, 8, 1, 128, 128]⟩
abbrev S4x8x128 : Shape := ⟨3, ![4, 8, 128]⟩
abbrev S4x8x1x1 : Shape := ⟨4, ![4, 8, 1, 1]⟩
abbrev S4x8x1x128 : Shape := ⟨4, ![4, 8, 1, 128]⟩
abbrev S4x8x128x1 : Shape := ⟨4, ![4, 8, 128, 1]⟩
abbrev S4x64 : Shape := ⟨2, ![4, 64]⟩
abbrev S4x256 : Shape := ⟨2, ![4, 256]⟩

abbrev nBuf : Space → Nat
  | .hbm => 5
  | .vmem => 7
  | .smem => 0
  | _ => 0

abbrev bufTy : (tb : Table) → Fin (tcTables nBuf tb) → BufTy
  | .hbm, ⟨0, _⟩ => ⟨S4x64x32x128x128, .f32⟩
  | .hbm, ⟨1, _⟩ => ⟨S64x256, .f32⟩
  | .hbm, ⟨2, _⟩ => ⟨S64x4, .f32⟩
  | .hbm, ⟨3, _⟩ => ⟨S4x64, .f32⟩
  | .hbm, ⟨4, _⟩ => ⟨S4x256, .f32⟩
  | .local _ .vmem, ⟨0, _⟩ => ⟨S4x8x8x128x128, .f32⟩
  | .local _ .vmem, ⟨1, _⟩ => ⟨S4x8x8x128x128, .f32⟩
  | .local _ .vmem, ⟨2, _⟩ => ⟨S8x4, .f32⟩
  | .local _ .vmem, ⟨3, _⟩ => ⟨S8x4, .f32⟩
  | .local _ .vmem, ⟨4, _⟩ => ⟨S4x8x128x128, .f32⟩
  | .local _ .vmem, ⟨5, _⟩ => ⟨S4x8, .f32⟩
  | .local _ .vmem, ⟨6, _⟩ => ⟨S4x8, .f32⟩
  | _, _ => ⟨S4x64x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_2 : BitVec 32 := 0#32
  let c8_i32 : BitVec 32 := 8#32
  let v5 : BitVec 32 := Scalar.addi c0_i32_2 c8_i32
  let c1_i32 : BitVec 32 := 1#32
  ⟨c0_i32_2, v5, c1_i32⟩
def k0_off1 (k0_t1 : Fin k0_t1_loop.trips) : Fin 5 → Nat :=
  let c0_12 : Index := 0#32
  let c0_13 : Index := 0#32
  let c0_i32_2 : BitVec 32 := 0#32
  let c1_i32 : BitVec 32 := 1#32
  let arg7 : BitVec 32 := Scf.iv c0_i32_2 c1_i32 k0_t1
  let v20 : Index := Scalar.indexCast arg7
  let c0_14 : Index := 0#32
  let c0_15 : Index := 0#32
  ![0, 0, v20.toNat, 0, 0]
def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x8x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S4x8x128x128_S4x8x128x128_0_0_0_0 : ∀ a, (![0, 0, 0, 0] : Fin 4 → Nat) a + S4x8x128x128.size a ≤ S4x8x128x128.size a
  h_S4x8x128x128 : 0 < S4x8x128x128.numel
  shapeCasts_S4x8x128x128_S4x8x128x128 : S4x8x128x128.ShapeCasts S4x8x128x128
  inb_S4x8_S4x8_0_0 : ∀ a, (![0, 0] : Fin 2 → Nat) a + S4x8.size a ≤ S4x8.size a
  h_S4x8 : 0 < S4x8.numel
  shapeCasts_S4x8_S4x8 : S4x8.ShapeCasts S4x8
  h_S4x8x1x128x128 : 0 < S4x8x1x128x128.numel
  shapeCasts_S4x8x1x128x128_S4x8x128x128 : S4x8x1x128x128.ShapeCasts S4x8x128x128
  reduces_S4x8x128x128_S4x8x128 : S4x8x128x128.Reduces [2] S4x8x128
  reduces_S4x8x128_S4x8 : S4x8x128.Reduces [2] S4x8
  shapeCasts_S4x8_S4x8x1x1 : S4x8.ShapeCasts S4x8x1x1
  broadcasts_S4x8x1x1_S4x8x128x128 : S4x8x1x1.Broadcasts S4x8x128x128
  slices_S4x8x128x128_o0_0_1_0_S4x8x1x128 : S4x8x128x128.Slices ![0, 0, 1, 0] S4x8x1x128
  shapeCasts_S4x8x1x128_S4x8x128 : S4x8x1x128.ShapeCasts S4x8x128
  slices_S4x8x128x128_o0_0_126_0_S4x8x1x128 : S4x8x128x128.Slices ![0, 0, 126, 0] S4x8x1x128
  slices_S4x8x128x128_o0_0_0_1_S4x8x128x1 : S4x8x128x128.Slices ![0, 0, 0, 1] S4x8x128x1
  shapeCasts_S4x8x128x1_S4x8x128 : S4x8x128x1.ShapeCasts S4x8x128
  slices_S4x8x128x128_o0_0_0_126_S4x8x128x1 : S4x8x128x128.Slices ![0, 0, 0, 126] S4x8x128x1
  slices_S4x8x128x128_o0_0_1_1_S4x8x1x1 : S4x8x128x128.Slices ![0, 0, 1, 1] S4x8x1x1
  shapeCasts_S4x8x1x1_S4x8 : S4x8x1x1.ShapeCasts S4x8
  slices_S4x8x128x128_o0_0_1_126_S4x8x1x1 : S4x8x128x128.Slices ![0, 0, 1, 126] S4x8x1x1
  slices_S4x8x128x128_o0_0_126_1_S4x8x1x1 : S4x8x128x128.Slices ![0, 0, 126, 1] S4x8x1x1
  slices_S4x8x128x128_o0_0_126_126_S4x8x1x1 : S4x8x128x128.Slices ![0, 0, 126, 126] S4x8x1x1
  transposes_S4x8_p1_0_S8x4 : S4x8.Transposes [1, 0] S8x4
  inb_S8x4_S8x4_0_0 : ∀ a, (![0, 0] : Fin 2 → Nat) a + S8x4.size a ≤ S8x4.size a
  h_S8x4 : 0 < S8x4.numel
  transposes_S64x4_S4x64_1_0 : S64x4.Transposes [1, 0] S4x64
  dot_S4x64_S64x256_S4x256_1_0_0_1_n_n_wf : DotDims.WF S4x64 S64x256 S4x256 [1] [0] [0] [1] [] []
  hrank0 : 0 < grid0.rank
  k0_t1_ok : k0_t1_loop.OK
  k0_off1_inb : ∀ k0_t1 : Fin k0_t1_loop.trips, ∀ a, (k0_off1 k0_t1) a + S4x8x1x128x128.size a ≤ S4x8x8x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x8x128x128.size a ≤ S4x64x32x128x128.size a
  hwx0_0 : ∀ i : grid0.Coords, EltTy.bits .f32 = 32 ∨ (Rect.block (s := S4x64x32x128x128) S4x8x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4.size a ≤ S64x4.size a
  hwx0_1 : ∀ i : grid0.Coords, EltTy.bits .f32 = 32 ∨ (Rect.block (s := S64x4) S8x4.size (cc0_transform_1 i) (hinb0_1 i)).WholeWords (EltTy.packing .f32)

variable [Facts₀]

def dot_S4x64_S64x256_S4x256_1_0_0_1_n_n : DotDims S4x64 S64x256 S4x256 where
  lhsContracting := [1]
  rhsContracting := [0]
  lhsNonContracting := [0]
  rhsNonContracting := [1]
  lhsBatch := []
  rhsBatch := []
  wf := dot_S4x64_S64x256_S4x256_1_0_0_1_n_n_wf

abbrev win0_0 : Pipeline.Window sig grid0 :=
  Pipeline.Window.ofSpec (Memref.whole main_arg0) S4x8x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4x64x32x128x128 : Shape := ⟨5, ![4, 64, 32, 128, 128]⟩
abbrev S64x256 : Shape := ⟨2, ![64, 256]⟩
abbrev S_ : Shape := ⟨0, ![]⟩
abbrev S4x64 : Shape := ⟨2, ![4, 64]⟩
abbrev S4x64x1x1x1 : Shape := ⟨5, ![4, 64, 1, 1, 1]⟩
abbrev S4x64x128x128 : Shape := ⟨4, ![4, 64, 128, 128]⟩
abbrev S4x64x1x128 : Shape := ⟨4, ![4, 64, 1, 128]⟩
abbrev S4x64x129x128 : Shape := ⟨4, ![4, 64, 129, 128]⟩
abbrev S4x64x130x128 : Shape := ⟨4, ![4, 64, 130, 128]⟩
abbrev S4x64x130x1 : Shape := ⟨4, ![4, 64, 130, 1]⟩
abbrev S4x64x130x129 : Shape := ⟨4, ![4, 64, 130, 129]⟩
abbrev S4x64x130x130 : Shape := ⟨4, ![4, 64, 130, 130]⟩
abbrev S4x256 : Shape := ⟨2, ![4, 256]⟩

abbrev nBuf : Space → Nat
  | .hbm => 53
  | .vmem => 0
  | .smem => 0
  | _ => 0

abbrev bufTy : (tb : Table) → Fin (tcTables nBuf tb) → BufTy
  | .hbm, ⟨0, _⟩ => ⟨S4x64x32x128x128, .f32⟩
  | .hbm, ⟨1, _⟩ => ⟨S64x256, .f32⟩
  | .hbm, ⟨2, _⟩ => ⟨S_, .f32⟩
  | .hbm, ⟨3, _⟩ => ⟨S4x64, .f32⟩
  | .hbm, ⟨4, _⟩ => ⟨S4x64x1x1x1, .f32⟩
  | .hbm, ⟨5, _⟩ => ⟨S_, .f32⟩
  | .hbm, ⟨6, _⟩ => ⟨S4x64x1x1x1, .f32⟩
  | .hbm, ⟨7, _⟩ => ⟨S4x64x1x1x1, .f32⟩
  | .hbm, ⟨8, _⟩ => ⟨S4x64x32x128x128, .f32⟩
  | .hbm, ⟨9, _⟩ => ⟨S4x64x32x128x128, .f32⟩
  | .hbm, ⟨10, _⟩ => ⟨S4x64x32x128x128, .f32⟩
  | .hbm, ⟨11, _⟩ => ⟨S_, .f32⟩
  | .hbm, ⟨12, _⟩ => ⟨S4x64, .f32⟩
  | .hbm, ⟨13, _⟩ => ⟨S4x64x1x1x1, .f32⟩
  | .hbm, ⟨14, _⟩ => ⟨S_, .f32⟩
  | .hbm, ⟨15, _⟩ => ⟨S4x64x1x1x1, .f32⟩
  | .hbm, ⟨16, _⟩ => ⟨S4x64x1x1x1, .f32⟩
  | .hbm, ⟨17, _⟩ => ⟨S4x64x32x128x128, .f32⟩
  | .hbm, ⟨18, _⟩ => ⟨S4x64x32x128x128, .f32⟩
  | .hbm, ⟨19, _⟩ => ⟨S_, .f32⟩
  | .hbm, ⟨20, _⟩ => ⟨S4x64x1x1x1, .f32⟩
  | .hbm, ⟨21, _⟩ => ⟨S4x64x1x1x1, .f32⟩
  | .hbm, ⟨22, _⟩ => ⟨S4x64x1x1x1, .f32⟩
  | .hbm, ⟨23, _⟩ => ⟨S4x64x32x128x128, .f32⟩
  | .hbm, ⟨24, _⟩ => ⟨S4x64x32x128x128, .f32⟩
  | .hbm, ⟨25, _⟩ => ⟨S_, .f32⟩
  | .hbm, ⟨26, _⟩ => ⟨S4x64x128x128, .f32⟩
  | .hbm, ⟨27, _⟩ => ⟨S_, .f32⟩
  | .hbm, ⟨28, _⟩ => ⟨S4x64x128x128, .f32⟩
  | .hbm, ⟨29, _⟩ => ⟨S4x64x128x128, .f32⟩
  | .hbm, ⟨30, _⟩ => ⟨S_, .i32⟩
  | .hbm, ⟨31, _⟩ => ⟨S4x64x1x128, .f32⟩
  | .hbm, ⟨32, _⟩ => ⟨S4x64x1x128, .f32⟩
  | .hbm, ⟨33, _⟩ => ⟨S4x64x1x128, .f32⟩
  | .hbm, ⟨34, _⟩ => ⟨S4x64x129x128, .f32⟩
  | .hbm, ⟨35, _⟩ => ⟨S4x64x1x128, .f32⟩
  | .hbm, ⟨36, _⟩ => ⟨S4x64x1x128, .f32⟩
  | .hbm, ⟨37, _⟩ => ⟨S4x64x1x128, .f32⟩
  | .hbm, ⟨38, _⟩ => ⟨S4x64x130x128, .f32⟩
  | .hbm, ⟨39, _⟩ => ⟨S4x64x130x1, .f32⟩
  | .hbm, ⟨40, _⟩ => ⟨S4x64x130x1, .f32⟩
  | .hbm, ⟨41, _⟩ => ⟨S4x64x130x1, .f32⟩
  | .hbm, ⟨42, _⟩ => ⟨S4x64x130x129, .f32⟩
  | .hbm, ⟨43, _⟩ => ⟨S4x64x130x1, .f32⟩
  | .hbm, ⟨44, _⟩ => ⟨S4x64x130x1, .f32⟩
  | .hbm, ⟨45, _⟩ => ⟨S4x64x130x1, .f32⟩
  | .hbm, ⟨46, _⟩ => ⟨S4x64x130x130, .f32⟩
  | .hbm, ⟨47, _⟩ => ⟨S_, .f32⟩
  | .hbm, ⟨48, _⟩ => ⟨S4x64, .f32⟩
  | .hbm, ⟨49, _⟩ => ⟨S_, .f32⟩
  | .hbm, ⟨50, _⟩ => ⟨S4x64, .f32⟩
  | .hbm, ⟨51, _⟩ => ⟨S4x64, .f32⟩
  | .hbm, ⟨52, _⟩ => ⟨S4x256, .f32⟩
  | _, _ => ⟨S4x64x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v21 : Ref sig .tc := ⟨.hbm, 46, rfl⟩
abbrev main_cst_6 : Ref sig .tc := ⟨.hbm, 47, rfl⟩
abbrev main_v22 : Ref sig .tc := ⟨.hbm, 48, rfl⟩
abbrev main_cst_7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]

class Facts₀ : Prop where
  reducesTo_S4x64x32x128x128_S4x64_d2_3_4 : S4x64x32x128x128.ReducesTo [2, 3, 4] S4x64
  h_S_ : 0 < S_.numel
  bcast_S4x64_S4x64x1x1x1_0_1 : S4x64.BroadcastsInDim S4x64x1x1x1 (![0, 1] : Fin 2 → Fin S4x64x1x1x1.rank)
  bcast_S_S4x64x1x1x1 : S_.BroadcastsInDim S4x64x1x1x1 (![] : Fin 0 → Fin S4x64x1x1x1.rank)
  bcast_S4x64x1x1x1_S4x64x32x128x128_0_1_2_3_4 : S4x64x1x1x1.BroadcastsInDim S4x64x32x128x128 (![0, 1, 2, 3, 4] : Fin 5 → Fin S4x64x32x128x128.rank)
  reducesTo_S4x64x32x128x128_S4x64x128x128_d2 : S4x64x32x128x128.ReducesTo [2] S4x64x128x128
  bcast_S_S4x64x128x128 : S_.BroadcastsInDim S4x64x128x128 (![] : Fin 0 → Fin S4x64x128x128.rank)
  slices_S4x64x128x128_S4x64x1x128_0_0_0_0 : S4x64x128x128.Slices ![0, 0, 0, 0] S4x64x1x128
  slices_S4x64x128x128_S4x64x1x128_0_0_1_0 : S4x64x128x128.Slices ![0, 0, 1, 0] S4x64x1x128
  concatenates_S4x64x1x128_S4x64x128x128_S4x64x129x128_d2 : Shape.Concatenates [S4x64x1x128, S4x64x128x128] S4x64x129x128 2
  slices_S4x64x129x128_S4x64x1x128_0_0_128_0 : S4x64x129x128.Slices ![0, 0, 128, 0] S4x64x1x128
  slices_S4x64x129x128_S4x64x1x128_0_0_127_0 : S4x64x129x128.Slices ![0, 0, 127, 0] S4x64x1x128
  concatenates_S4x64x129x128_S4x64x1x128_S4x64x130x128_d2 : Shape.Concatenates [S4x64x129x128, S4x64x1x128] S4x64x130x128 2
  slices_S4x64x130x128_S4x64x130x1_0_0_0_0 : S4x64x130x128.Slices ![0, 0, 0, 0] S4x64x130x1
  slices_S4x64x130x128_S4x64x130x1_0_0_0_1 : S4x64x130x128.Slices ![0, 0, 0, 1] S4x64x130x1
  concatenates_S4x64x130x1_S4x64x130x128_S4x64x130x129_d3 : Shape.Concatenates [S4x64x130x1, S4x64x130x128] S4x64x130x129 3
  slices_S4x64x130x129_S4x64x130x1_0_0_0_128 : S4x64x130x129.Slices ![0, 0, 0, 128] S4x64x130x1
  slices_S4x64x130x129_S4x64x130x1_0_0_0_127 : S4x64x130x129.Slices ![0, 0, 0, 127] S4x64x130x1
  concatenates_S4x64x130x129_S4x64x130x1_S4x64x130x130_d3 : Shape.Concatenates [S4x64x130x129, S4x64x130x1] S4x64x130x130 3
  reducesTo_S4x64x130x130_S4x64_d2_3 : S4x64x130x130.ReducesTo [2, 3] S4x64
  bcast_S_S4x64 : S_.BroadcastsInDim S4x64 (![] : Fin 0 → Fin S4x64.rank)
  dot_S4x64_S64x256_S4x256_1_0_0_1_n_n_wf : DotDims.WF S4x64 S64x256 S4x256 [1] [0] [0] [1] [] []

variable [Facts₀]

def dot_S4x64_S64x256_S4x256_1_0_0_1_n_n : DotDims S4x64 S64x256 S4x256 where
  lhsContracting := [1]
  rhsContracting := [0]
  lhsNonContracting := [0]
  rhsNonContracting := [1]
  lhsBatch := []
  rhsBatch := []
  wf := dot_S4x64_S64x256_S4x256_1_0_0_1_n_n_wf

class Facts : Prop extends Facts₀ where

variable [Facts]
-- ==== Proof.KBodyDefs.lean ====
/-
  What the three cases of the statistics kernel's body share. The grid is 8 channel tiles by 4 depth tiles, walked depth
  fastest, so point `t` is depth tile `t % 4` of channel tile `t / 4`. The body resets its three accumulators (the
  per-pixel depth sum, the sum, the sum of squares) at depth tile 0, accumulates at every depth tile, and finishes
  the descriptor into the output block at depth tile 3: three cases, A (tile 0), B (tiles 1 and 2), C (tile 3).
  The output window is stored, and written back, only in case C.
-/
import proofs.«158271_j11888469476170_2_alg».proof.Proof.Gen.Kernel.Frame
import proofs.«158271_j11888469476170_2_alg».proof.Proof.Gen.Kernel.Loops
import proofs.«158271_j11888469476170_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, over the grid -/

/-- "This is the first depth tile": the reset's condition, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last depth tile": the finish's condition. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input window is never idle. -/
theorem liveAt0_0 : ∀ t : Fin cfg0.N, cfg0.idle 0 (grid0.coords t) = false := by decide +kernel
/-- Off the last depth tile the output window is idle: nothing is stored into it, -/
theorem idleAt0_1 : ∀ t : Fin cfg0.N, ¬cond0_1 (grid0.coords t) → cfg0.idle 1 (grid0.coords t) = true := by decide +kernel
/-- and it is not written back there. -/
theorem noFlush0_1 : ∀ t : Fin cfg0.N, ¬cond0_1 (grid0.coords t) → (cfg0.win 1).flush t = false := by decide +kernel
/-- At the last depth tile it is live. -/
theorem liveAt0_1 : ∀ t : Fin cfg0.N, cond0_1 (grid0.coords t) → cfg0.idle 1 (grid0.coords t) = false := by decide +kernel

/-! ## The memrefs the body is called with -/

/-- One staging buffer of the output window, through which its contents are stated. -/
abbrev VO0_1 : View sig .tc .vmem S8x4 .f32 := (Memref.whole cc0_stg1_0 : Memref sig .tc .vmem S8x4 .f32).view
/-- Each window's current staging memref at point `t`, and its wholeness. -/
abbrev ms0_0 (t : Fin cfg0.N) : Memref sig .tc .vmem S4x8x8x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x4 .f32 := win0_1.stage (cfg0.slots t 1)
abbrev hs0_1 (t : Fin cfg0.N) : (ms0_1 t).IsWhole := hstage0_1 ((cfg0.slots t 1).cast nbuf0_1)
/-- The three accumulators: the per-pixel depth sum, the sum, the sum of squares. -/
abbrev scM0_0 : Memref sig .tc .vmem S4x8x128x128 .f32 := Memref.whole cc0_scratch0
abbrev scM0_1 : Memref sig .tc .vmem S4x8 .f32 := Memref.whole cc0_scratch1
abbrev scM0_2 : Memref sig .tc .vmem S4x8 .f32 := Memref.whole cc0_scratch2
/-- The same as views. -/
abbrev VS0_0 : View sig .tc .vmem S4x8x128x128 .f32 := scM0_0.view
abbrev VS0_1 : View sig .tc .vmem S4x8 .f32 := scM0_1.view
abbrev VS0_2 : View sig .tc .vmem S4x8 .f32 := scM0_2.view

/-- What the launch hands the region besides the windows: the three accumulators at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Body

end
-- ==== Proof.KRunA.lean ====
/-
  The body at the first depth tile: the three accumulators are reset to zero whatever they held, then the eight depth
  slices of the input block are accumulated as at every tile; the output block is left alone.
-/
import proofs.«158271_j11888469476170_2_alg».proof.Proof.KBodyDefs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output block and in the three accumulators, as pieces (last first), at the
    first depth tile, with the body's triple: from the input block `x0`, the output block `xi1` (handed back untouched)
    and the accumulators at anything, the body runs to the continuation with the accumulators' pieces written. The
    pieces are what the run finds. -/
noncomputable def kernelRun0_A (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) :
    Σ' (L1 : List (View.Piece (Elt F) S8x4 .f32)) (LS0 : List (View.Piece (Elt F) S4x8x128x128 .f32)) (LS1 : List (View.Piece (Elt F) S4x8 .f32)), { LS2 : List (View.Piece (Elt F) S4x8 .f32) //
      ∀ (xi1 : Vec F S8x4 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.Kernel.Body

end
-- ==== Proof.KRunB.lean ====
/-
  The body at a middle depth tile (tiles 1 and 2): nothing is reset, nothing is finished. The eight depth slices of
  the input block are added into the per-pixel depth sum one by one, their sums and sums of squares are carried through
  the loop and added into the two small accumulators afterwards; the output block is left alone.
-/
import proofs.«158271_j11888469476170_2_alg».proof.Proof.KBodyDefs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output block and in the three accumulators, as pieces (last first), at a middle
    depth tile, with the body's triple: from the input block `x0`, the output block `xi1` (handed back untouched) and the
    accumulators at what the depth tile before left (`xs0 xs1 xs2`), the body runs to the continuation with the
    accumulators' pieces written. The pieces are what the run finds. -/
noncomputable def kernelRun0_B (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) :
    Σ' (L1 : List (View.Piece (Elt F) S8x4 .f32)) (LS0 : List (View.Piece (Elt F) S4x8x128x128 .f32)) (LS1 : List (View.Piece (Elt F) S4x8 .f32)), { LS2 : List (View.Piece (Elt F) S4x8 .f32) //
      ∀ (xi1 : Vec F S8x4 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1 ∗ owns (c : Thread nD τ) arg6 fullShare xs2
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.Kernel.Body

end
-- ==== Proof.KRunC.lean ====
/-
  The body at the last depth tile: the eight depth slices are accumulated as at every tile, then the descriptor is
  finished from the three accumulators — mean, clipped variance, reciprocal standard deviation, the normalised depth
  mean, its padded sum — and stored, transposed, into the output block.
-/
import proofs.«158271_j11888469476170_2_alg».proof.Proof.KBodyDefs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output block and in the three accumulators, as pieces (last first), at the
    last depth tile, with the body's triple: from the input block `x0`, the output block at anything and the
    accumulators at what the depth tile before left (`xs0 xs1 xs2`), the body runs to the continuation with the
    output block's and the accumulators' pieces written. The pieces are what the run finds. -/
noncomputable def kernelRun0_C (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) :
    Σ' (L1 : List (View.Piece (Elt F) S8x4 .f32)) (LS0 : List (View.Piece (Elt F) S4x8x128x128 .f32)) (LS1 : List (View.Piece (Elt F) S4x8 .f32)), { LS2 : List (View.Piece (Elt F) S4x8 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1 ∗ owns (c : Thread nD τ) arg6 fullShare xs2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%d1, %f1, -, H1⟩, ⟨%fs0, %hfs0, HS0⟩, ⟨%fs1, %hfs1, HS1⟩, ⟨%fs2, %hfs2, HS2⟩, Hk⟩
    obtain rfl := harg2.eq_unread hf0
    obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg2.read_unread _
      iexact H0
    isplitl [H1]; · iexists _; iexact H1
    isplitl [HS0]; · iexists _; iexact HS0
    isplitl [HS1]; · iexists _; iexact HS1
    iexists _; iexact HS2

end Cert.Kernel.Body

end
-- ==== Proof.KFrame.lean ====
/-
  The frame of the statistics kernel: what the output block and the three accumulators hold after each grid point,
  by recursion on the point; the invariant carried between points (the three accumulators at what the point before
  left); the body's obligation at every point, by cases on the depth tile; the run; and the frame claim.
-/
import proofs.«158271_j11888469476170_2_alg».proof.Proof.KRunA
import proofs.«158271_j11888469476170_2_alg».proof.Proof.KRunB
import proofs.«158271_j11888469476170_2_alg».proof.Proof.KRunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output block: a placeholder nothing consults. -/
def out0_A_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) : Vec F S8x4 .f32 :=
  VO0_1.read (Elt F) (VO0_1.writes (Elt F) VO0_1.junk (kernelRun0_A c i arg2 harg2 arg3 harg3 arg4 harg4 arg5 harg5 arg6 harg6 hc0 hc1 x0).1)

/-- Case A's pieces for accumulator 0 cover it. -/
theorem scover0_A_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) (y : S4x8x128x128.Idx) :
    ∃ pc ∈ (kernelRun0_A c i arg2 harg2 arg3 harg3 arg4 harg4 arg5 harg5 arg6 harg6 hc0 hc1 x0).2.1, y ∈ pc.1.set :=
  View.cover_of_tiledL (kernelRun0_A c i arg2 harg2 arg3 harg3 arg4 harg4 arg5 harg5 arg6 harg6 hc0 hc1 x0).2.1 S4x8x128x128.size (by sl_kernel_rfl) y

/-- What case A leaves in accumulator 0: its pieces read back. -/
def sout0_A_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) : Vec F S4x8x128x128 .f32 :=
  VS0_0.read (Elt F) (VS0_0.writes (Elt F) VS0_0.junk (kernelRun0_A c i arg2 harg2 arg3 harg3 arg4 harg4 arg5 harg5 arg6 harg6 hc0 hc1 x0).2.1)

/-- Case A's pieces for accumulator 1 cover it. -/
theorem scover0_A_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) (y : S4x8.Idx) :
    ∃ pc ∈ (kernelRun0_A c i arg2 harg2 arg3 harg3 arg4 harg4 arg5 harg5 arg6 harg6 hc0 hc1 x0).2.2.1, y ∈ pc.1.set :=
  View.cover_of_tiledL (kernelRun0_A c i arg2 harg2 arg3 harg3 arg4 harg4 arg5 harg5 arg6 harg6 hc0 hc1 x0).2.2.1 S4x8.size (by sl_kernel_rfl) y

/-- What case A leaves in accumulator 1: its pieces read back. -/
def sout0_A_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) : Vec F S4x8 .f32 :=
  VS0_1.read (Elt F) (VS0_1.writes (Elt F) VS0_1.junk (kernelRun0_A c i arg2 harg2 arg3 harg3 arg4 harg4 arg5 harg5 arg6 harg6 hc0 hc1 x0).2.2.1)

/-- Case A's pieces for accumulator 2 cover it. -/
theorem scover0_A_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) (y : S4x8.Idx) :
    ∃ pc ∈ (kernelRun0_A c i arg2 harg2 arg3 harg3 arg4 harg4 arg5 harg5 arg6 harg6 hc0 hc1 x0).2.2.2.1, y ∈ pc.1.set :=
  View.cover_of_tiledL (kernelRun0_A c i arg2 harg2 arg3 harg3 arg4 harg4 arg5 harg5 arg6 harg6 hc0 hc1 x0).2.2.2.1 S4x8.size (by sl_kernel_rfl) y

/-- What case A leaves in accumulator 2: its pieces read back. -/
def sout0_A_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) : Vec F S4x8 .f32 :=
  VS0_2.read (Elt F) (VS0_2.writes (Elt F) VS0_2.junk (kernelRun0_A c i arg2 harg2 arg3 harg3 arg4 harg4 arg5 harg5 arg6 harg6 hc0 hc1 x0).2.2.2.1)

/-- Case B stores nothing into the output block: a placeholder nothing consults. -/
def out0_B_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) : Vec F S8x4 .f32 :=
  VO0_1.read (Elt F) (VO0_1.writes (Elt F) VO0_1.junk (kernelRun0_B c i arg2 harg2 arg3 harg3 arg4 harg4 arg5 harg5 arg6 harg6 hc0 hc1 x0 xs0 xs1 xs2).1)

/-- Case B's pieces for accumulator 0 cover it. -/
theorem scover0_B_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) (y : S4x8x128x128.Idx) :
    ∃ pc ∈ (kernelRun0_B c i arg2 harg2 arg3 harg3 arg4 harg4 arg5 harg5 arg6 harg6 hc0 hc1 x0 xs0 xs1 xs2).2.1, y ∈ pc.1.set :=
  View.cover_of_tiledL (kernelRun0_B c i arg2 harg2 arg3 harg3 arg4 harg4 arg5 harg5 arg6 harg6 hc0 hc1 x0 xs0 xs1 xs2).2.1 S4x8x128x128.size (by sl_kernel_rfl) y

/-- What case B leaves in accumulator 0: its pieces read back. -/
def sout0_B_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) : Vec F S4x8x128x128 .f32 :=
  VS0_0.read (Elt F) (VS0_0.writes (Elt F) VS0_0.junk (kernelRun0_B c i arg2 harg2 arg3 harg3 arg4 harg4 arg5 harg5 arg6 harg6 hc0 hc1 x0 xs0 xs1 xs2).2.1)

/-- Case B's pieces for accumulator 1 cover it. -/
theorem scover0_B_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) (y : S4x8.Idx) :
    ∃ pc ∈ (kernelRun0_B c i arg2 harg2 arg3 harg3 arg4 harg4 arg5 harg5 arg6 harg6 hc0 hc1 x0 xs0 xs1 xs2).2.2.1, y ∈ pc.1.set :=
  View.cover_of_tiledL (kernelRun0_B c i arg2 harg2 arg3 harg3 arg4 harg4 arg5 harg5 arg6 harg6 hc0 hc1 x0 xs0 xs1 xs2).2.2.1 S4x8.size (by sl_kernel_rfl) y

/-- What case B leaves in accumulator 1: its pieces read back. -/
def sout0_B_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) : Vec F S4x8 .f32 :=
  VS0_1.read (Elt F) (VS0_1.writes (Elt F) VS0_1.junk (kernelRun0_B c i arg2 harg2 arg3 harg3 arg4 harg4 arg5 harg5 arg6 harg6 hc0 hc1 x0 xs0 xs1 xs2).2.2.1)

/-- Case B's pieces for accumulator 2 cover it. -/
theorem scover0_B_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) (y : S4x8.Idx) :
    ∃ pc ∈ (kernelRun0_B c i arg2 harg2 arg3 harg3 arg4 harg4 arg5 harg5 arg6 harg6 hc0 hc1 x0 xs0 xs1 xs2).2.2.2.1, y ∈ pc.1.set :=
  View.cover_of_tiledL (kernelRun0_B c i arg2 harg2 arg3 harg3 arg4 harg4 arg5 harg5 arg6 harg6 hc0 hc1 x0 xs0 xs1 xs2).2.2.2.1 S4x8.size (by sl_kernel_rfl) y

/-- What case B leaves in accumulator 2: its pieces read back. -/
def sout0_B_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) : Vec F S4x8 .f32 :=
  VS0_2.read (Elt F) (VS0_2.writes (Elt F) VS0_2.junk (kernelRun0_B c i arg2 harg2 arg3 harg3 arg4 harg4 arg5 harg5 arg6 harg6 hc0 hc1 x0 xs0 xs1 xs2).2.2.2.1)

/-- Case C's one store covers the output block. -/
theorem cover0_C_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) (y : S8x4.Idx) :
    ∃ pc ∈ (kernelRun0_C c i arg2 harg2 arg3 harg3 arg4 harg4 arg5 harg5 arg6 harg6 hc0 hc1 x0 xs0 xs1 xs2).1, y ∈ pc.1.set :=
  View.cover_of_tiledL (kernelRun0_C c i arg2 harg2 arg3 harg3 arg4 harg4 arg5 harg5 arg6 harg6 hc0 hc1 x0 xs0 xs1 xs2).1 S8x4.size (by sl_kernel_rfl) y

/-- What case C leaves in the output block: its pieces read back. -/
def out0_C_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) : Vec F S8x4 .f32 :=
  VO0_1.read (Elt F) (VO0_1.writes (Elt F) VO0_1.junk (kernelRun0_C c i arg2 harg2 arg3 harg3 arg4 harg4 arg5 harg5 arg6 harg6 hc0 hc1 x0 xs0 xs1 xs2).1)

/-- Case C's pieces for accumulator 0 cover it. -/
theorem scover0_C_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) (y : S4x8x128x128.Idx) :
    ∃ pc ∈ (kernelRun0_C c i arg2 harg2 arg3 harg3 arg4 harg4 arg5 harg5 arg6 harg6 hc0 hc1 x0 xs0 xs1 xs2).2.1, y ∈ pc.1.set :=
  View.cover_of_tiledL (kernelRun0_C c i arg2 harg2 arg3 harg3 arg4 harg4 arg5 harg5 arg6 harg6 hc0 hc1 x0 xs0 xs1 xs2).2.1 S4x8x128x128.size (by sl_kernel_rfl) y

/-- What case C leaves in accumulator 0: its pieces read back. -/
def sout0_C_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) : Vec F S4x8x128x128 .f32 :=
  VS0_0.read (Elt F) (VS0_0.writes (Elt F) VS0_0.junk (kernelRun0_C c i arg2 harg2 arg3 harg3 arg4 harg4 arg5 harg5 arg6 harg6 hc0 hc1 x0 xs0 xs1 xs2).2.1)

/-- Case C's pieces for accumulator 1 cover it. -/
theorem scover0_C_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) (y : S4x8.Idx) :
    ∃ pc ∈ (kernelRun0_C c i arg2 harg2 arg3 harg3 arg4 harg4 arg5 harg5 arg6 harg6 hc0 hc1 x0 xs0 xs1 xs2).2.2.1, y ∈ pc.1.set :=
  View.cover_of_tiledL (kernelRun0_C c i arg2 harg2 arg3 harg3 arg4 harg4 arg5 harg5 arg6 harg6 hc0 hc1 x0 xs0 xs1 xs2).2.2.1 S4x8.size (by sl_kernel_rfl) y

/-- What case C leaves in accumulator 1: its pieces read back. -/
def sout0_C_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) : Vec F S4x8 .f32 :=
  VS0_1.read (Elt F) (VS0_1.writes (Elt F) VS0_1.junk (kernelRun0_C c i arg2 harg2 arg3 harg3 arg4 harg4 arg5 harg5 arg6 harg6 hc0 hc1 x0 xs0 xs1 xs2).2.2.1)

/-- Case C's pieces for accumulator 2 cover it. -/
theorem scover0_C_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) (y : S4x8.Idx) :
    ∃ pc ∈ (kernelRun0_C c i arg2 harg2 arg3 harg3 arg4 harg4 arg5 harg5 arg6 harg6 hc0 hc1 x0 xs0 xs1 xs2).2.2.2.1, y ∈ pc.1.set :=
  View.cover_of_tiledL (kernelRun0_C c i arg2 harg2 arg3 harg3 arg4 harg4 arg5 harg5 arg6 harg6 hc0 hc1 x0 xs0 xs1 xs2).2.2.2.1 S4x8.size (by sl_kernel_rfl) y

/-- What case C leaves in accumulator 2: its pieces read back. -/
def sout0_C_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) : Vec F S4x8 .f32 :=
  VS0_2.read (Elt F) (VS0_2.writes (Elt F) VS0_2.junk (kernelRun0_C c i arg2 harg2 arg3 harg3 arg4 harg4 arg5 harg5 arg6 harg6 hc0 hc1 x0 xs0 xs1 xs2).2.2.2.1)

/-! ## What the buffers hold after each point -/

/-- THE ACCUMULATION. After the body at position `n`: the output block, then the three accumulators — the case the
    depth tile selects, run at the point's memrefs and input block, the accumulators taken from what position
    `n - 1` left (case A resets them, so it takes nothing). -/
def outsAt0 (c : Dev nD) : (n : ℕ) → n < cfg0.N → Vec F S8x4 .f32 × Vec F S4x8x128x128 .f32 × Vec F S4x8 .f32 × Vec F S4x8 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_2 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A. -/
theorem outsAt0_A (c : Dev nD) (t : Fin cfg0.N) (h0 : t.val % 4 = 0) (h1 : ¬t.val % 4 = 3) :
    outsAt0 m c t.val t.isLt = (out0_A_1 c (grid0.coords t) (ms0_0 t) (hs0_0 t) (ms0_1 t) (hs0_1 t) scM0_0 (Memref.isWhole_whole _) scM0_1 (Memref.isWhole_whole _) scM0_2 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) scM0_1 (Memref.isWhole_whole _) scM0_2 (Memref.isWhole_whole _) ((hcond0_0 t).mpr h0) (fun h => h1 ((hcond0_1 t).mp h)) (iblk m c 0 t), sout0_A_1 c (grid0.coords t) (ms0_0 t) (hs0_0 t) (ms0_1 t) (hs0_1 t) scM0_0 (Memref.isWhole_whole _) scM0_1 (Memref.isWhole_whole _) scM0_2 (Memref.isWhole_whole _) ((hcond0_0 t).mpr h0) (fun h => h1 ((hcond0_1 t).mp h)) (iblk m c 0 t), sout0_A_2 c (grid0.coords t) (ms0_0 t) (hs0_0 t) (ms0_1 t) (hs0_1 t) scM0_0 (Memref.isWhole_whole _) scM0_1 (Memref.isWhole_whole _) scM0_2 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at a point of case B, over what the point before left. -/
theorem outsAt0_B (c : Dev nD) (t : Fin cfg0.N) (h0 : ¬t.val % 4 = 0) (h1 : ¬t.val % 4 = 3) :
    outsAt0 m c t.val t.isLt = (out0_B_1 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C, over what the point before left. -/
theorem outsAt0_C (c : Dev nD) (t : Fin cfg0.N) (h0 : ¬t.val % 4 = 0) (h1 : t.val % 4 = 3) :
    outsAt0 m c t.val t.isLt = (out0_C_1 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start what the launch hands over (the accumulators at anything); afterwards the three
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body at point `t` the input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's memref holds its block; the depth tile says which case the point is in; the
    invariant hands the body the accumulators at what the point before left (at anything at the very first point) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  by_cases h0 : t.val % 4 = 0
  · have h1 : ¬t.val % 4 = 3 := by omega
    rw [Dat.leavesExact_idle (dats m 0 c) 1 t (idleAt0_1 t (fun h => h1 ((hcond0_1 t).mp h))) (noFlush0_1 t (fun h => h1 ((hcond0_1 t).mp h)))]
    rw [outsAt0_A m c t h0 h1]
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩⟩
      iapply ((kernelRun0_A c (grid0.coords t) _ _ _ _ _ _ _ _ _ _ ((hcond0_0 t).mpr h0) (fun h => h1 ((hcond0_1 t).mp h)) (iblk m c 0 t)).2.2.2.2 _ Set.univ _)
      isplitl [H0]; · iexact H0
      isplitl [H1]; · iexact H1
      isplitl [HS0]; · iexact HS0
      isplitl [HS1]; · iexact HS1
      isplitl [HS2]; · iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _)
        iexact Hg
      isplitl [Ho]; · iexact Ho
      isplitl [H0]; · iexact H0
      iexists _; iexact H1
    · rw [PhiS_castSucc m c t, PhiS_pos m c _ _ hz]
      iintro ⟨⟨⟨HS0, HS1, HS2⟩, Hg⟩, Ho, ⟨%d0, H0⟩, ⟨%d1, H1⟩⟩
      iapply ((kernelRun0_A c (grid0.coords t) _ _ _ _ _ _ _ _ _ _ ((hcond0_0 t).mpr h0) (fun h => h1 ((hcond0_1 t).mp h)) (iblk m c 0 t)).2.2.2.2 _ Set.univ _)
      isplitl [H0]; · iexact H0
      isplitl [H1]; · iexact H1
      isplitl [HS0]; · iexists _; iexact HS0
      isplitl [HS1]; · iexists _; iexact HS1
      isplitl [HS2]; · iexists _; iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _)
        iexact Hg
      isplitl [Ho]; · iexact Ho
      isplitl [H0]; · iexact H0
      iexists _; iexact H1
  · have hz : t.val ≠ 0 := by intro h; rw [h] at h0; exact h0 (Nat.zero_mod _)
    by_cases h1 : t.val % 4 = 3
    · rw [show (dats m 0 c).leavesExact 1 t = owns (c : Thread nD τ) (ms0_1 t) fullShare ((dats m 0 c).after 1 t) from by
        unfold Dat.leavesExact; rw [liveAt0_1 t ((hcond0_1 t).mpr h1)], after0_1]
      rw [outsAt0_C m c t h0 h1]
      unfold out0_C_1 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩⟩
      iapply ((kernelRun0_C c (grid0.coords t) _ _ _ _ _ _ _ _ _ _ (fun h => h0 ((hcond0_0 t).mp h)) ((hcond0_1 t).mpr h1) (iblk m c 0 t) _ _ _).2.2.2.2 Set.univ _)
      isplitl [H0]; · iexact H0
      isplitl [H1]; · iexists _; iexact H1
      isplitl [HS0]; · iexact HS0
      isplitl [HS1]; · iexact HS1
      isplitl [HS2]; · iexact HS2
      iintro ⟨H0, ⟨%e1, H1⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _ _ _ _ _ _ _)
    · rw [Dat.leavesExact_idle (dats m 0 c) 1 t (idleAt0_1 t (fun h => h1 ((hcond0_1 t).mp h))) (noFlush0_1 t (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩⟩
      iapply ((kernelRun0_B c (grid0.coords t) _ _ _ _ _ _ _ _ _ _ (fun h => h0 ((hcond0_0 t).mp h)) (fun h => h1 ((hcond0_1 t).mp h)) (iblk m c 0 t) _ _ _).2.2.2.2 _ Set.univ _)
      isplitl [H0]; · iexact H0
      isplitl [H1]; · iexact H1
      isplitl [HS0]; · iexact HS0
      isplitl [HS1]; · iexact HS1
      isplitl [HS2]; · iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the start the invariant gives the launch's form back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIBodyDefs.lean ====
/-
  What the three cases of the statistics kernel's body share. The grid is 8 channel tiles by 4 depth tiles, walked depth
  fastest, so point `t` is depth tile `t % 4` of channel tile `t / 4`. The body resets its three accumulators (the
  per-pixel depth sum, the sum, the sum of squares) at depth tile 0, accumulates at every depth tile, and finishes
  the descriptor into the output block at depth tile 3: three cases, A (tile 0), B (tiles 1 and 2), C (tile 3).
  The output window is stored, and written back, only in case C.
-/
import proofs.«158271_j11888469476170_2_alg».proof.Proof.Gen.KernelIdeal.Frame
import proofs.«158271_j11888469476170_2_alg».proof.Proof.Gen.KernelIdeal.Loops
import proofs.«158271_j11888469476170_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, over the grid -/

/-- "This is the first depth tile": the reset's condition, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last depth tile": the finish's condition. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input window is never idle. -/
theorem liveAt0_0 : ∀ t : Fin cfg0.N, cfg0.idle 0 (grid0.coords t) = false := by decide +kernel
/-- Off the last depth tile the output window is idle: nothing is stored into it, -/
theorem idleAt0_1 : ∀ t : Fin cfg0.N, ¬cond0_1 (grid0.coords t) → cfg0.idle 1 (grid0.coords t) = true := by decide +kernel
/-- and it is not written back there. -/
theorem noFlush0_1 : ∀ t : Fin cfg0.N, ¬cond0_1 (grid0.coords t) → (cfg0.win 1).flush t = false := by decide +kernel
/-- At the last depth tile it is live. -/
theorem liveAt0_1 : ∀ t : Fin cfg0.N, cond0_1 (grid0.coords t) → cfg0.idle 1 (grid0.coords t) = false := by decide +kernel

/-! ## The memrefs the body is called with -/

/-- One staging buffer of the output window, through which its contents are stated. -/
abbrev VO0_1 : View sig .tc .vmem S8x4 .f32 := (Memref.whole cc0_stg1_0 : Memref sig .tc .vmem S8x4 .f32).view
/-- Each window's current staging memref at point `t`, and its wholeness. -/
abbrev ms0_0 (t : Fin cfg0.N) : Memref sig .tc .vmem S4x8x8x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x4 .f32 := win0_1.stage (cfg0.slots t 1)
abbrev hs0_1 (t : Fin cfg0.N) : (ms0_1 t).IsWhole := hstage0_1 ((cfg0.slots t 1).cast nbuf0_1)
/-- The three accumulators: the per-pixel depth sum, the sum, the sum of squares. -/
abbrev scM0_0 : Memref sig .tc .vmem S4x8x128x128 .f32 := Memref.whole cc0_scratch0
abbrev scM0_1 : Memref sig .tc .vmem S4x8 .f32 := Memref.whole cc0_scratch1
abbrev scM0_2 : Memref sig .tc .vmem S4x8 .f32 := Memref.whole cc0_scratch2
/-- The same as views. -/
abbrev VS0_0 : View sig .tc .vmem S4x8x128x128 .f32 := scM0_0.view
abbrev VS0_1 : View sig .tc .vmem S4x8 .f32 := scM0_1.view
abbrev VS0_2 : View sig .tc .vmem S4x8 .f32 := scM0_2.view

/-- What the launch hands the region besides the windows: the three accumulators at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.KIRunA.lean ====
/-
  The body at the first depth tile: the three accumulators are reset to zero whatever they held, then the eight depth
  slices of the input block are accumulated as at every tile; the output block is left alone.
-/
import proofs.«158271_j11888469476170_2_alg».proof.Proof.KIBodyDefs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output block and in the three accumulators, as pieces (last first), at the
    first depth tile, with the body's triple: from the input block `x0`, the output block `xi1` (handed back untouched)
    and the accumulators at anything, the body runs to the continuation with the accumulators' pieces written. The
    pieces are what the run finds. -/
noncomputable def kernelRun0_A (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) :
    Σ' (L1 : List (View.Piece (Elt F) S8x4 .f32)) (LS0 : List (View.Piece (Elt F) S4x8x128x128 .f32)) (LS1 : List (View.Piece (Elt F) S4x8 .f32)), { LS2 : List (View.Piece (Elt F) S4x8 .f32) //
      ∀ (xi1 : Vec F S8x4 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.KernelIdeal.Body

end
-- ==== Proof.KIRunB.lean ====
/-
  The body at a middle depth tile (tiles 1 and 2): nothing is reset, nothing is finished. The eight depth slices of
  the input block are added into the per-pixel depth sum one by one, their sums and sums of squares are carried through
  the loop and added into the two small accumulators afterwards; the output block is left alone.
-/
import proofs.«158271_j11888469476170_2_alg».proof.Proof.KIBodyDefs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output block and in the three accumulators, as pieces (last first), at a middle
    depth tile, with the body's triple: from the input block `x0`, the output block `xi1` (handed back untouched) and the
    accumulators at what the depth tile before left (`xs0 xs1 xs2`), the body runs to the continuation with the
    accumulators' pieces written. The pieces are what the run finds. -/
noncomputable def kernelRun0_B (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) :
    Σ' (L1 : List (View.Piece (Elt F) S8x4 .f32)) (LS0 : List (View.Piece (Elt F) S4x8x128x128 .f32)) (LS1 : List (View.Piece (Elt F) S4x8 .f32)), { LS2 : List (View.Piece (Elt F) S4x8 .f32) //
      ∀ (xi1 : Vec F S8x4 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1 ∗ owns (c : Thread nD τ) arg6 fullShare xs2
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.KernelIdeal.Body

end
-- ==== Proof.KIRunC.lean ====
/-
  The body at the last depth tile: the eight depth slices are accumulated as at every tile, then the descriptor is
  finished from the three accumulators — mean, clipped variance, reciprocal standard deviation, the normalised depth
  mean, its padded sum — and stored, transposed, into the output block.
-/
import proofs.«158271_j11888469476170_2_alg».proof.Proof.KIBodyDefs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output block and in the three accumulators, as pieces (last first), at the
    last depth tile, with the body's triple: from the input block `x0`, the output block at anything and the
    accumulators at what the depth tile before left (`xs0 xs1 xs2`), the body runs to the continuation with the
    output block's and the accumulators' pieces written. The pieces are what the run finds. -/
noncomputable def kernelRun0_C (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) :
    Σ' (L1 : List (View.Piece (Elt F) S8x4 .f32)) (LS0 : List (View.Piece (Elt F) S4x8x128x128 .f32)) (LS1 : List (View.Piece (Elt F) S4x8 .f32)), { LS2 : List (View.Piece (Elt F) S4x8 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1 ∗ owns (c : Thread nD τ) arg6 fullShare xs2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%d1, %f1, -, H1⟩, ⟨%fs0, %hfs0, HS0⟩, ⟨%fs1, %hfs1, HS1⟩, ⟨%fs2, %hfs2, HS2⟩, Hk⟩
    obtain rfl := harg2.eq_unread hf0
    obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg2.read_unread _
      iexact H0
    isplitl [H1]; · iexists _; iexact H1
    isplitl [HS0]; · iexists _; iexact HS0
    isplitl [HS1]; · iexists _; iexact HS1
    iexists _; iexact HS2

end Cert.KernelIdeal.Body

end
-- ==== Proof.KIFrame.lean ====
/-
  The frame of the statistics kernel: what the output block and the three accumulators hold after each grid point,
  by recursion on the point; the invariant carried between points (the three accumulators at what the point before
  left); the body's obligation at every point, by cases on the depth tile; the run; and the frame claim.
-/
import proofs.«158271_j11888469476170_2_alg».proof.Proof.KIRunA
import proofs.«158271_j11888469476170_2_alg».proof.Proof.KIRunB
import proofs.«158271_j11888469476170_2_alg».proof.Proof.KIRunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output block: a placeholder nothing consults. -/
def out0_A_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) : Vec F S8x4 .f32 :=
  VO0_1.read (Elt F) (VO0_1.writes (Elt F) VO0_1.junk (kernelRun0_A c i arg2 harg2 arg3 harg3 arg4 harg4 arg5 harg5 arg6 harg6 hc0 hc1 x0).1)

/-- Case A's pieces for accumulator 0 cover it. -/
theorem scover0_A_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) (y : S4x8x128x128.Idx) :
    ∃ pc ∈ (kernelRun0_A c i arg2 harg2 arg3 harg3 arg4 harg4 arg5 harg5 arg6 harg6 hc0 hc1 x0).2.1, y ∈ pc.1.set :=
  View.cover_of_tiledL (kernelRun0_A c i arg2 harg2 arg3 harg3 arg4 harg4 arg5 harg5 arg6 harg6 hc0 hc1 x0).2.1 S4x8x128x128.size (by sl_kernel_rfl) y

/-- What case A leaves in accumulator 0: its pieces read back. -/
def sout0_A_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) : Vec F S4x8x128x128 .f32 :=
  VS0_0.read (Elt F) (VS0_0.writes (Elt F) VS0_0.junk (kernelRun0_A c i arg2 harg2 arg3 harg3 arg4 harg4 arg5 harg5 arg6 harg6 hc0 hc1 x0).2.1)

/-- Case A's pieces for accumulator 1 cover it. -/
theorem scover0_A_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) (y : S4x8.Idx) :
    ∃ pc ∈ (kernelRun0_A c i arg2 harg2 arg3 harg3 arg4 harg4 arg5 harg5 arg6 harg6 hc0 hc1 x0).2.2.1, y ∈ pc.1.set :=
  View.cover_of_tiledL (kernelRun0_A c i arg2 harg2 arg3 harg3 arg4 harg4 arg5 harg5 arg6 harg6 hc0 hc1 x0).2.2.1 S4x8.size (by sl_kernel_rfl) y

/-- What case A leaves in accumulator 1: its pieces read back. -/
def sout0_A_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) : Vec F S4x8 .f32 :=
  VS0_1.read (Elt F) (VS0_1.writes (Elt F) VS0_1.junk (kernelRun0_A c i arg2 harg2 arg3 harg3 arg4 harg4 arg5 harg5 arg6 harg6 hc0 hc1 x0).2.2.1)

/-- Case A's pieces for accumulator 2 cover it. -/
theorem scover0_A_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) (y : S4x8.Idx) :
    ∃ pc ∈ (kernelRun0_A c i arg2 harg2 arg3 harg3 arg4 harg4 arg5 harg5 arg6 harg6 hc0 hc1 x0).2.2.2.1, y ∈ pc.1.set :=
  View.cover_of_tiledL (kernelRun0_A c i arg2 harg2 arg3 harg3 arg4 harg4 arg5 harg5 arg6 harg6 hc0 hc1 x0).2.2.2.1 S4x8.size (by sl_kernel_rfl) y

/-- What case A leaves in accumulator 2: its pieces read back. -/
def sout0_A_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i)
    (x0 : Vec F S4x8x8x128x128 .f32) : Vec F S4x8 .f32 :=
  VS0_2.read (Elt F) (VS0_2.writes (Elt F) VS0_2.junk (kernelRun0_A c i arg2 harg2 arg3 harg3 arg4 harg4 arg5 harg5 arg6 harg6 hc0 hc1 x0).2.2.2.1)

/-- Case B stores nothing into the output block: a placeholder nothing consults. -/
def out0_B_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) : Vec F S8x4 .f32 :=
  VO0_1.read (Elt F) (VO0_1.writes (Elt F) VO0_1.junk (kernelRun0_B c i arg2 harg2 arg3 harg3 arg4 harg4 arg5 harg5 arg6 harg6 hc0 hc1 x0 xs0 xs1 xs2).1)

/-- Case B's pieces for accumulator 0 cover it. -/
theorem scover0_B_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) (y : S4x8x128x128.Idx) :
    ∃ pc ∈ (kernelRun0_B c i arg2 harg2 arg3 harg3 arg4 harg4 arg5 harg5 arg6 harg6 hc0 hc1 x0 xs0 xs1 xs2).2.1, y ∈ pc.1.set :=
  View.cover_of_tiledL (kernelRun0_B c i arg2 harg2 arg3 harg3 arg4 harg4 arg5 harg5 arg6 harg6 hc0 hc1 x0 xs0 xs1 xs2).2.1 S4x8x128x128.size (by sl_kernel_rfl) y

/-- What case B leaves in accumulator 0: its pieces read back. -/
def sout0_B_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) : Vec F S4x8x128x128 .f32 :=
  VS0_0.read (Elt F) (VS0_0.writes (Elt F) VS0_0.junk (kernelRun0_B c i arg2 harg2 arg3 harg3 arg4 harg4 arg5 harg5 arg6 harg6 hc0 hc1 x0 xs0 xs1 xs2).2.1)

/-- Case B's pieces for accumulator 1 cover it. -/
theorem scover0_B_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) (y : S4x8.Idx) :
    ∃ pc ∈ (kernelRun0_B c i arg2 harg2 arg3 harg3 arg4 harg4 arg5 harg5 arg6 harg6 hc0 hc1 x0 xs0 xs1 xs2).2.2.1, y ∈ pc.1.set :=
  View.cover_of_tiledL (kernelRun0_B c i arg2 harg2 arg3 harg3 arg4 harg4 arg5 harg5 arg6 harg6 hc0 hc1 x0 xs0 xs1 xs2).2.2.1 S4x8.size (by sl_kernel_rfl) y

/-- What case B leaves in accumulator 1: its pieces read back. -/
def sout0_B_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) : Vec F S4x8 .f32 :=
  VS0_1.read (Elt F) (VS0_1.writes (Elt F) VS0_1.junk (kernelRun0_B c i arg2 harg2 arg3 harg3 arg4 harg4 arg5 harg5 arg6 harg6 hc0 hc1 x0 xs0 xs1 xs2).2.2.1)

/-- Case B's pieces for accumulator 2 cover it. -/
theorem scover0_B_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) (y : S4x8.Idx) :
    ∃ pc ∈ (kernelRun0_B c i arg2 harg2 arg3 harg3 arg4 harg4 arg5 harg5 arg6 harg6 hc0 hc1 x0 xs0 xs1 xs2).2.2.2.1, y ∈ pc.1.set :=
  View.cover_of_tiledL (kernelRun0_B c i arg2 harg2 arg3 harg3 arg4 harg4 arg5 harg5 arg6 harg6 hc0 hc1 x0 xs0 xs1 xs2).2.2.2.1 S4x8.size (by sl_kernel_rfl) y

/-- What case B leaves in accumulator 2: its pieces read back. -/
def sout0_B_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i)
    (x0 : Vec F S4x8x8x128x128 .f32) (xs0 : Vec F S4x8x128x128 .f32) (xs1 : Vec F S4x8 .f32) (xs2 : Vec F S4x8 .f32) : Vec F S4x8 .f32 :=
  VS0_2.read (Elt F) (VS0_2.writes (Elt F) VS0_2.junk (kernelRun0_B c i arg2 harg2 arg3 harg3 arg4 harg4 arg5 harg5 arg6 harg6 hc0 hc1 x0 xs0 xs1 xs2).2.2.2.1)

/-- Case C's one store covers the output block. -/
theorem cover0_C_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) (y : S8x4.Idx) :
    ∃ pc ∈ (kernelRun0_C c i arg2 harg2 arg3 harg3 arg4 harg4 arg5 harg5 arg6 harg6 hc0 hc1 x0 xs0 xs1 xs2).1, y ∈ pc.1.set :=
  View.cover_of_tiledL (kernelRun0_C c i arg2 harg2 arg3 harg3 arg4 harg4 arg5 harg5 arg6 harg6 hc0 hc1 x0 xs0 xs1 xs2).1 S8x4.size (by sl_kernel_rfl) y

/-- What case C leaves in the output block: its pieces read back. -/
def out0_C_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) : Vec F S8x4 .f32 :=
  VO0_1.read (Elt F) (VO0_1.writes (Elt F) VO0_1.junk (kernelRun0_C c i arg2 harg2 arg3 harg3 arg4 harg4 arg5 harg5 arg6 harg6 hc0 hc1 x0 xs0 xs1 xs2).1)

/-- Case C's pieces for accumulator 0 cover it. -/
theorem scover0_C_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) (y : S4x8x128x128.Idx) :
    ∃ pc ∈ (kernelRun0_C c i arg2 harg2 arg3 harg3 arg4 harg4 arg5 harg5 arg6 harg6 hc0 hc1 x0 xs0 xs1 xs2).2.1, y ∈ pc.1.set :=
  View.cover_of_tiledL (kernelRun0_C c i arg2 harg2 arg3 harg3 arg4 harg4 arg5 harg5 arg6 harg6 hc0 hc1 x0 xs0 xs1 xs2).2.1 S4x8x128x128.size (by sl_kernel_rfl) y

/-- What case C leaves in accumulator 0: its pieces read back. -/
def sout0_C_0 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) : Vec F S4x8x128x128 .f32 :=
  VS0_0.read (Elt F) (VS0_0.writes (Elt F) VS0_0.junk (kernelRun0_C c i arg2 harg2 arg3 harg3 arg4 harg4 arg5 harg5 arg6 harg6 hc0 hc1 x0 xs0 xs1 xs2).2.1)

/-- Case C's pieces for accumulator 1 cover it. -/
theorem scover0_C_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) (y : S4x8.Idx) :
    ∃ pc ∈ (kernelRun0_C c i arg2 harg2 arg3 harg3 arg4 harg4 arg5 harg5 arg6 harg6 hc0 hc1 x0 xs0 xs1 xs2).2.2.1, y ∈ pc.1.set :=
  View.cover_of_tiledL (kernelRun0_C c i arg2 harg2 arg3 harg3 arg4 harg4 arg5 harg5 arg6 harg6 hc0 hc1 x0 xs0 xs1 xs2).2.2.1 S4x8.size (by sl_kernel_rfl) y

/-- What case C leaves in accumulator 1: its pieces read back. -/
def sout0_C_1 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) : Vec F S4x8 .f32 :=
  VS0_1.read (Elt F) (VS0_1.writes (Elt F) VS0_1.junk (kernelRun0_C c i arg2 harg2 arg3 harg3 arg4 harg4 arg5 harg5 arg6 harg6 hc0 hc1 x0 xs0 xs1 xs2).2.2.1)

/-- Case C's pieces for accumulator 2 cover it. -/
theorem scover0_C_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) (y : S4x8.Idx) :
    ∃ pc ∈ (kernelRun0_C c i arg2 harg2 arg3 harg3 arg4 harg4 arg5 harg5 arg6 harg6 hc0 hc1 x0 xs0 xs1 xs2).2.2.2.1, y ∈ pc.1.set :=
  View.cover_of_tiledL (kernelRun0_C c i arg2 harg2 arg3 harg3 arg4 harg4 arg5 harg5 arg6 harg6 hc0 hc1 x0 xs0 xs1 xs2).2.2.2.1 S4x8.size (by sl_kernel_rfl) y

/-- What case C leaves in accumulator 2: its pieces read back. -/
def sout0_C_2 (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i)
    (x0 : Vec F S4x8x8x128x128 .f32) (xs0 : Vec F S4x8x128x128 .f32) (xs1 : Vec F S4x8 .f32) (xs2 : Vec F S4x8 .f32) : Vec F S4x8 .f32 :=
  VS0_2.read (Elt F) (VS0_2.writes (Elt F) VS0_2.junk (kernelRun0_C c i arg2 harg2 arg3 harg3 arg4 harg4 arg5 harg5 arg6 harg6 hc0 hc1 x0 xs0 xs1 xs2).2.2.2.1)

/-! ## What the buffers hold after each point -/

/-- THE ACCUMULATION. After the body at position `n`: the output block, then the three accumulators — the case the
    depth tile selects, run at the point's memrefs and input block, the accumulators taken from what position
    `n - 1` left (case A resets them, so it takes nothing). -/
def outsAt0 (c : Dev nD) : (n : ℕ) → n < cfg0.N → Vec F S8x4 .f32 × Vec F S4x8x128x128 .f32 × Vec F S4x8 .f32 × Vec F S4x8 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_2 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A. -/
theorem outsAt0_A (c : Dev nD) (t : Fin cfg0.N) (h0 : t.val % 4 = 0) (h1 : ¬t.val % 4 = 3) :
    outsAt0 m c t.val t.isLt = (out0_A_1 c (grid0.coords t) (ms0_0 t) (hs0_0 t) (ms0_1 t) (hs0_1 t) scM0_0 (Memref.isWhole_whole _) scM0_1 (Memref.isWhole_whole _) scM0_2 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) scM0_1 (Memref.isWhole_whole _) scM0_2 (Memref.isWhole_whole _) ((hcond0_0 t).mpr h0) (fun h => h1 ((hcond0_1 t).mp h)) (iblk m c 0 t), sout0_A_1 c (grid0.coords t) (ms0_0 t) (hs0_0 t) (ms0_1 t) (hs0_1 t) scM0_0 (Memref.isWhole_whole _) scM0_1 (Memref.isWhole_whole _) scM0_2 (Memref.isWhole_whole _) ((hcond0_0 t).mpr h0) (fun h => h1 ((hcond0_1 t).mp h)) (iblk m c 0 t), sout0_A_2 c (grid0.coords t) (ms0_0 t) (hs0_0 t) (ms0_1 t) (hs0_1 t) scM0_0 (Memref.isWhole_whole _) scM0_1 (Memref.isWhole_whole _) scM0_2 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at a point of case B, over what the point before left. -/
theorem outsAt0_B (c : Dev nD) (t : Fin cfg0.N) (h0 : ¬t.val % 4 = 0) (h1 : ¬t.val % 4 = 3) :
    outsAt0 m c t.val t.isLt = (out0_B_1 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C, over what the point before left. -/
theorem outsAt0_C (c : Dev nD) (t : Fin cfg0.N) (h0 : ¬t.val % 4 = 0) (h1 : t.val % 4 = 3) :
    outsAt0 m c t.val t.isLt = (out0_C_1 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) scM0_0 (Memref.isWhole_whole _) scM0_1 (Memref.isWhole_whole _) scM0_2 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start what the launch hands over (the accumulators at anything); afterwards the three
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body at point `t` the input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's memref holds its block; the depth tile says which case the point is in; the
    invariant hands the body the accumulators at what the point before left (at anything at the very first point) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  by_cases h0 : t.val % 4 = 0
  · have h1 : ¬t.val % 4 = 3 := by omega
    rw [Dat.leavesExact_idle (dats m 0 c) 1 t (idleAt0_1 t (fun h => h1 ((hcond0_1 t).mp h))) (noFlush0_1 t (fun h => h1 ((hcond0_1 t).mp h)))]
    rw [outsAt0_A m c t h0 h1]
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩⟩
      iapply ((kernelRun0_A c (grid0.coords t) _ _ _ _ _ _ _ _ _ _ ((hcond0_0 t).mpr h0) (fun h => h1 ((hcond0_1 t).mp h)) (iblk m c 0 t)).2.2.2.2 _ Set.univ _)
      isplitl [H0]; · iexact H0
      isplitl [H1]; · iexact H1
      isplitl [HS0]; · iexact HS0
      isplitl [HS1]; · iexact HS1
      isplitl [HS2]; · iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _)
        iexact Hg
      isplitl [Ho]; · iexact Ho
      isplitl [H0]; · iexact H0
      iexists _; iexact H1
    · rw [PhiS_castSucc m c t, PhiS_pos m c _ _ hz]
      iintro ⟨⟨⟨HS0, HS1, HS2⟩, Hg⟩, Ho, ⟨%d0, H0⟩, ⟨%d1, H1⟩⟩
      iapply ((kernelRun0_A c (grid0.coords t) _ _ _ _ _ _ _ _ _ _ ((hcond0_0 t).mpr h0) (fun h => h1 ((hcond0_1 t).mp h)) (iblk m c 0 t)).2.2.2.2 _ Set.univ _)
      isplitl [H0]; · iexact H0
      isplitl [H1]; · iexact H1
      isplitl [HS0]; · iexists _; iexact HS0
      isplitl [HS1]; · iexists _; iexact HS1
      isplitl [HS2]; · iexists _; iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _)
        iexact Hg
      isplitl [Ho]; · iexact Ho
      isplitl [H0]; · iexact H0
      iexists _; iexact H1
  · have hz : t.val ≠ 0 := by intro h; rw [h] at h0; exact h0 (Nat.zero_mod _)
    by_cases h1 : t.val % 4 = 3
    · rw [show (dats m 0 c).leavesExact 1 t = owns (c : Thread nD τ) (ms0_1 t) fullShare ((dats m 0 c).after 1 t) from by
        unfold Dat.leavesExact; rw [liveAt0_1 t ((hcond0_1 t).mpr h1)], after0_1]
      rw [outsAt0_C m c t h0 h1]
      unfold out0_C_1 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩⟩
      iapply ((kernelRun0_C c (grid0.coords t) _ _ _ _ _ _ _ _ _ _ (fun h => h0 ((hcond0_0 t).mp h)) ((hcond0_1 t).mpr h1) (iblk m c 0 t) _ _ _).2.2.2.2 Set.univ _)
      isplitl [H0]; · iexact H0
      isplitl [H1]; · iexists _; iexact H1
      isplitl [HS0]; · iexact HS0
      isplitl [HS1]; · iexact HS1
      isplitl [HS2]; · iexact HS2
      iintro ⟨H0, ⟨%e1, H1⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _ _ _ _ _ _ _)
    · rw [Dat.leavesExact_idle (dats m 0 c) 1 t (idleAt0_1 t (fun h => h1 ((hcond0_1 t).mp h))) (noFlush0_1 t (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩⟩
      iapply ((kernelRun0_B c (grid0.coords t) _ _ _ _ _ _ _ _ _ _ (fun h => h0 ((hcond0_0 t).mp h)) (fun h => h1 ((hcond0_1 t).mp h)) (iblk m c 0 t) _ _ _).2.2.2.2 _ Set.univ _)
      isplitl [H0]; · iexact H0
      isplitl [H1]; · iexact H1
      isplitl [HS0]; · iexact HS0
      isplitl [HS1]; · iexact HS1
      isplitl [HS2]; · iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the start the invariant gives the launch's form back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.RefRun.lean ====
/-
  The reference program's run, written by hand: @main is a straight line of host operations once the call of the
  padding function (and, inside it, the four calls of the two flips) is replaced by the callee's operations over
  the call's own buffers. Every weakly fair execution terminates with the result buffer at the composed term
  "result" of the two arguments' launch contents, and with the arguments unchanged.

  "result" is stated in the order the program computes it: the per-(sample, channel) mean, the centred array, the
  biased variance, the reciprocal standard deviation, the normalised array, its mean over depth, the reflection
  padding by one row and one column on each side (each a slice, a reversal of that one-row or one-column slice, and
  a concatenation), the mean of the padded map, and the product with the weights.
-/
import proofs.«158271_j11888469476170_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The scalar zero every sum starts from. -/
def zero : FVec F S_ .f32 := constant S_ .f32 0x00000000#32

/-- The mean of each (sample, channel) slab: the sum over depth, rows and columns, divided by 524288. -/
def mean (X : FVec F S4x64x32x128x128 .f32) : FVec F S4x64x1x1x1 .f32 :=
  Host.divf
    (broadcastInDim S4x64x1x1x1 ![0, 1] bcast_S4x64_S4x64x1x1x1_0_1
      (Host.reduceAdd X (zero (F := F)) reducesTo_S4x64x32x128x128_S4x64_d2_3_4 h_S_))
    (broadcastInDim S4x64x1x1x1 ![] bcast_S_S4x64x1x1x1 (constant S_ .f32 0x49000000#32))

/-- The array minus its slab's mean. -/
def centred (X : FVec F S4x64x32x128x128 .f32) : FVec F S4x64x32x128x128 .f32 :=
  subf X (broadcastInDim S4x64x32x128x128 ![0, 1, 2, 3, 4] bcast_S4x64x1x1x1_S4x64x32x128x128_0_1_2_3_4 (mean X))

/-- The biased variance of each slab. -/
def variance (X : FVec F S4x64x32x128x128 .f32) : FVec F S4x64x1x1x1 .f32 :=
  Host.divf
    (broadcastInDim S4x64x1x1x1 ![0, 1] bcast_S4x64_S4x64x1x1x1_0_1
      (Host.reduceAdd (mulf (centred X) (centred X)) (zero (F := F)) reducesTo_S4x64x32x128x128_S4x64_d2_3_4 h_S_))
    (broadcastInDim S4x64x1x1x1 ![] bcast_S_S4x64x1x1x1 (constant S_ .f32 0x49000000#32))

/-- The reciprocal standard deviation of each slab, the variance regularised by the literal 0x3727C5AC. -/
def rstd (X : FVec F S4x64x32x128x128 .f32) : FVec F S4x64x1x1x1 .f32 :=
  Host.rsqrt (addf (variance X) (broadcastInDim S4x64x1x1x1 ![] bcast_S_S4x64x1x1x1 (constant S_ .f32 0x3727C5AC#32)))

/-- The normalised array. -/
def normed (X : FVec F S4x64x32x128x128 .f32) : FVec F S4x64x32x128x128 .f32 :=
  mulf (centred X) (broadcastInDim S4x64x32x128x128 ![0, 1, 2, 3, 4] bcast_S4x64x1x1x1_S4x64x32x128x128_0_1_2_3_4 (rstd X))

/-- The normalised array's mean over depth. -/
def depthMean (X : FVec F S4x64x32x128x128 .f32) : FVec F S4x64x128x128 .f32 :=
  Host.divf (Host.reduceAdd (normed X) (zero (F := F)) reducesTo_S4x64x32x128x128_S4x64x128x128_d2 h_S_)
    (broadcastInDim S4x64x128x128 ![] bcast_S_S4x64x128x128 (constant S_ .f32 0x42000000#32))

/-- Row 1 (reversed along its one-row axis) put before the map. -/
def padTop (A : FVec F S4x64x128x128 .f32) : FVec F S4x64x129x128 .f32 :=
  concatenate S4x64x129x128 2
    [⟨S4x64x1x128, Host.reverse [2] (extractStridedSlice S4x64x1x128 ![0, 0, 1, 0] A slices_S4x64x128x128_S4x64x1x128_0_0_1_0)⟩,
      ⟨S4x64x128x128, A⟩]
    concatenates_S4x64x1x128_S4x64x128x128_S4x64x129x128_d2

/-- Row 127 of that (the map's row 126), reversed along its one-row axis, put after it. -/
def padRows (A : FVec F S4x64x128x128 .f32) : FVec F S4x64x130x128 .f32 :=
  concatenate S4x64x130x128 2
    [⟨S4x64x129x128, padTop A⟩,
      ⟨S4x64x1x128, Host.reverse [2] (extractStridedSlice S4x64x1x128 ![0, 0, 127, 0] (padTop A) slices_S4x64x129x128_S4x64x1x128_0_0_127_0)⟩]
    concatenates_S4x64x129x128_S4x64x1x128_S4x64x130x128_d2

/-- Column 1 (reversed along its one-column axis) put before the row-padded map. -/
def padLeft (A : FVec F S4x64x128x128 .f32) : FVec F S4x64x130x129 .f32 :=
  concatenate S4x64x130x129 3
    [⟨S4x64x130x1, Host.reverse [3] (extractStridedSlice S4x64x130x1 ![0, 0, 0, 1] (padRows A) slices_S4x64x130x128_S4x64x130x1_0_0_0_1)⟩,
      ⟨S4x64x130x128, padRows A⟩]
    concatenates_S4x64x130x1_S4x64x130x128_S4x64x130x129_d3

/-- Column 127 of that (the map's column 126), reversed along its one-column axis, put after it: the padded map. -/
def padded (A : FVec F S4x64x128x128 .f32) : FVec F S4x64x130x130 .f32 :=
  concatenate S4x64x130x130 3
    [⟨S4x64x130x129, padLeft A⟩,
      ⟨S4x64x130x1, Host.reverse [3] (extractStridedSlice S4x64x130x1 ![0, 0, 0, 127] (padLeft A) slices_S4x64x130x129_S4x64x130x1_0_0_0_127)⟩]
    concatenates_S4x64x130x129_S4x64x130x1_S4x64x130x130_d3

/-- The mean of the padded map: its sum over rows and columns, divided by 16900. -/
def descr (X : FVec F S4x64x32x128x128 .f32) : FVec F S4x64 .f32 :=
  Host.divf (Host.reduceAdd (padded (depthMean X)) (zero (F := F)) reducesTo_S4x64x130x130_S4x64_d2_3 h_S_)
    (broadcastInDim S4x64 ![] bcast_S_S4x64 (constant S_ .f32 0x46840800#32))

/-- What the reference computes from its two arguments' contents. -/
def result (X : FVec F S4x64x32x128x128 .f32) (W : FVec F S64x256 .f32) : FVec F S4x256 .f32 :=
  Host.dotGeneral dot_S4x64_S64x256_S4x256_1_0_0_1_n_n none (descr X) W

/-! ## The operations -/

/-- @main's operations in order, the call of the padding function replaced by its sixteen operations over the
    call's buffers (each flip is one reversal into its own call's buffer), each written over the buffer itself: the
    typed reference a function's body names it by carries the same buffer and the same type. -/
abbrev ops : List (HloOp τ sig (Elt F)) :=
  [ nullary main_cst (constant S_ .f32 0x00000000#32),
    binary main_arg0 main_cst main_v0 ((fun x v => Host.reduceAdd x v reducesTo_S4x64x32x128x128_S4x64_d2_3_4 h_S_) : (⟨S4x64x32x128x128, .f32⟩ : BufTy).Contents (Elt F) → (⟨S_, .f32⟩ : BufTy).Contents (Elt F) → (⟨S4x64, .f32⟩ : BufTy).Contents (Elt F)),
    unary main_v0 main_v1 (broadcastInDim S4x64x1x1x1 ![0, 1] bcast_S4x64_S4x64x1x1x1_0_1 : (⟨S4x64, .f32⟩ : BufTy).Contents (Elt F) → (⟨S4x64x1x1x1, .f32⟩ : BufTy).Contents (Elt F)),
    nullary main_cst_0 (constant S_ .f32 0x49000000#32),
    unary main_cst_0 main_v2 (broadcastInDim S4x64x1x1x1 ![] bcast_S_S4x64x1x1x1 : (⟨S_, .f32⟩ : BufTy).Contents (Elt F) → (⟨S4x64x1x1x1, .f32⟩ : BufTy).Contents (Elt F)),
    binary main_v1 main_v2 main_v3 (Host.divf : (⟨S4x64x1x1x1, .f32⟩ : BufTy).Contents (Elt F) → (⟨S4x64x1x1x1, .f32⟩ : BufTy).Contents (Elt F) → (⟨S4x64x1x1x1, .f32⟩ : BufTy).Contents (Elt F)),
    unary main_v3 main_v4 (broadcastInDim S4x64x32x128x128 ![0, 1, 2, 3, 4] bcast_S4x64x1x1x1_S4x64x32x128x128_0_1_2_3_4 : (⟨S4x64x1x1x1, .f32⟩ : BufTy).Contents (Elt F) → (⟨S4x64x32x128x128, .f32⟩ : BufTy).Contents (Elt F)),
    binary main_arg0 main_v4 main_v5 (subf : (⟨S4x64x32x128x128, .f32⟩ : BufTy).Contents (Elt F) → (⟨S4x64x32x128x128, .f32⟩ : BufTy).Contents (Elt F) → (⟨S4x64x32x128x128, .f32⟩ : BufTy).Contents (Elt F)),
    binary main_v5 main_v5 main_v6 (mulf : (⟨S4x64x32x128x128, .f32⟩ : BufTy).Contents (Elt F) → (⟨S4x64x32x128x128, .f32⟩ : BufTy).Contents (Elt F) → (⟨S4x64x32x128x128, .f32⟩ : BufTy).Contents (Elt F)),
    nullary main_cst_1 (constant S_ .f32 0x00000000#32),
    binary main_v6 main_cst_1 main_v7 ((fun x v => Host.reduceAdd x v reducesTo_S4x64x32x128x128_S4x64_d2_3_4 h_S_) : (⟨S4x64x32x128x128, .f32⟩ : BufTy).Contents (Elt F) → (⟨S_, .f32⟩ : BufTy).Contents (Elt F) → (⟨S4x64, .f32⟩ : BufTy).Contents (Elt F)),
    unary main_v7 main_v8 (broadcastInDim S4x64x1x1x1 ![0, 1] bcast_S4x64_S4x64x1x1x1_0_1 : (⟨S4x64, .f32⟩ : BufTy).Contents (Elt F) → (⟨S4x64x1x1x1, .f32⟩ : BufTy).Contents (Elt F)),
    nullary main_cst_2 (constant S_ .f32 0x49000000#32),
    unary main_cst_2 main_v9 (broadcastInDim S4x64x1x1x1 ![] bcast_S_S4x64x1x1x1 : (⟨S_, .f32⟩ : BufTy).Contents (Elt F) → (⟨S4x64x1x1x1, .f32⟩ : BufTy).Contents (Elt F)),
    binary main_v8 main_v9 main_v10 (Host.divf : (⟨S4x64x1x1x1, .f32⟩ : BufTy).Contents (Elt F) → (⟨S4x64x1x1x1, .f32⟩ : BufTy).Contents (Elt F) → (⟨S4x64x1x1x1, .f32⟩ : BufTy).Contents (Elt F)),
    unary main_v3 main_v11 (broadcastInDim S4x64x32x128x128 ![0, 1, 2, 3, 4] bcast_S4x64x1x1x1_S4x64x32x128x128_0_1_2_3_4 : (⟨S4x64x1x1x1, .f32⟩ : BufTy).Contents (Elt F) → (⟨S4x64x32x128x128, .f32⟩ : BufTy).Contents (Elt F)),
    binary main_arg0 main_v11 main_v12 (subf : (⟨S4x64x32x128x128, .f32⟩ : BufTy).Contents (Elt F) → (⟨S4x64x32x128x128, .f32⟩ : BufTy).Contents (Elt F) → (⟨S4x64x32x128x128, .f32⟩ : BufTy).Contents (Elt F)),
    nullary main_cst_3 (constant S_ .f32 0x3727C5AC#32),
    unary main_cst_3 main_v13 (broadcastInDim S4x64x1x1x1 ![] bcast_S_S4x64x1x1x1 : (⟨S_, .f32⟩ : BufTy).Contents (Elt F) → (⟨S4x64x1x1x1, .f32⟩ : BufTy).Contents (Elt F)),
    binary main_v10 main_v13 main_v14 (addf : (⟨S4x64x1x1x1, .f32⟩ : BufTy).Contents (Elt F) → (⟨S4x64x1x1x1, .f32⟩ : BufTy).Contents (Elt F) → (⟨S4x64x1x1x1, .f32⟩ : BufTy).Contents (Elt F)),
    unary main_v14 main_v15 (Host.rsqrt : (⟨S4x64x1x1x1, .f32⟩ : BufTy).Contents (Elt F) → (⟨S4x64x1x1x1, .f32⟩ : BufTy).Contents (Elt F)),
    unary main_v15 main_v16 (broadcastInDim S4x64x32x128x128 ![0, 1, 2, 3, 4] bcast_S4x64x1x1x1_S4x64x32x128x128_0_1_2_3_4 : (⟨S4x64x1x1x1, .f32⟩ : BufTy).Contents (Elt F) → (⟨S4x64x32x128x128, .f32⟩ : BufTy).Contents (Elt F)),
    binary main_v12 main_v16 main_v17 (mulf : (⟨S4x64x32x128x128, .f32⟩ : BufTy).Contents (Elt F) → (⟨S4x64x32x128x128, .f32⟩ : BufTy).Contents (Elt F) → (⟨S4x64x32x128x128, .f32⟩ : BufTy).Contents (Elt F)),
    nullary main_cst_4 (constant S_ .f32 0x00000000#32),
    binary main_v17 main_cst_4 main_v18 ((fun x v => Host.reduceAdd x v reducesTo_S4x64x32x128x128_S4x64x128x128_d2 h_S_) : (⟨S4x64x32x128x128, .f32⟩ : BufTy).Contents (Elt F) → (⟨S_, .f32⟩ : BufTy).Contents (Elt F) → (⟨S4x64x128x128, .f32⟩ : BufTy).Contents (Elt F)),
    nullary main_cst_5 (constant S_ .f32 0x42000000#32),
    unary main_cst_5 main_v19 (broadcastInDim S4x64x128x128 ![] bcast_S_S4x64x128x128 : (⟨S_, .f32⟩ : BufTy).Contents (Elt F) → (⟨S4x64x128x128, .f32⟩ : BufTy).Contents (Elt F)),
    binary main_v18 main_v19 main_v20 (Host.divf : (⟨S4x64x128x128, .f32⟩ : BufTy).Contents (Elt F) → (⟨S4x64x128x128, .f32⟩ : BufTy).Contents (Elt F) → (⟨S4x64x128x128, .f32⟩ : BufTy).Contents (Elt F)),
    nullary main_c (constantI S_ 32 0#32),
    unary main_v20 main_call0_v0 ((extractStridedSlice S4x64x1x128 ![0, 0, 0, 0] · slices_S4x64x128x128_S4x64x1x128_0_0_0_0) : (⟨S4x64x128x128, .f32⟩ : BufTy).Contents (Elt F) → (⟨S4x64x1x128, .f32⟩ : BufTy).Contents (Elt F)),
    unary main_v20 main_call0_v1 ((extractStridedSlice S4x64x1x128 ![0, 0, 1, 0] · slices_S4x64x128x128_S4x64x1x128_0_0_1_0) : (⟨S4x64x128x128, .f32⟩ : BufTy).Contents (Elt F) → (⟨S4x64x1x128, .f32⟩ : BufTy).Contents (Elt F)),
    unary main_call0_v1 main_call0_v2 (Host.reverse [2] : (⟨S4x64x1x128, .f32⟩ : BufTy).Contents (Elt F) → (⟨S4x64x1x128, .f32⟩ : BufTy).Contents (Elt F)),
    binary main_call0_v2 main_v20 main_call0_v3 ((fun a b => concatenate S4x64x129x128 2 [⟨S4x64x1x128, a⟩, ⟨S4x64x128x128, b⟩] concatenates_S4x64x1x128_S4x64x128x128_S4x64x129x128_d2) : (⟨S4x64x1x128, .f32⟩ : BufTy).Contents (Elt F) → (⟨S4x64x128x128, .f32⟩ : BufTy).Contents (Elt F) → (⟨S4x64x129x128, .f32⟩ : BufTy).Contents (Elt F)),
    unary main_call0_v3 main_call0_v4 ((extractStridedSlice S4x64x1x128 ![0, 0, 128, 0] · slices_S4x64x129x128_S4x64x1x128_0_0_128_0) : (⟨S4x64x129x128, .f32⟩ : BufTy).Contents (Elt F) → (⟨S4x64x1x128, .f32⟩ : BufTy).Contents (Elt F)),
    unary main_call0_v3 main_call0_v5 ((extractStridedSlice S4x64x1x128 ![0, 0, 127, 0] · slices_S4x64x129x128_S4x64x1x128_0_0_127_0) : (⟨S4x64x129x128, .f32⟩ : BufTy).Contents (Elt F) → (⟨S4x64x1x128, .f32⟩ : BufTy).Contents (Elt F)),
    unary main_call0_v5 main_call0_v6 (Host.reverse [2] : (⟨S4x64x1x128, .f32⟩ : BufTy).Contents (Elt F) → (⟨S4x64x1x128, .f32⟩ : BufTy).Contents (Elt F)),
    binary main_call0_v3 main_call0_v6 main_call0_v7 ((fun a b => concatenate S4x64x130x128 2 [⟨S4x64x129x128, a⟩, ⟨S4x64x1x128, b⟩] concatenates_S4x64x129x128_S4x64x1x128_S4x64x130x128_d2) : (⟨S4x64x129x128, .f32⟩ : BufTy).Contents (Elt F) → (⟨S4x64x1x128, .f32⟩ : BufTy).Contents (Elt F) → (⟨S4x64x130x128, .f32⟩ : BufTy).Contents (Elt F)),
    unary main_call0_v7 main_call0_v8 ((extractStridedSlice S4x64x130x1 ![0, 0, 0, 0] · slices_S4x64x130x128_S4x64x130x1_0_0_0_0) : (⟨S4x64x130x128, .f32⟩ : BufTy).Contents (Elt F) → (⟨S4x64x130x1, .f32⟩ : BufTy).Contents (Elt F)),
    unary main_call0_v7 main_call0_v9 ((extractStridedSlice S4x64x130x1 ![0, 0, 0, 1] · slices_S4x64x130x128_S4x64x130x1_0_0_0_1) : (⟨S4x64x130x128, .f32⟩ : BufTy).Contents (Elt F) → (⟨S4x64x130x1, .f32⟩ : BufTy).Contents (Elt F)),
    unary main_call0_v9 main_call0_v10 (Host.reverse [3] : (⟨S4x64x130x1, .f32⟩ : BufTy).Contents (Elt F) → (⟨S4x64x130x1, .f32⟩ : BufTy).Contents (Elt F)),
    binary main_call0_v10 main_call0_v7 main_call0_v11 ((fun a b => concatenate S4x64x130x129 3 [⟨S4x64x130x1, a⟩, ⟨S4x64x130x128, b⟩] concatenates_S4x64x130x1_S4x64x130x128_S4x64x130x129_d3) : (⟨S4x64x130x1, .f32⟩ : BufTy).Contents (Elt F) → (⟨S4x64x130x128, .f32⟩ : BufTy).Contents (Elt F) → (⟨S4x64x130x129, .f32⟩ : BufTy).Contents (Elt F)),
    unary main_call0_v11 main_call0_v12 ((extractStridedSlice S4x64x130x1 ![0, 0, 0, 128] · slices_S4x64x130x129_S4x64x130x1_0_0_0_128) : (⟨S4x64x130x129, .f32⟩ : BufTy).Contents (Elt F) → (⟨S4x64x130x1, .f32⟩ : BufTy).Contents (Elt F)),
    unary main_call0_v11 main_call0_v13 ((extractStridedSlice S4x64x130x1 ![0, 0, 0, 127] · slices_S4x64x130x129_S4x64x130x1_0_0_0_127) : (⟨S4x64x130x129, .f32⟩ : BufTy).Contents (Elt F) → (⟨S4x64x130x1, .f32⟩ : BufTy).Contents (Elt F)),
    unary main_call0_v13 main_call0_v14 (Host.reverse [3] : (⟨S4x64x130x1, .f32⟩ : BufTy).Contents (Elt F) → (⟨S4x64x130x1, .f32⟩ : BufTy).Contents (Elt F)),
    binary main_call0_v11 main_call0_v14 main_v21 ((fun a b => concatenate S4x64x130x130 3 [⟨S4x64x130x129, a⟩, ⟨S4x64x130x1, b⟩] concatenates_S4x64x130x129_S4x64x130x1_S4x64x130x130_d3) : (⟨S4x64x130x129, .f32⟩ : BufTy).Contents (Elt F) → (⟨S4x64x130x1, .f32⟩ : BufTy).Contents (Elt F) → (⟨S4x64x130x130, .f32⟩ : BufTy).Contents (Elt F)),
    nullary main_cst_6 (constant S_ .f32 0x00000000#32),
    binary main_v21 main_cst_6 main_v22 ((fun x v => Host.reduceAdd x v reducesTo_S4x64x130x130_S4x64_d2_3 h_S_) : (⟨S4x64x130x130, .f32⟩ : BufTy).Contents (Elt F) → (⟨S_, .f32⟩ : BufTy).Contents (Elt F) → (⟨S4x64, .f32⟩ : BufTy).Contents (Elt F)),
    nullary main_cst_7 (constant S_ .f32 0x46840800#32),
    unary main_cst_7 main_v23 (broadcastInDim S4x64 ![] bcast_S_S4x64 : (⟨S_, .f32⟩ : BufTy).Contents (Elt F) → (⟨S4x64, .f32⟩ : BufTy).Contents (Elt F)),
    binary main_v22 main_v23 main_v24 (Host.divf : (⟨S4x64, .f32⟩ : BufTy).Contents (Elt F) → (⟨S4x64, .f32⟩ : BufTy).Contents (Elt F) → (⟨S4x64, .f32⟩ : BufTy).Contents (Elt F)),
    binary main_v24 main_arg1 main_v25 ((fun l r => Host.dotGeneral dot_S4x64_S64x256_S4x256_1_0_0_1_n_n none l r) : (⟨S4x64, .f32⟩ : BufTy).Contents (Elt F) → (⟨S64x256, .f32⟩ : BufTy).Contents (Elt F) → (⟨S4x256, .f32⟩ : BufTy).Contents (Elt F)) ]

-- the program is a chain of fifty-one steps
set_option maxRecDepth 2048 in
/-- @main is that straight line: the three functions' definitions unfolded at their calls, both sides are one chain
    of steps once sequencing is re-associated. -/
theorem main_eq (c : Dev nD) : main (F := F) c = seq ops := by
  simp only [main, fn_pad.body, fn_flip.body, fn_flip_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub ..,
    unary_bufs_sub .., unary_bufs_sub .., unary_bufs_sub .., binary_bufs_sub .., unary_bufs_sub .., unary_bufs_sub ..,
    unary_bufs_sub .., binary_bufs_sub .., unary_bufs_sub .., unary_bufs_sub .., unary_bufs_sub .., binary_bufs_sub ..,
    unary_bufs_sub .., unary_bufs_sub .., unary_bufs_sub .., binary_bufs_sub ..,
    nullary_bufs_sub .., binary_bufs_sub .., nullary_bufs_sub .., unary_bufs_sub .., binary_bufs_sub .., binary_bufs_sub ..⟩

-- the composed term is large: the centred array occurs in it three times, the mean in each of them
set_option maxHeartbeats 2000000 in
/-- The fold of the operations at the result buffer is the composed term of the two arguments' contents. -/
theorem result_eq (V : Valuation τ sig (Elt F)) :
    after ops V (main_v25 : DevRef τ sig) = result (V (main_arg0 : DevRef τ sig)) (V (main_arg1 : DevRef τ sig)) := by
  after_results
  rfl

/-- The operations write neither argument. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution of @main
    terminates with the result buffer at "result" of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v25)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (result_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.KITail.lean ====
/-
  The host operations after the kernel, read at an index.

  The kernel leaves the descriptors as a [64, 4] array, channel first. The host transposes it to [4, 64] and
  multiplies it by the weights [64, 256], contracting the channel axis. At (n, j) the product is therefore the sum
  over the channels c of the descriptor at (c, n) times the weight at (c, j): a sum of products of extended reals,
  with no rounding and no accumulator.
-/
import proofs.«158271_j11888469476170_2_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The transpose of a [64, 4] array reads, at (n, c), the array at (c, n). -/
theorem transpose_apply644 {α : Type} (x : S64x4.Idx → α) (ht : S64x4.Transposes [1, 0] S4x64) (n : Fin 4) (c : Fin 64) :
    transpose S4x64 [1, 0] x ht (ix2 n c) = x (ix2 c n) := by
  refine transpose_apply [1, 0] x ht (ix2 n c) (ix2 c n) fun b => ?_
  match b with
  | ⟨0, _⟩ => rfl
  | ⟨1, _⟩ => rfl

/-- The product of a [4, 64] by a [64, 256] array, read at (n, j): the sum over the contracted coordinate of the
    products of the entries. -/
theorem dot_apply (A : FVec Ideal S4x64 .f32) (B : FVec Ideal S64x256 .f32) (n : Fin 4) (j : Fin 256) :
    Host.dotGeneral (F := Ideal) dot_S4x64_S64x256_S4x256_1_0_0_1_n_n none A B (ix2 n j)
      = ∑ c : Fin 64, A (ix2 n c) * B (ix2 c j) := by
  show FloatOps.dotGeneral _ none _ A B (ix2 n j) = _
  rw [Ideal.dotGeneral_apply,
    ← Equiv.sum_comp (contrEquiv1 dot_S4x64_S64x256_S4x256_1_0_0_1_n_n 64 rfl rfl).symm]
  refine Finset.sum_congr rfl fun c _ => ?_
  have c2 := contrEquiv1_symm_val dot_S4x64_S64x256_S4x256_1_0_0_1_n_n 64 rfl rfl c
  have l2 : dot_S4x64_S64x256_S4x256_1_0_0_1_n_n.lhsIdx (ix2 n j) ((contrEquiv1 _ 64 rfl rfl).symm c) = ix2 n c := by
    funext ax; apply Fin.ext
    match ax with
    | ⟨0, _⟩ => simp [DotDims.lhsIdx, dot_S4x64_S64x256_S4x256_1_0_0_1_n_n]; rfl
    | ⟨1, _⟩ => simp [DotDims.lhsIdx, dot_S4x64_S64x256_S4x256_1_0_0_1_n_n]; exact c2
  have r2 : dot_S4x64_S64x256_S4x256_1_0_0_1_n_n.rhsIdx (ix2 n j) ((contrEquiv1 _ 64 rfl rfl).symm c) = ix2 c j := by
    funext ax; apply Fin.ext
    match ax with
    | ⟨0, _⟩ => simp [DotDims.rhsIdx, dot_S4x64_S64x256_S4x256_1_0_0_1_n_n]; exact c2
    | ⟨1, _⟩ => simp [DotDims.rhsIdx, dot_S4x64_S64x256_S4x256_1_0_0_1_n_n]; rfl
  rw [l2, r2]

/-- THE TAIL: the transposed descriptors times the weights, at (n, j), is the sum over the channels of the
    descriptor at (c, n) times the weight at (c, j). -/
theorem tail_apply (o : FVec Ideal S64x4 .f32) (Wa : FVec Ideal S64x256 .f32) (n : Fin 4) (j : Fin 256) :
    Host.dotGeneral (F := Ideal) dot_S4x64_S64x256_S4x256_1_0_0_1_n_n none
        (transpose S4x64 [1, 0] o Gen.transposes_S64x4_S4x64_1_0) Wa (ix2 n j)
      = ∑ c : Fin 64, o (ix2 c n) * Wa (ix2 c j) := by
  rw [dot_apply]
  exact Finset.sum_congr rfl fun c _ => by rw [transpose_apply644]

end Cert.KernelIdeal.Pay

end
-- ==== Proof.StatSpec.lean ====
/-
  The statistic both programs compute, as a real-valued specification.

  For one (sample, channel) slab `x d h w` (32 depth slices of 128 × 128): the slab's mean and biased variance over all
  of its 524288 entries, the normalised slab averaged over depth, the 130 × 130 reflection padding of that 128 × 128
  map (row and column 0 mirror 1, row and column 129 mirror 126), and the mean of the padded map: the descriptor
  `desc`. The result is the descriptor matrix times the weights. `ε` is the variance's regulariser.

  `kdesc` is the same number as the kernel arranges it: the variance as E[x²] − E[x]², clipped at 0; the depth mean
  taken before normalising; and the padded map's sum as the map's sum plus two rows, two columns and four corners.
-/
import Idealize.ShloMosaic.PureOps.Ideal

noncomputable section

open scoped BigOperators

namespace Cert.StatSpec

/-- One (sample, channel) slab: depth, row, column. -/
abbrev Slab := Fin 32 → Fin 128 → Fin 128 → ℝ

/-- The slab's mean over its 32 · 128 · 128 = 524288 entries. -/
def mu (x : Slab) : ℝ := (∑ d, ∑ h, ∑ w, x d h w) / 524288

/-- The slab's biased variance. -/
def var (x : Slab) : ℝ := (∑ d, ∑ h, ∑ w, (x d h w - mu x) * (x d h w - mu x)) / 524288

/-- The reciprocal standard deviation, regularised by `ε`. -/
def istd (ε : ℝ) (x : Slab) : ℝ := (Real.sqrt (var x + ε))⁻¹

/-- The normalised slab averaged over depth. -/
def xm (ε : ℝ) (x : Slab) (h w : Fin 128) : ℝ := (∑ d, (x d h w - mu x) * istd ε x) / 32

/-- Reflection padding by one: padded coordinate `i` of 130 reads source coordinate `refl i` of 128. -/
def refl (i : Fin 130) : Fin 128 :=
  if _h0 : i.val = 0 then ⟨1, by omega⟩
  else if _h1 : i.val = 129 then ⟨126, by omega⟩
  else ⟨i.val - 1, by omega⟩

/-- The descriptor: the mean of the reflection-padded depth mean. -/
def desc (ε : ℝ) (x : Slab) : ℝ := (∑ i : Fin 130, ∑ j : Fin 130, xm ε x (refl i) (refl j)) / 16900

/-- The result: descriptors times weights. -/
def out (ε : ℝ) (X : Fin 4 → Fin 64 → Slab) (W : Fin 64 → Fin 256 → ℝ) (n : Fin 4) (j : Fin 256) : ℝ :=
  ∑ c : Fin 64, desc ε (X n c) * W c j

/-! ## The kernel's arrangement -/

/-- The sum of the slab. -/
def ksum (x : Slab) : ℝ := ∑ d, ∑ h, ∑ w, x d h w
/-- The sum of its squares. -/
def ksq (x : Slab) : ℝ := ∑ d, ∑ h, ∑ w, x d h w * x d h w
/-- The mean. -/
def kmu (x : Slab) : ℝ := ksum x / 524288
/-- The variance as E[x²] − E[x]², clipped at zero. -/
def kvar (x : Slab) : ℝ := max (ksq x / 524288 - kmu x * kmu x) 0
/-- The reciprocal standard deviation. -/
def kistd (ε : ℝ) (x : Slab) : ℝ := (Real.sqrt (kvar x + ε))⁻¹
/-- The depth mean, normalised afterwards. -/
def kxm (ε : ℝ) (x : Slab) (h w : Fin 128) : ℝ := kistd ε x * ((∑ d, x d h w) / 32 - kmu x)
/-- The padded map's mean as the map's sum plus rows 1 and 126, columns 1 and 126, and the four corners. -/
def kdesc (ε : ℝ) (x : Slab) : ℝ :=
  ((∑ h, ∑ w, kxm ε x h w) + (∑ w, kxm ε x 1 w) + (∑ w, kxm ε x 126 w) + (∑ h, kxm ε x h 1) + (∑ h, kxm ε x h 126)
    + kxm ε x 1 1 + kxm ε x 1 126 + kxm ε x 126 1 + kxm ε x 126 126) / 16900

end Cert.StatSpec

end
-- ==== Proof.Consts.lean ====
/-
  The float constants the two programs spell, as the extended reals their IEEE-754 single-precision patterns
  denote: sign bit, eight exponent bits with bias 127, twenty-three trailing significand bits, a normal pattern
  denoting (2^23 + T) · 2^(E − 127 − 23).

  524288 = 2^19 is the number of entries of one slab, 32 = 2^5 its depth, 16900 = 130 · 130 the number of entries
  of the padded map, and the variance's regulariser is the single-precision number nearest to 10⁻⁵, which is
  10995116 · 2^(−40).
-/
import Idealize.ShloMosaic.PureOps.Ideal

noncomputable section

namespace Cert.Consts

open Idealize.ShloMosaic

/-- The pattern of `524288.0` (exponent field 146, significand field 0) denotes the real `524288 = 2^19`. -/
theorem ofBits_524288 : Ideal.ofBits .f32 0x49000000#32 = ((524288 : ℝ) : EReal) := by
  simp [Ideal.ofBits, Ideal.ieee, -EReal.coe_mul]; norm_num

/-- The pattern of `32.0` (exponent field 132, significand field 0) denotes the real `32 = 2^5`. -/
theorem ofBits_32 : Ideal.ofBits .f32 0x42000000#32 = ((32 : ℝ) : EReal) := by
  simp [Ideal.ofBits, Ideal.ieee, -EReal.coe_mul]; norm_num

/-- The pattern of `16900.0` (exponent field 141, significand field 264192) denotes the real
    `16900 = (2^23 + 264192) · 2^(−9)`. -/
theorem ofBits_16900 : Ideal.ofBits .f32 0x46840800#32 = ((16900 : ℝ) : EReal) := by
  simp [Ideal.ofBits, Ideal.ieee, -EReal.coe_mul]; norm_num

/-- The variance's regulariser: the single-precision number nearest to `10⁻⁵`, which is
    `(2^23 + 2606508) · 2^(110 − 127 − 23) = 10995116 · 2^(−40)`. -/
def eps : ℝ := 10995116 / 1099511627776

/-- The regulariser is positive. -/
theorem eps_pos : 0 < eps := by
  unfold eps; norm_num

/-- The regulariser's pattern (exponent field 110, significand field 2606508) denotes `eps`. -/
theorem ofBits_eps : Ideal.ofBits .f32 0x3727C5AC#32 = ((eps : ℝ) : EReal) := by
  unfold eps
  simp [Ideal.ofBits, Ideal.ieee, -EReal.coe_mul]; norm_num

end Cert.Consts

end
-- ==== Proof.KIArray.lean ====
/-
  From the output blocks to the result. The output window's block at point `t` is rows 8·(t / 4) … 8·(t / 4) + 7 of
  the [64, 4] descriptor array, and it is written back exactly at the last depth tile of each channel tile; those
  eight blocks tile the array, so the array ends holding the descriptor of every (channel, sample). The two host
  operations after the kernel then transpose it and multiply it by the weights.
-/
import proofs.«158271_j11888469476170_2_alg».proof.Proof.KIFrame
import proofs.«158271_j11888469476170_2_alg».proof.Proof.KITail
import proofs.«158271_j11888469476170_2_alg».proof.Proof.StatSpec
import proofs.«158271_j11888469476170_2_alg».proof.Proof.Consts
import Idealize.ShloMosaic.Lib.Pipeline.Value
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay
open scoped BigOperators

variable (m : (ℓ : Loc nD τ sig) → Buf (Elt Ideal) ℓ) (ρ : Dev nD → PrngReg) (c : Dev nD)
  (Xr : Fin 4 → Fin 64 → Fin 32 → Fin 128 → Fin 128 → ℝ)

/-- The descriptor array: entry (C, n) is the descriptor of sample `n`'s channel `C`. -/
def descArr : S64x4.Idx → EReal :=
  fun i => ((Cert.StatSpec.desc Cert.Consts.eps (fun d h w => Xr (i 1) (i 0) d h w) : ℝ) : EReal)

/-- The output window's block index at point `t`: channel tile `t / 4`. -/
theorem index0_1 : ∀ t : Fin cfg0.N, win0_1.index t 0 = t.val / 4 ∧ win0_1.index t 1 = 0 :=
  (by decide +kernel : ∀ t : Fin grid0.N, win0_1.index t 0 = t.val / 4 ∧ win0_1.index t 1 = 0)

/-- What an output block holds after a last depth tile, as a hypothesis on the body's values: entry (cc, n) of the block
    at point `t` is the descriptor of sample `n`'s channel 8·(t / 4) + cc. -/
def BlockVal : Prop :=
  ∀ (t : Fin cfg0.N), t.val % 4 = 3 → ∀ (j : S8x4.Idx) (C : Fin 64), C.val = 8 * (t.val / 4) + (j 0).val →
    (outsAt0 m c t.val t.isLt).1 j = ((Cert.StatSpec.desc Cert.Consts.eps (fun d h w => Xr (j 1) C d h w) : ℝ) : EReal)

/-- What point `t` writes back is block `t` of the descriptor array. -/
theorem flushed_eq (hB : BlockVal m c Xr) (t : Fin cfg0.N) (hf : (cfg0.win 1).flush t = true) :
    (dats m 0 c).flushed 1 t = ((cfg0.win 1).blk t).view.read (Elt Ideal) (descArr Xr) := by
  have h3 : t.val % 4 = 3 := (flush0_1 t).mp hf
  obtain ⟨i0, i1⟩ := index0_1 t
  show (cfg0.win 1).cut (grid0.coords t) ((dats m 0 c).after 1 t) = _
  rw [after0_1]
  funext j
  show (outsAt0 m c t.val t.isLt).1 j = descArr Xr (((cfg0.win 1).blk t).view.emb j)
  have e0 : ((((cfg0.win 1).blk t).view.emb j) 0 : Fin 64).val = 8 * (t.val / 4) + (j 0).val := by
    show win0_1.index t 0 * 8 + 1 * (j 0).val = _
    rw [i0]; omega
  have e1 : ((((cfg0.win 1).blk t).view.emb j) 1 : Fin 4) = j 1 := by
    apply Fin.ext
    show win0_1.index t 1 * 4 + 1 * (j 1).val = (j 1).val
    rw [i1]; omega
  rw [hB t h3 j _ e0]
  unfold descArr
  rw [e1]

/-- An index of the array is in point `t`'s block iff each coordinate is in the block's range. -/
theorem mem_blk (t : Fin cfg0.N) (i : S64x4.Idx) :
    i ∈ ((cfg0.win 1).blk t).view.set ↔ ∀ a : Fin 2, win0_1.index t a * S8x4.size a ≤ (i a).val ∧ (i a).val < win0_1.index t a * S8x4.size a + S8x4.size a := by
  show i ∈ ((View.whole main_v0).slice (win0_1.rect t)).set ↔ _
  rw [View.set_slice_whole, Rect.mem_set_unit]
  exact Iff.rfl

/-- The array ends holding the descriptors: the block written back after channel tile `q`'s last depth tile covers
    rows 8q … 8q + 7. -/
theorem final (hB : BlockVal m c Xr) : (dats m 0 c).arrAt 1 cfg0.N = descArr Xr :=
  (dats m 0 c).arrAt_eq_of_cover 1 (descArr Xr) (flushed_eq m c Xr hB) fun i => by
    have hi0 : (i 0).val < 64 := (i 0).isLt
    have hi1 : (i 1).val < 4 := (i 1).isLt
    have hN : cfg0.N = 32 := N_0
    have ht : 4 * ((i 0).val / 8) + 3 < cfg0.N := by rw [hN]; omega
    refine ⟨⟨4 * ((i 0).val / 8) + 3, ht⟩, (flush0_1 _).mpr (by show (4 * ((i 0).val / 8) + 3) % 4 = 3; omega), ?_⟩
    rw [mem_blk]
    obtain ⟨i0, i1⟩ := index0_1 ⟨4 * ((i 0).val / 8) + 3, ht⟩
    intro a
    match a with
    | ⟨0, _⟩ =>
      show win0_1.index ⟨4 * ((i 0).val / 8) + 3, ht⟩ 0 * 8 ≤ (i 0).val ∧ (i 0).val < win0_1.index ⟨4 * ((i 0).val / 8) + 3, ht⟩ 0 * 8 + 8
      rw [i0]; show (4 * ((i 0).val / 8) + 3) / 4 * 8 ≤ (i 0).val ∧ (i 0).val < (4 * ((i 0).val / 8) + 3) / 4 * 8 + 8; omega
    | ⟨1, _⟩ =>
      show win0_1.index ⟨4 * ((i 0).val / 8) + 3, ht⟩ 1 * 4 ≤ (i 1).val ∧ (i 1).val < win0_1.index ⟨4 * ((i 0).val / 8) + 3, ht⟩ 1 * 4 + 4
      rw [i1]; omega

/-- The two host operations after the kernel: the transpose, then the product with the weights. -/
def tailOf (o : FVec Ideal S64x4 .f32) (Wa : FVec Ideal S64x256 .f32) : FVec Ideal S4x256 .f32 :=
  Host.dotGeneral (F := Ideal) dot_S4x64_S64x256_S4x256_1_0_0_1_n_n none
    (transpose S4x64 [1, 0] o Gen.transposes_S64x4_S4x64_1_0) Wa

/-- They are applied to the array the kernel leaves and to the weights. -/
theorem tail_eq :
    Pipeline.afterTail₀ cfgs (dats m) 0 (V0 m) [hostOps1] c main_v2
      = tailOf ((dats m 0 c).arrAt 1 cfg0.N) (m ((c : Thread nD τ).loc main_arg1)) := by
  unfold Pipeline.afterTail₀
  show StableHlo.after hostOps1 _ (Proc.devRef .tc main_v2) = _
  after_results
  rw [Pipeline.withArrays_arr spec0 launch0.win.arr_inj c _ _ 1,
    Pipeline.withArrays_of_ne _ c (V0 m c) _ main_arg1 (by exact (by decide : ∀ w, Pipeline.arrRef spec0 w ≠ main_arg1))]
  rfl

/-- THE KERNEL'S RESULT, entry by entry: the descriptors times the weights. -/
theorem result_apply (hB : BlockVal m c Xr) (n : Fin 4) (j : Fin 256) :
    (Pipeline.afterTail₀ cfgs (dats m) 0 (V0 m) [hostOps1] c main_v2 (ix2 n j) : EReal)
      = ∑ C : Fin 64, ((Cert.StatSpec.desc Cert.Consts.eps (fun d h w => Xr n C d h w) : ℝ) : EReal)
          * m ((c : Thread nD τ).loc main_arg1) (ix2 C j) := by
  rw [tail_eq, final m c Xr hB]
  exact tail_apply (descArr Xr) (m ((c : Thread nD τ).loc main_arg1)) n j

/-- The run, read: the result buffer at the tail's value, the two arguments unchanged. -/
theorem run : θ_run defs (onTc (τ := τ) (main (F := Ideal))) ⟨m, fun _ => 0, ρ⟩ fun r => ∀ c : Dev nD,
      r.2.mem ((c.tc : Thread nD τ).loc main_v2) = Pipeline.afterTail₀ cfgs (dats m) 0 (V0 m) [hostOps1] c main_v2
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).2 main_v2 (Pipeline.mem_restRefs_of main_v2 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Body

end
-- ==== Proof.KITrip.lean ====
/-
  The loop over the eight depth slices of an input block, as a plain recursion. One trip loads depth slice `k` of the
  block, adds it into the per-pixel depth sum, and adds the slice's sum and sum of squares to the two carried values.
  `loopSt` is the state before trip `k` — the depth sum and the carried pair — and `st_eq` says that this is what the
  loop's run holds: the accumulator reads back the recursion's first component, the carried value is its second.
-/
import proofs.«158271_j11888469476170_2_alg».proof.Proof.KIBodyDefs
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-buffer rectangle's offsets are zero. -/
theorem off4_zero : (![0, 0, 0, 0] : Fin 4 → ℕ) = fun _ => 0 := by
  funext a; fin_cases a <;> rfl
theorem off2_zero : (![0, 0] : Fin 2 → ℕ) = fun _ => 0 := by
  funext a; fin_cases a <;> rfl

/-- A load through the whole-buffer rectangle reads the contents. -/
theorem readAt_whole4 (v : View sig .tc .vmem S4x8x128x128 .f32) (f : v.ty.Contents (Elt F))
    (inb : ∀ a, (![0, 0, 0, 0] : Fin 4 → ℕ) a + S4x8x128x128.size a ≤ S4x8x128x128.size a) :
    View.readAt (Elt F) v (Rect.unit (s := S4x8x128x128) ![0, 0, 0, 0] S4x8x128x128.size inb).toLoadRect f = v.read (Elt F) f := by
  rw [View.readAt_eq_ld, View.ld_unit_zero off4_zero]
theorem readAt_whole2 (v : View sig .tc .vmem S4x8 .f32) (f : v.ty.Contents (Elt F))
    (inb : ∀ a, (![0, 0] : Fin 2 → ℕ) a + S4x8.size a ≤ S4x8.size a) :
    View.readAt (Elt F) v (Rect.unit (s := S4x8) ![0, 0] S4x8.size inb).toLoadRect f = v.read (Elt F) f := by
  rw [View.readAt_eq_ld, View.ld_unit_zero off2_zero]

/-- After a last store through the whole-buffer rectangle (at zero offsets, however the zeros are spelt) the buffer
    reads the stored value, whatever was stored before. -/
theorem read_writes_unit_zero {Val : EltTy → Type} {S : Shape} {e : EltTy} {sig' : RefSig} {κ : Kind} {sp : Space}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

theorem read_writes_whole4 (v : View sig .tc .vmem S4x8x128x128 .f32) (f : v.ty.Contents (Elt F))
    (inb : ∀ a, (![0, 0, 0, 0] : Fin 4 → ℕ) a + S4x8x128x128.size a ≤ S4x8x128x128.size a)
    (w : S4x8x128x128.Idx → Elt F .f32) (L : List (View.Piece (Elt F) S4x8x128x128 .f32)) :
    v.read (Elt F) (v.writes (Elt F) f (⟨Rect.unit (s := S4x8x128x128) ![0, 0, 0, 0] S4x8x128x128.size inb, w⟩ :: L)) = w :=
  read_writes_unit_zero v f off4_zero inb w L
theorem read_writes_whole2 (v : View sig .tc .vmem S4x8 .f32) (f : v.ty.Contents (Elt F))
    (inb : ∀ a, (![0, 0] : Fin 2 → ℕ) a + S4x8.size a ≤ S4x8.size a)
    (w : S4x8.Idx → Elt F .f32) (L : List (View.Piece (Elt F) S4x8 .f32)) :
    v.read (Elt F) (v.writes (Elt F) f (⟨Rect.unit (s := S4x8) ![0, 0] S4x8.size inb, w⟩ :: L)) = w :=
  read_writes_unit_zero v f off2_zero inb w L

/-- Depth slice `k` of an input block. -/
def sliceOf (x : Vec F S4x8x8x128x128 .f32) (k : Fin k0_t1_loop.trips) : Vec F S4x8x1x128x128 .f32 :=
  View.ld x (Rect.unit (s := S4x8x8x128x128) (k0_off1 k) S4x8x1x128x128.size (k0_off1_inb k))

/-- The state before trip `k`: the per-pixel depth sum and the carried pair (sum, sum of squares). -/
def loopSt (x : Vec F S4x8x8x128x128 .f32) (d0 : Vec F S4x8x128x128 .f32) (init : FVec F S4x8 .f32 × FVec F S4x8 .f32) :
    ℕ → Vec F S4x8x128x128 .f32 × (FVec F S4x8 .f32 × FVec F S4x8 .f32)
  | 0 => (d0, init)
  | k + 1 =>
    if h : k < k0_t1_loop.trips then
      (k0_pay7 (sliceOf x ⟨k, h⟩) (loopSt x d0 init k).1,
        (k0_pay8 (loopSt x d0 init k).2.1 (sliceOf x ⟨k, h⟩), k0_pay9 (loopSt x d0 init k).2.2 (sliceOf x ⟨k, h⟩)))
    else loopSt x d0 init k

theorem loopSt_succ (x : Vec F S4x8x8x128x128 .f32) (d0 : Vec F S4x8x128x128 .f32) (init : FVec F S4x8 .f32 × FVec F S4x8 .f32)
    (k : Fin k0_t1_loop.trips) :
    loopSt x d0 init (k.val + 1) = (k0_pay7 (sliceOf x k) (loopSt x d0 init k.val).1,
        (k0_pay8 (loopSt x d0 init k.val).2.1 (sliceOf x k), k0_pay9 (loopSt x d0 init k.val).2.2 (sliceOf x k))) := by
  rw [loopSt]; exact dif_pos k.isLt

/-- One trip's store: the whole accumulator, at the slice added to what the accumulator held. -/
theorem tripL_eq (𝒱 : Variants) (c : Dev nD) (bd : Option 𝒱.V) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (X_arg2 : BufTy.Contents (Elt F) arg2.view.ty) (k : Fin k0_t1_loop.trips) (acc : FVec F S4x8 .f32 × FVec F S4x8 .f32) (f_arg4 : BufTy.Contents (Elt F) arg4.view.ty) :
    tripL_k0_t1 (F := F) 𝒱 c bd i arg2 harg2 arg3 harg3 arg4 harg4 arg5 harg5 arg6 harg6 X_arg2 k acc f_arg4
      = [⟨Rect.unit (s := S4x8x128x128) ![0, 0, 0, 0] S4x8x128x128.size inb_S4x8x128x128_S4x8x128x128_0_0_0_0,
          k0_pay7 (View.readAt (Elt F) arg2.view (Rect.unit (s := S4x8x8x128x128) (k0_off1 k) S4x8x1x128x128.size (k0_off1_inb k)).toLoadRect X_arg2)
            (View.readAt (Elt F) arg4.view (Rect.unit (s := S4x8x128x128) ![0, 0, 0, 0] S4x8x128x128.size inb_S4x8x128x128_S4x8x128x128_0_0_0_0).toLoadRect f_arg4)⟩] := by
  unfold tripL_k0_t1 trip_k0_t1; rfl

/-- One trip's yield: the slice's sum and sum of squares added to the carried pair. -/
theorem tripR_eq (𝒱 : Variants) (c : Dev nD) (bd : Option 𝒱.V) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (X_arg2 : BufTy.Contents (Elt F) arg2.view.ty) (k : Fin k0_t1_loop.trips) (acc : FVec F S4x8 .f32 × FVec F S4x8 .f32) (f_arg4 : BufTy.Contents (Elt F) arg4.view.ty) :
    tripR_k0_t1 (F := F) 𝒱 c bd i arg2 harg2 arg3 harg3 arg4 harg4 arg5 harg5 arg6 harg6 X_arg2 k acc f_arg4
      = (k0_pay8 acc.1 (View.readAt (Elt F) arg2.view (Rect.unit (s := S4x8x8x128x128) (k0_off1 k) S4x8x1x128x128.size (k0_off1_inb k)).toLoadRect X_arg2),
         k0_pay9 acc.2 (View.readAt (Elt F) arg2.view (Rect.unit (s := S4x8x8x128x128) (k0_off1 k) S4x8x1x128x128.size (k0_off1_inb k)).toLoadRect X_arg2)) := by
  unfold tripR_k0_t1 trip_k0_t1; rfl

/-- The loop's run holds the recursion's state: before trip `k` the accumulator reads back the depth sum so far and the
    carried value is the pair so far. -/
theorem st_eq (𝒱 : Variants) (c : Dev nD) (bd : Option 𝒱.V) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (X_arg2 : BufTy.Contents (Elt F) arg2.view.ty) (G_arg4 : BufTy.Contents (Elt F) arg4.view.ty) (init : FVec F S4x8 .f32 × FVec F S4x8 .f32) :
    ∀ k : ℕ, k ≤ k0_t1_loop.trips →
      arg4.view.read (Elt F) (arg4.view.writes (Elt F) G_arg4 (st_k0_t1 (F := F) 𝒱 c bd i arg2 harg2 arg3 harg3 arg4 harg4 arg5 harg5 arg6 harg6 X_arg2 G_arg4 init k).2)
          = (loopSt (arg2.view.read (Elt F) X_arg2) (arg4.view.read (Elt F) G_arg4) init k).1
        ∧ (st_k0_t1 (F := F) 𝒱 c bd i arg2 harg2 arg3 harg3 arg4 harg4 arg5 harg5 arg6 harg6 X_arg2 G_arg4 init k).1
          = (loopSt (arg2.view.read (Elt F) X_arg2) (arg4.view.read (Elt F) G_arg4) init k).2
  | 0, _ => ⟨rfl, rfl⟩
  | k + 1, hk => by
    have ih := st_eq 𝒱 c bd i arg2 harg2 arg3 harg3 arg4 harg4 arg5 harg5 arg6 harg6 X_arg2 G_arg4 init k (Nat.le_of_succ_le hk)
    have e := st_k0_t1_succ (F := F) 𝒱 c bd i arg2 harg2 arg3 harg3 arg4 harg4 arg5 harg5 arg6 harg6 X_arg2 G_arg4 init ⟨k, hk⟩
    have l := loopSt_succ (arg2.view.read (Elt F) X_arg2) (arg4.view.read (Elt F) G_arg4) init ⟨k, hk⟩
    simp only [] at e l
    rw [e, l, tripL_eq, tripR_eq]
    refine ⟨?_, ?_⟩
    · rw [List.singleton_append, read_writes_whole4, readAt_whole4, ih.1, View.readAt_eq_ld]; rfl
    · rw [ih.2, View.readAt_eq_ld]; rfl

end Cert.KernelIdeal.Body

end
-- ==== Proof.KIPieces.lean ====
/-
  What each case of the body leaves in the three accumulators and in the output block, as plain functions of the input
  block and of what the accumulators held: the depth sum after the eight trips; the two small accumulators plus the
  loop's carried sums; and, at the last depth tile, the finished descriptor of those three.
-/
import proofs.«158271_j11888469476170_2_alg».proof.Proof.KITrip
import proofs.«158271_j11888469476170_2_alg».proof.Proof.KIFrame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The loop's state after all eight trips. -/
abbrev loopEnd (x : Vec F S4x8x8x128x128 .f32) (d0 : Vec F S4x8x128x128 .f32) :
    Vec F S4x8x128x128 .f32 × (FVec F S4x8 .f32 × FVec F S4x8 .f32) :=
  loopSt x d0 (k0_pay4, k0_pay5) k0_t1_loop.trips

/-- The descriptor finished from the sum, the sum of squares and the depth sum: the body's last stretch as one function. -/
def finish (s q : Vec F S4x8 .f32) (d : Vec F S4x8x128x128 .f32) : FVec F S8x4 .f32 :=
  k0_pay12 (k0_pay14 s q d) (k0_pay15 s q d) (k0_pay16 s q d) (k0_pay17 s q d) (k0_pay18 s q d) (k0_pay19 s q d)
    (k0_pay20 s q d) (k0_pay21 s q d) (k0_pay22 s q d)

theorem off2'_zero : (![0, 0] : Fin 2 → ℕ) = fun _ => 0 := off2_zero

/-! ## Cases B and C: the accumulators continue from what the tile before left -/

theorem sout0_B_0_eq (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i) (x0 : Vec F S4x8x8x128x128 .f32) (xs0 : Vec F S4x8x128x128 .f32) (xs1 : Vec F S4x8 .f32) (xs2 : Vec F S4x8 .f32) :
    sout0_B_0 c i arg2 harg2 arg3 harg3 arg4 harg4 arg5 harg5 arg6 harg6 hc0 hc1 x0 xs0 xs1 xs2 = (loopEnd x0 xs0).1 := by
  unfold sout0_B_0
  rw [View.read_writes_of_cover VS0_0 VS0_0.junk arg4.view (harg4.unread xs0) _ (scover0_B_0 c i arg2 harg2 arg3 harg3 arg4 harg4 arg5 harg5 arg6 harg6 hc0 hc1 x0 xs0 xs1 xs2)]
  have h := (st_eq Variants.none c none i arg2 harg2 arg3 harg3 arg4 harg4 arg5 harg5 arg6 harg6 (harg2.unread x0) (harg4.unread xs0) (k0_pay4, k0_pay5) k0_t1_loop.trips le_rfl).1
  rw [harg2.read_unread, harg4.read_unread] at h
  unfold kernelRun0_B
  exact h

theorem sout0_B_1_eq (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i) (x0 : Vec F S4x8x8x128x128 .f32) (xs0 : Vec F S4x8x128x128 .f32) (xs1 : Vec F S4x8 .f32) (xs2 : Vec F S4x8 .f32) :
    sout0_B_1 c i arg2 harg2 arg3 harg3 arg4 harg4 arg5 harg5 arg6 harg6 hc0 hc1 x0 xs0 xs1 xs2 = k0_pay10 (loopEnd x0 xs0).2.1 xs1 := by
  have h := (st_eq Variants.none c none i arg2 harg2 arg3 harg3 arg4 harg4 arg5 harg5 arg6 harg6 (harg2.unread x0) (harg4.unread xs0) (k0_pay4, k0_pay5) k0_t1_loop.trips le_rfl).2
  rw [harg2.read_unread, harg4.read_unread] at h
  unfold sout0_B_1 kernelRun0_B; dsimp only
  rw [read_writes_whole2, readAt_whole2, harg5.read_unread]
  exact congrArg (fun p : FVec F S4x8 .f32 × FVec F S4x8 .f32 => k0_pay10 p.1 xs1) h

theorem sout0_B_2_eq (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : ¬cond0_1 i) (x0 : Vec F S4x8x8x128x128 .f32) (xs0 : Vec F S4x8x128x128 .f32) (xs1 : Vec F S4x8 .f32) (xs2 : Vec F S4x8 .f32) :
    sout0_B_2 c i arg2 harg2 arg3 harg3 arg4 harg4 arg5 harg5 arg6 harg6 hc0 hc1 x0 xs0 xs1 xs2 = k0_pay11 (loopEnd x0 xs0).2.2 xs2 := by
  have h := (st_eq Variants.none c none i arg2 harg2 arg3 harg3 arg4 harg4 arg5 harg5 arg6 harg6 (harg2.unread x0) (harg4.unread xs0) (k0_pay4, k0_pay5) k0_t1_loop.trips le_rfl).2
  rw [harg2.read_unread, harg4.read_unread] at h
  unfold sout0_B_2 kernelRun0_B; dsimp only
  rw [read_writes_whole2, readAt_whole2, harg6.read_unread]
  exact congrArg (fun p : FVec F S4x8 .f32 × FVec F S4x8 .f32 => k0_pay11 p.2 xs2) h

theorem sout0_C_0_eq (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i) (x0 : Vec F S4x8x8x128x128 .f32) (xs0 : Vec F S4x8x128x128 .f32) (xs1 : Vec F S4x8 .f32) (xs2 : Vec F S4x8 .f32) :
    sout0_C_0 c i arg2 harg2 arg3 harg3 arg4 harg4 arg5 harg5 arg6 harg6 hc0 hc1 x0 xs0 xs1 xs2 = (loopEnd x0 xs0).1 := by
  unfold sout0_C_0
  rw [View.read_writes_of_cover VS0_0 VS0_0.junk arg4.view (harg4.unread xs0) _ (scover0_C_0 c i arg2 harg2 arg3 harg3 arg4 harg4 arg5 harg5 arg6 harg6 hc0 hc1 x0 xs0 xs1 xs2)]
  have h := (st_eq Variants.none c none i arg2 harg2 arg3 harg3 arg4 harg4 arg5 harg5 arg6 harg6 (harg2.unread x0) (harg4.unread xs0) (k0_pay4, k0_pay5) k0_t1_loop.trips le_rfl).1
  rw [harg2.read_unread, harg4.read_unread] at h
  unfold kernelRun0_C
  exact h

theorem sout0_C_1_eq (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i) (x0 : Vec F S4x8x8x128x128 .f32) (xs0 : Vec F S4x8x128x128 .f32) (xs1 : Vec F S4x8 .f32) (xs2 : Vec F S4x8 .f32) :
    sout0_C_1 c i arg2 harg2 arg3 harg3 arg4 harg4 arg5 harg5 arg6 harg6 hc0 hc1 x0 xs0 xs1 xs2 = k0_pay10 (loopEnd x0 xs0).2.1 xs1 := by
  have h := (st_eq Variants.none c none i arg2 harg2 arg3 harg3 arg4 harg4 arg5 harg5 arg6 harg6 (harg2.unread x0) (harg4.unread xs0) (k0_pay4, k0_pay5) k0_t1_loop.trips le_rfl).2
  rw [harg2.read_unread, harg4.read_unread] at h
  unfold sout0_C_1 kernelRun0_C; dsimp only; sl_unfold_run_names
  rw [read_writes_whole2, readAt_whole2, harg5.read_unread]
  exact congrArg (fun p : FVec F S4x8 .f32 × FVec F S4x8 .f32 => k0_pay10 p.1 xs1) h

theorem sout0_C_2_eq (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i) (x0 : Vec F S4x8x8x128x128 .f32) (xs0 : Vec F S4x8x128x128 .f32) (xs1 : Vec F S4x8 .f32) (xs2 : Vec F S4x8 .f32) :
    sout0_C_2 c i arg2 harg2 arg3 harg3 arg4 harg4 arg5 harg5 arg6 harg6 hc0 hc1 x0 xs0 xs1 xs2 = k0_pay11 (loopEnd x0 xs0).2.2 xs2 := by
  have h := (st_eq Variants.none c none i arg2 harg2 arg3 harg3 arg4 harg4 arg5 harg5 arg6 harg6 (harg2.unread x0) (harg4.unread xs0) (k0_pay4, k0_pay5) k0_t1_loop.trips le_rfl).2
  rw [harg2.read_unread, harg4.read_unread] at h
  unfold sout0_C_2 kernelRun0_C; dsimp only; sl_unfold_run_names
  rw [read_writes_whole2, readAt_whole2, harg6.read_unread]
  exact congrArg (fun p : FVec F S4x8 .f32 × FVec F S4x8 .f32 => k0_pay11 p.2 xs2) h

/-! ## Case A: the accumulators restart from zero -/

theorem sout0_A_0_eq (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i) (x0 : Vec F S4x8x8x128x128 .f32) :
    sout0_A_0 c i arg2 harg2 arg3 harg3 arg4 harg4 arg5 harg5 arg6 harg6 hc0 hc1 x0 = (loopEnd x0 (k0_pay1 (F := F))).1 := by
  unfold sout0_A_0
  rw [View.read_writes_of_cover VS0_0 VS0_0.junk arg4.view arg4.view.junk _ (scover0_A_0 c i arg2 harg2 arg3 harg3 arg4 harg4 arg5 harg5 arg6 harg6 hc0 hc1 x0)]
  have h := (st_eq Variants.none c none i arg2 harg2 arg3 harg3 arg4 harg4 arg5 harg5 arg6 harg6 (harg2.unread x0) (arg4.view.writes (Elt F) arg4.view.junk [(⟨Rect.unit (s := S4x8x128x128) ![0, 0, 0, 0] S4x8x128x128.size inb_S4x8x128x128_S4x8x128x128_0_0_0_0, k0_pay1⟩ : View.Piece (Elt F) S4x8x128x128 .f32)]) (k0_pay4, k0_pay5) k0_t1_loop.trips le_rfl).1
  rw [harg2.read_unread, read_writes_whole4] at h
  unfold kernelRun0_A; dsimp only; sl_unfold_run_names
  rw [View.writes_append]
  exact h

theorem sout0_A_1_eq (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i) (x0 : Vec F S4x8x8x128x128 .f32) :
    sout0_A_1 c i arg2 harg2 arg3 harg3 arg4 harg4 arg5 harg5 arg6 harg6 hc0 hc1 x0 = k0_pay10 (loopEnd x0 (k0_pay1 (F := F))).2.1 (k0_pay2 (F := F)) := by
  have h := (st_eq Variants.none c none i arg2 harg2 arg3 harg3 arg4 harg4 arg5 harg5 arg6 harg6 (harg2.unread x0) (arg4.view.writes (Elt F) arg4.view.junk [(⟨Rect.unit (s := S4x8x128x128) ![0, 0, 0, 0] S4x8x128x128.size inb_S4x8x128x128_S4x8x128x128_0_0_0_0, k0_pay1⟩ : View.Piece (Elt F) S4x8x128x128 .f32)]) (k0_pay4, k0_pay5) k0_t1_loop.trips le_rfl).2
  rw [harg2.read_unread, read_writes_whole4] at h
  unfold sout0_A_1 kernelRun0_A; dsimp only; sl_unfold_run_names
  rw [read_writes_whole2, View.readCov_unit_zero arg5.view off2_zero]
  exact congrArg (fun p : FVec F S4x8 .f32 × FVec F S4x8 .f32 => k0_pay10 p.1 (k0_pay2 (F := F))) h

theorem sout0_A_2_eq (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : cond0_0 i) (hc1 : ¬cond0_1 i) (x0 : Vec F S4x8x8x128x128 .f32) :
    sout0_A_2 c i arg2 harg2 arg3 harg3 arg4 harg4 arg5 harg5 arg6 harg6 hc0 hc1 x0 = k0_pay11 (loopEnd x0 (k0_pay1 (F := F))).2.2 (k0_pay3 (F := F)) := by
  have h := (st_eq Variants.none c none i arg2 harg2 arg3 harg3 arg4 harg4 arg5 harg5 arg6 harg6 (harg2.unread x0) (arg4.view.writes (Elt F) arg4.view.junk [(⟨Rect.unit (s := S4x8x128x128) ![0, 0, 0, 0] S4x8x128x128.size inb_S4x8x128x128_S4x8x128x128_0_0_0_0, k0_pay1⟩ : View.Piece (Elt F) S4x8x128x128 .f32)]) (k0_pay4, k0_pay5) k0_t1_loop.trips le_rfl).2
  rw [harg2.read_unread, read_writes_whole4] at h
  unfold sout0_A_2 kernelRun0_A; dsimp only; sl_unfold_run_names
  rw [read_writes_whole2, View.readCov_unit_zero arg6.view off2_zero]
  exact congrArg (fun p : FVec F S4x8 .f32 × FVec F S4x8 .f32 => k0_pay11 p.2 (k0_pay3 (F := F))) h

/-! ## Case C: the output block -/

theorem off2b_zero : (![0, 0] : Fin 2 → ℕ) = fun _ => 0 := off2_zero

theorem out0_C_1_eq (c : Dev nD) (i : grid0.Coords) (arg2 : Memref sig .tc .vmem S4x8x8x128x128 .f32) (harg2 : arg2.IsWhole) (arg3 : Memref sig .tc .vmem S8x4 .f32) (harg3 : arg3.IsWhole) (arg4 : Memref sig .tc .vmem S4x8x128x128 .f32) (harg4 : arg4.IsWhole) (arg5 : Memref sig .tc .vmem S4x8 .f32) (harg5 : arg5.IsWhole) (arg6 : Memref sig .tc .vmem S4x8 .f32) (harg6 : arg6.IsWhole) (hc0 : ¬cond0_0 i) (hc1 : cond0_1 i) (x0 : Vec F S4x8x8x128x128 .f32) (xs0 : Vec F S4x8x128x128 .f32) (xs1 : Vec F S4x8 .f32) (xs2 : Vec F S4x8 .f32) :
    out0_C_1 c i arg2 harg2 arg3 harg3 arg4 harg4 arg5 harg5 arg6 harg6 hc0 hc1 x0 xs0 xs1 xs2
      = finish (k0_pay10 (loopEnd x0 xs0).2.1 xs1) (k0_pay11 (loopEnd x0 xs0).2.2 xs2) (loopEnd x0 xs0).1 := by
  have h1 := (st_eq Variants.none c none i arg2 harg2 arg3 harg3 arg4 harg4 arg5 harg5 arg6 harg6 (harg2.unread x0) (harg4.unread xs0) (k0_pay4, k0_pay5) k0_t1_loop.trips le_rfl).1
  have h2 := (st_eq Variants.none c none i arg2 harg2 arg3 harg3 arg4 harg4 arg5 harg5 arg6 harg6 (harg2.unread x0) (harg4.unread xs0) (k0_pay4, k0_pay5) k0_t1_loop.trips le_rfl).2
  rw [harg2.read_unread, harg4.read_unread] at h1 h2
  have e : ∀ (σ1 σ2 : FVec F S4x8 .f32 × FVec F S4x8 .f32) (D1 D2 : Vec F S4x8x128x128 .f32), σ1 = σ2 → D1 = D2 →
      finish (k0_pay10 σ1.1 xs1) (k0_pay11 σ1.2 xs2) D1 = finish (k0_pay10 σ2.1 xs1) (k0_pay11 σ2.2 xs2) D2 := by
    intro σ1 σ2 D1 D2 hσ hD; rw [hσ, hD]
  unfold out0_C_1 kernelRun0_C; dsimp only; sl_unfold_run_names
  rw [read_writes_unit_zero VO0_1 VO0_1.junk off2_zero]
  rw [View.readCov_unit_zero arg5.view off2_zero, View.readCov_unit_zero arg6.view off2_zero, readAt_whole4,
    readAt_whole2, readAt_whole2, harg5.read_unread, harg6.read_unread]
  exact e _ _ _ _ h2 h1

end Cert.KernelIdeal.Body

end
-- ==== Proof.KISlice.lean ====
/-
  Depth slice `k` of an input block, read at an index: entry (n, c, 0, h, w) of the slice is entry (n, c, k, h, w) of
  the block. The loop makes eight trips.
-/
import proofs.«158271_j11888469476170_2_alg».proof.Proof.KITrip
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The loop over the depth slices of a block makes eight trips. -/
theorem trips_eq : k0_t1_loop.trips = 8 := by decide

/-- Entry (n, c, 0, h, w) of depth slice `k` is entry (n, c, k, h, w) of the block. -/
theorem sliceOf_apply (x : Vec F S4x8x8x128x128 .f32) (k : Fin k0_t1_loop.trips) (k' : Fin 8) (hk : k'.val = k.val)
    (n : Fin 4) (c : Fin 8) (h w : Fin 128) :
    sliceOf x k (ix5 n c (0 : Fin 1) h w) = x (ix5 n c k' h w) := by
  unfold sliceOf View.ld
  congr 1
  funext a
  apply Fin.ext
  rw [LoadRect.idx_apply]
  show k0_off1 k a + 1 * ((ix5 n c (0 : Fin 1) h w) a).val = ((ix5 n c k' h w) a).val
  rw [k0_off1_eq k]
  match a with
  | ⟨0, _⟩ => show 0 + 1 * n.val = n.val; omega
  | ⟨1, _⟩ => show 0 + 1 * c.val = c.val; omega
  | ⟨2, _⟩ => show k.val + 1 * 0 = k'.val; omega
  | ⟨3, _⟩ => show 0 + 1 * h.val = h.val; omega
  | ⟨4, _⟩ => show 0 + 1 * w.val = w.val; omega

end Cert.KernelIdeal.Body

end
-- ==== Proof.KIPayloads.lean ====
/-
  The accumulation's payloads, read at an index.

  The kernel keeps three accumulators per channel group: the depth sum of the slab at each position of the map, the
  sum of the slab, and the sum of its squares. They start at zero. Each trip of the inner loop reads one depth slice
  [4, 8, 1, 128, 128], adds it to the depth sum, and adds its sum and the sum of its squares — taken over the rows
  first and then along each row — to two running values, which after the loop are added to the stored sums.
  Nothing here needs the entries to be finite: each statement is an equation of extended reals.
-/
import proofs.«158271_j11888469476170_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The sums over one axis -/

/-- The sum over the rows of a [4, 8, 128, 128] array: at (n, c, w) the sum over h of the array at (n, c, h, w). -/
private theorem rows_sum (x : FVec Ideal S4x8x128x128 .f32) (hr : S4x8x128x128.Reduces [2] S4x8x128)
    (hφ : FKind.Formats .f32) (hacc : (0x00000000#32 : BitVec 32) = FKind.add.neutral .f32 hφ)
    (n : Fin 4) (c : Fin 8) (w : Fin 128) :
    multiReduction (F := Ideal) .add [2] S4x8x128 x 0x00000000#32 hr hφ hacc (ix3 n c w)
      = ∑ h : Fin 128, x (ix4 n c h w) := by
  refine (Ideal.multiReduction_add_single x 0x00000000#32 hr hφ hacc (ix3 n c w)).trans ?_
  show ∑ k : Fin 128, x (hr.lift (ix3 n c w) k) = _
  refine Finset.sum_congr rfl fun k _ => congrArg x (funext fun a => Fin.ext ?_)
  match a with
  | ⟨0, _⟩ => rfl
  | ⟨1, _⟩ => rfl
  | ⟨2, _⟩ => rfl
  | ⟨3, _⟩ => rfl

/-- The sum over the last axis of a [4, 8, 128] array: at (n, c) the sum over k of the array at (n, c, k). -/
private theorem lanes_sum (x : FVec Ideal S4x8x128 .f32) (hr : S4x8x128.Reduces [2] S4x8)
    (hφ : FKind.Formats .f32) (hacc : (0x00000000#32 : BitVec 32) = FKind.add.neutral .f32 hφ)
    (n : Fin 4) (c : Fin 8) :
    multiReduction (F := Ideal) .add [2] S4x8 x 0x00000000#32 hr hφ hacc (ix2 n c)
      = ∑ k : Fin 128, x (ix3 n c k) := by
  refine (Ideal.multiReduction_add_single x 0x00000000#32 hr hφ hacc (ix2 n c)).trans ?_
  show ∑ k : Fin 128, x (hr.lift (ix2 n c) k) = _
  refine Finset.sum_congr rfl fun k _ => congrArg x (funext fun a => Fin.ext ?_)
  match a with
  | ⟨0, _⟩ => rfl
  | ⟨1, _⟩ => rfl
  | ⟨2, _⟩ => rfl

/-- The sum of a [4, 8, 128, 128] array over its rows and then along each row. -/
private theorem map_sum (x : FVec Ideal S4x8x128x128 .f32) (hr4 : S4x8x128x128.Reduces [2] S4x8x128)
    (hr3 : S4x8x128.Reduces [2] S4x8) (hφ : FKind.Formats .f32)
    (hacc : (0x00000000#32 : BitVec 32) = FKind.add.neutral .f32 hφ) (n : Fin 4) (c : Fin 8) :
    multiReduction (F := Ideal) .add [2] S4x8
        (multiReduction (F := Ideal) .add [2] S4x8x128 x 0x00000000#32 hr4 hφ hacc) 0x00000000#32 hr3 hφ hacc (ix2 n c)
      = ∑ w : Fin 128, ∑ h : Fin 128, x (ix4 n c h w) :=
  (lanes_sum _ hr3 hφ hacc n c).trans (Finset.sum_congr rfl fun w _ => rows_sum x hr4 hφ hacc n c w)

/-! ## The initial values -/

/-- The depth sum starts at zero. -/
theorem pay1_apply (n : Fin 4) (c : Fin 8) (h w : Fin 128) : k0_pay1 (F := Ideal) (ix4 n c h w) = 0 := by
  show shapeCast S4x8x128x128 (broadcast S4x8x128x128 (Scalar.ofBits (F := Ideal) .f32 0x00000000#32))
    Gen.shapeCasts_S4x8x128x128_S4x8x128x128 (ix4 n c h w) = 0
  rw [shapeCast_self]
  exact Ideal.ofBits_zero_f32

/-- The stored sum starts at zero. -/
theorem pay2_apply (n : Fin 4) (c : Fin 8) : k0_pay2 (F := Ideal) (ix2 n c) = 0 := by
  show shapeCast S4x8 (broadcast S4x8 (Scalar.ofBits (F := Ideal) .f32 0x00000000#32))
    Gen.shapeCasts_S4x8_S4x8 (ix2 n c) = 0
  rw [shapeCast_self]
  exact Ideal.ofBits_zero_f32

/-- The stored sum of squares starts at zero. -/
theorem pay3_apply (n : Fin 4) (c : Fin 8) : k0_pay3 (F := Ideal) (ix2 n c) = 0 := by
  show shapeCast S4x8 (broadcast S4x8 (Scalar.ofBits (F := Ideal) .f32 0x00000000#32))
    Gen.shapeCasts_S4x8_S4x8 (ix2 n c) = 0
  rw [shapeCast_self]
  exact Ideal.ofBits_zero_f32

/-- The loop's running sum starts at zero. -/
theorem pay4_apply (n : Fin 4) (c : Fin 8) : k0_pay4 (F := Ideal) (ix2 n c) = 0 :=
  Ideal.ofBits_zero_f32

/-- The loop's running sum of squares starts at zero. -/
theorem pay5_apply (n : Fin 4) (c : Fin 8) : k0_pay5 (F := Ideal) (ix2 n c) = 0 :=
  Ideal.ofBits_zero_f32

/-! ## One trip of the loop -/

/-- The depth slice [4, 8, 1, 128, 128] seen as a map [4, 8, 128, 128]. -/
theorem pay6_apply (v21 : FVec Ideal S4x8x1x128x128 .f32) (n : Fin 4) (c : Fin 8) (h w : Fin 128) :
    k0_pay6 (F := Ideal) v21 (ix4 n c h w) = v21 (ix5 n c 0 h w) := by
  unfold k0_pay6
  refine shapeCast_apply v21 _ (ix4 n c h w) (ix5 n c 0 h w) ?_
  rw [Shape.rowMajor_val_four, Shape.rowMajor_val_five]
  show (((n.val * 8 + c.val) * 1 + 0) * 128 + h.val) * 128 + w.val = ((n.val * 8 + c.val) * 128 + h.val) * 128 + w.val
  omega

/-- The depth sum after a trip: what it held plus the depth slice. -/
theorem pay7_apply (v21 : FVec Ideal S4x8x1x128x128 .f32) (v23 : FVec Ideal S4x8x128x128 .f32)
    (n : Fin 4) (c : Fin 8) (h w : Fin 128) :
    k0_pay7 (F := Ideal) v21 v23 (ix4 n c h w) = v23 (ix4 n c h w) + v21 (ix5 n c 0 h w) := by
  show shapeCast S4x8x128x128 (addf v23 (k0_pay6 (F := Ideal) v21)) Gen.shapeCasts_S4x8x128x128_S4x8x128x128
    (ix4 n c h w) = _
  rw [shapeCast_self, addf_apply, pay6_apply]

/-- The running sum after a trip: what it held plus the sum of the depth slice, rows first. -/
theorem pay8_apply (arg8 : FVec Ideal S4x8 .f32) (v21 : FVec Ideal S4x8x1x128x128 .f32) (n : Fin 4) (c : Fin 8) :
    k0_pay8 (F := Ideal) arg8 v21 (ix2 n c)
      = arg8 (ix2 n c) + ∑ w : Fin 128, ∑ h : Fin 128, v21 (ix5 n c 0 h w) := by
  unfold k0_pay8
  refine congrArg (arg8 (ix2 n c) + ·) ?_
  refine (map_sum (k0_pay6 (F := Ideal) v21) _ _ _ _ n c).trans ?_
  exact Finset.sum_congr rfl fun w _ => Finset.sum_congr rfl fun h _ => pay6_apply v21 n c h w

/-- The running sum of squares after a trip: what it held plus the sum of the squares of the depth slice. -/
theorem pay9_apply (arg9 : FVec Ideal S4x8 .f32) (v21 : FVec Ideal S4x8x1x128x128 .f32) (n : Fin 4) (c : Fin 8) :
    k0_pay9 (F := Ideal) arg9 v21 (ix2 n c)
      = arg9 (ix2 n c) + ∑ w : Fin 128, ∑ h : Fin 128, v21 (ix5 n c 0 h w) * v21 (ix5 n c 0 h w) := by
  unfold k0_pay9
  refine congrArg (arg9 (ix2 n c) + ·) ?_
  refine (map_sum (mulf (k0_pay6 (F := Ideal) v21) (k0_pay6 (F := Ideal) v21)) _ _ _ _ n c).trans ?_
  refine Finset.sum_congr rfl fun w _ => Finset.sum_congr rfl fun h _ => ?_
  rw [mulf_apply, pay6_apply]

/-! ## After the loop -/

/-- The stored sum after the loop: what it held plus the loop's running sum. -/
theorem pay10_apply (v6_0 v7 : FVec Ideal S4x8 .f32) (n : Fin 4) (c : Fin 8) :
    k0_pay10 (F := Ideal) v6_0 v7 (ix2 n c) = v7 (ix2 n c) + v6_0 (ix2 n c) := by
  show shapeCast S4x8 (addf v7 v6_0) Gen.shapeCasts_S4x8_S4x8 (ix2 n c) = _
  rw [shapeCast_self, addf_apply]

/-- The stored sum of squares after the loop: what it held plus the loop's running sum of squares. -/
theorem pay11_apply (v6_1 v12 : FVec Ideal S4x8 .f32) (n : Fin 4) (c : Fin 8) :
    k0_pay11 (F := Ideal) v6_1 v12 (ix2 n c) = v12 (ix2 n c) + v6_1 (ix2 n c) := by
  show shapeCast S4x8 (addf v12 v6_1) Gen.shapeCasts_S4x8_S4x8 (ix2 n c) = _
  rw [shapeCast_self, addf_apply]

end Cert.KernelIdeal.Pay

end
-- ==== Proof.LibERealSum.lean ====
/-
  General lemmas on real numbers seen as extended reals: the coercion commutes with finite sums, with the maximum,
  with division by a nonzero real and with the reciprocal square root of a positive real. Each says that an
  operation of the extended reals, applied to finite arguments away from its corners, is the operation of the
  reals.
-/
import Idealize.ShloMosaic.PureOps.Ideal

noncomputable section

open scoped BigOperators

namespace Cert.LibERealSum

open Idealize.ShloMosaic

/-- The coercion of a finite sum of reals is the sum of the coercions (sum over a finite set). -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of a finite sum of reals is the sum of the coercions (sum over a finite type). -/
theorem coe_sum {ι : Type*} [Fintype ι] (f : ι → ℝ) :
    ((∑ i, f i : ℝ) : EReal) = ∑ i, ((f i : ℝ) : EReal) :=
  coe_finset_sum Finset.univ f

/-- A sum of extended reals each of which is the coercion of a real is the coercion of the real sum. -/
theorem sum_eq_coe {ι : Type*} (s : Finset ι) (g : ι → EReal) (f : ι → ℝ)
    (h : ∀ i ∈ s, g i = ((f i : ℝ) : EReal)) :
    ∑ i ∈ s, g i = ((∑ i ∈ s, f i : ℝ) : EReal) := by
  rw [coe_finset_sum]
  exact Finset.sum_congr rfl h

/-- Zero plus a sum of coerced reals is the coercion of the real sum (sum over a finite set). -/
theorem zero_add_finset_sum_coe {ι : Type*} (s : Finset ι) (f : ι → ℝ) :
    (0 : EReal) + ∑ i ∈ s, ((f i : ℝ) : EReal) = ((∑ i ∈ s, f i : ℝ) : EReal) := by
  rw [zero_add, coe_finset_sum]

/-- Zero plus a sum of coerced reals is the coercion of the real sum (sum over a finite type). -/
theorem zero_add_sum_coe {ι : Type*} [Fintype ι] (f : ι → ℝ) :
    (0 : EReal) + ∑ i, ((f i : ℝ) : EReal) = ((∑ i, f i : ℝ) : EReal) :=
  zero_add_finset_sum_coe Finset.univ f

/-- The maximum of two coerced reals is the coercion of their maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- Dividing a coerced real by a coerced nonzero real gives the coerced quotient. -/
theorem div_coe_coe (a : ℝ) {b : ℝ} (hb : b ≠ 0) :
    Ideal.div (a : EReal) (b : EReal) = ((a / b : ℝ) : EReal) := by
  rw [Ideal.div_coe hb, ← EReal.coe_mul, one_div, div_eq_mul_inv]

/-- The reciprocal square root of a coerced positive real is the coerced reciprocal of its square root. -/
theorem rsqrt_coe_pos {r : ℝ} (hr : 0 < r) :
    Ideal.rsqrt ((r : ℝ) : EReal) = (((Real.sqrt r)⁻¹ : ℝ) : EReal) := by
  rw [Ideal.rsqrt_coe, if_neg (not_lt.2 hr.le), if_neg hr.ne']

/-- The square root of a coerced non-negative real is the coerced square root. -/
theorem sqrt_coe_nonneg {r : ℝ} (hr : 0 ≤ r) :
    Ideal.sqrt ((r : ℝ) : EReal) = ((Real.sqrt r : ℝ) : EReal) := by
  rw [Ideal.sqrt_coe, if_neg (not_lt.2 hr)]

end Cert.LibERealSum

end
-- ==== Proof.KILoopVal.lean ====
/-
  The loop over a block's eight depth slices, in numbers. When the block's entries are the reals `xb n c k h w` and the
  depth sum starts at the reals `D0 n c h w`, then before trip `k` the depth sum holds `D0 + Σ_{j < k} xb · j ·`, and the
  carried pair holds the sums, over the slices before `k`, of each slice's entries and of their squares.
-/
import proofs.«158271_j11888469476170_2_alg».proof.Proof.KISlice
import proofs.«158271_j11888469476170_2_alg».proof.Proof.KIPayloads
import proofs.«158271_j11888469476170_2_alg».proof.Proof.LibERealSum

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Pay Cert.LibERealSum
open scoped BigOperators

/-- A block's entries along depth, extended by zero past the eighth slice. -/
def ext8 (f : Fin 8 → ℝ) (j : ℕ) : ℝ := if h : j < 8 then f ⟨j, h⟩ else 0

theorem ext8_of_lt (f : Fin 8 → ℝ) (k : Fin 8) : ext8 f k.val = f k := by
  unfold ext8; rw [dif_pos k.isLt]

/-- The sum of the eight depth entries. -/
theorem sum_range_ext8 (f : Fin 8 → ℝ) : ∑ j ∈ Finset.range 8, ext8 f j = ∑ k : Fin 8, f k := by
  rw [Finset.sum_range]; exact Finset.sum_congr rfl fun k _ => ext8_of_lt f k

variable (x0 : Vec Ideal S4x8x8x128x128 .f32) (d0 : Vec Ideal S4x8x128x128 .f32)
  (xb : Fin 4 → Fin 8 → Fin 8 → Fin 128 → Fin 128 → ℝ) (D0 : Fin 4 → Fin 8 → Fin 128 → Fin 128 → ℝ)

/-- The state before trip `k`, entry by entry. -/
theorem loopSt_apply (hx : ∀ n c k h w, x0 (ix5 n c k h w) = ((xb n c k h w : ℝ) : EReal))
    (hd : ∀ n c h w, d0 (ix4 n c h w) = ((D0 n c h w : ℝ) : EReal)) :
    ∀ k : ℕ, k ≤ 8 → ∀ (n : Fin 4) (c : Fin 8),
      (∀ h w, (loopSt x0 d0 (k0_pay4 (F := Ideal), k0_pay5 (F := Ideal)) k).1 (ix4 n c h w)
        = ((D0 n c h w + ∑ j ∈ Finset.range k, ext8 (fun k' => xb n c k' h w) j : ℝ) : EReal))
      ∧ (loopSt x0 d0 (k0_pay4 (F := Ideal), k0_pay5 (F := Ideal)) k).2.1 (ix2 n c)
        = ((∑ j ∈ Finset.range k, ext8 (fun k' => ∑ w, ∑ h, xb n c k' h w) j : ℝ) : EReal)
      ∧ (loopSt x0 d0 (k0_pay4 (F := Ideal), k0_pay5 (F := Ideal)) k).2.2 (ix2 n c)
        = ((∑ j ∈ Finset.range k, ext8 (fun k' => ∑ w, ∑ h, xb n c k' h w * xb n c k' h w) j : ℝ) : EReal)
  | 0, _, n, c => by
    refine ⟨fun h w => ?_, ?_, ?_⟩
    · show d0 (ix4 n c h w) = _
      rw [hd, Finset.sum_range_zero, add_zero]
    · show k0_pay4 (F := Ideal) (ix2 n c) = _
      rw [pay4_apply, Finset.sum_range_zero]; rfl
    · show k0_pay5 (F := Ideal) (ix2 n c) = _
      rw [pay5_apply, Finset.sum_range_zero]; rfl
  | k + 1, hk, n, c => by
    have hk8 : k < 8 := hk
    have hkt : k < k0_t1_loop.trips := by rw [trips_eq]; exact hk8
    obtain ⟨ihD, ihA, ihB⟩ := loopSt_apply hx hd k (Nat.le_of_succ_le hk) n c
    have e := loopSt_succ x0 d0 (k0_pay4 (F := Ideal), k0_pay5 (F := Ideal)) ⟨k, hkt⟩
    simp only [] at e
    have hs : ∀ h w, sliceOf x0 ⟨k, hkt⟩ (ix5 n c (0 : Fin 1) h w) = ((xb n c ⟨k, hk8⟩ h w : ℝ) : EReal) := fun h w => by
      rw [sliceOf_apply x0 ⟨k, hkt⟩ ⟨k, hk8⟩ rfl, hx]
    rw [e]
    refine ⟨fun h w => ?_, ?_, ?_⟩
    · show k0_pay7 (F := Ideal) (sliceOf x0 ⟨k, hkt⟩) (loopSt x0 d0 (k0_pay4 (F := Ideal), k0_pay5 (F := Ideal)) k).1 (ix4 n c h w) = _
      rw [pay7_apply, ihD, hs, ← EReal.coe_add, Finset.sum_range_succ, ext8_of_lt (fun k' => xb n c k' h w) ⟨k, hk8⟩, add_assoc]
    · show k0_pay8 (F := Ideal) (loopSt x0 d0 (k0_pay4 (F := Ideal), k0_pay5 (F := Ideal)) k).2.1 (sliceOf x0 ⟨k, hkt⟩) (ix2 n c) = _
      rw [pay8_apply, ihA, Finset.sum_range_succ, ext8_of_lt (fun k' => ∑ w, ∑ h, xb n c k' h w) ⟨k, hk8⟩, EReal.coe_add]
      congr 1
      rw [coe_sum]
      refine Finset.sum_congr rfl fun w _ => ?_
      rw [coe_sum]
      exact Finset.sum_congr rfl fun h _ => hs h w
    · show k0_pay9 (F := Ideal) (loopSt x0 d0 (k0_pay4 (F := Ideal), k0_pay5 (F := Ideal)) k).2.2 (sliceOf x0 ⟨k, hkt⟩) (ix2 n c) = _
      rw [pay9_apply, ihB, Finset.sum_range_succ, ext8_of_lt (fun k' => ∑ w, ∑ h, xb n c k' h w * xb n c k' h w) ⟨k, hk8⟩, EReal.coe_add]
      congr 1
      rw [coe_sum]
      refine Finset.sum_congr rfl fun w _ => ?_
      rw [coe_sum]
      refine Finset.sum_congr rfl fun h _ => ?_
      rw [hs h w, ← EReal.coe_mul]

/-- After the eight trips: the depth sum has gained the block's eight slices, and the carried pair is the block's sum and
    sum of squares per (sample, channel). -/
theorem loopEnd_apply (hx : ∀ n c k h w, x0 (ix5 n c k h w) = ((xb n c k h w : ℝ) : EReal))
    (hd : ∀ n c h w, d0 (ix4 n c h w) = ((D0 n c h w : ℝ) : EReal)) (n : Fin 4) (c : Fin 8) :
    (∀ h w, (loopSt x0 d0 (k0_pay4 (F := Ideal), k0_pay5 (F := Ideal)) k0_t1_loop.trips).1 (ix4 n c h w)
        = ((D0 n c h w + ∑ k : Fin 8, xb n c k h w : ℝ) : EReal))
      ∧ (loopSt x0 d0 (k0_pay4 (F := Ideal), k0_pay5 (F := Ideal)) k0_t1_loop.trips).2.1 (ix2 n c)
        = ((∑ k : Fin 8, ∑ w, ∑ h, xb n c k h w : ℝ) : EReal)
      ∧ (loopSt x0 d0 (k0_pay4 (F := Ideal), k0_pay5 (F := Ideal)) k0_t1_loop.trips).2.2 (ix2 n c)
        = ((∑ k : Fin 8, ∑ w, ∑ h, xb n c k h w * xb n c k h w : ℝ) : EReal) := by
  rw [trips_eq]
  obtain ⟨hD, hA, hB⟩ := loopSt_apply x0 d0 xb D0 hx hd 8 le_rfl n c
  refine ⟨fun h w => ?_, ?_, ?_⟩
  · rw [hD, sum_range_ext8]
  · rw [hA, sum_range_ext8]
  · rw [hB, sum_range_ext8]

end Cert.KernelIdeal.Body

end
-- ==== Proof.KIBlock.lean ====
/-
  The input window's block at a grid point, read at an index. Point `t` is channel tile `t / 4` and depth tile `t % 4`;
  its block holds 8 channels and 8 depth slices: entry (n, c, k, h, w) of the block is entry
  (n, 8·(t / 4) + c, 8·(t % 4) + k, h, w) of the input array.
-/
import proofs.«158271_j11888469476170_2_alg».proof.Proof.KIBodyDefs
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The input window's block index at point `t`: channel tile `t / 4`, depth tile `t % 4`. -/
theorem index0_0 : ∀ t : Fin cfg0.N, win0_0.index t 0 = 0 ∧ win0_0.index t 1 = t.val / 4 ∧ win0_0.index t 2 = t.val % 4
    ∧ win0_0.index t 3 = 0 ∧ win0_0.index t 4 = 0 :=
  (by decide +kernel : ∀ t : Fin grid0.N, win0_0.index t 0 = 0 ∧ win0_0.index t 1 = t.val / 4 ∧ win0_0.index t 2 = t.val % 4
    ∧ win0_0.index t 3 = 0 ∧ win0_0.index t 4 = 0)

/-- Entry (n, c, k, h, w) of the block at point `t` is entry (n, 8·(t / 4) + c, 8·(t % 4) + k, h, w) of the input. -/
theorem iblk_apply (c : Dev nD) (t : Fin cfg0.N) (n : Fin 4) (cc : Fin 8) (k : Fin 8) (h w : Fin 128) (C : Fin 64) (d : Fin 32)
    (hC : C.val = 8 * (t.val / 4) + cc.val) (hd : d.val = 8 * (t.val % 4) + k.val) :
    (iblk m c 0 t : Vec F S4x8x8x128x128 .f32) (ix5 n cc k h w) = m ((c : Thread nD τ).loc main_arg0) (ix5 n C d h w) := by
  obtain ⟨i0, i1, i2, i3, i4⟩ := index0_0 t
  unfold iblk
  rw [View.read_apply]
  show V m c main_arg0 _ = m (c.tc.loc main_arg0) _
  unfold V
  congr 1
  funext a
  apply Fin.ext
  match a with
  | ⟨0, _⟩ => show win0_0.index t 0 * 4 + 1 * n.val = n.val; rw [i0]; omega
  | ⟨1, _⟩ => show win0_0.index t 1 * 8 + 1 * cc.val = C.val; rw [i1]; omega
  | ⟨2, _⟩ => show win0_0.index t 2 * 8 + 1 * k.val = d.val; rw [i2]; omega
  | ⟨3, _⟩ => show win0_0.index t 3 * 128 + 1 * h.val = h.val; rw [i3]; omega
  | ⟨4, _⟩ => show win0_0.index t 4 * 128 + 1 * w.val = w.val; rw [i4]; omega

end Cert.KernelIdeal.Body

end
-- ==== Proof.KIFinish.lean ====
/-
  The finish of the descriptor, read at an index.

  When the last depth block of a channel group has been accumulated, the kernel holds, per (sample, channel), the
  sum S of the slab, the sum Q of its squares, and per position (h, w) of the map the depth sum D h w. From these it
  forms the mean μ = S / 524288, the variance Q / 524288 − μ², clipped at zero, its regularised reciprocal square
  root r, and the normalised depth mean k h w = r · (D h w / 32 − μ). The mean of the reflection-padded map is taken
  as the sum of the map plus its rows 1 and 126, its columns 1 and 126 and its four corners at those rows and
  columns, divided by 16900 = 130². The result is stored transposed: channel first, sample second.

  Every entry of S, Q and D is a real number, and no operation leaves the reals: the divisors are nonzero constants
  and the argument of the reciprocal square root is at least the regulariser, which is positive. So the stored value
  is the coercion of the real number `kfin` below, which is the specification's `kdesc` once S, Q and D are the
  slab's sums.
-/
import proofs.«158271_j11888469476170_2_alg».proof.Proof.Gen.KernelIdeal.Skeleton
import proofs.«158271_j11888469476170_2_alg».proof.Proof.StatSpec
import proofs.«158271_j11888469476170_2_alg».proof.Proof.Consts
import proofs.«158271_j11888469476170_2_alg».proof.Proof.LibERealSum
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The finish over the reals -/

/-- The mean from the sum. -/
def kmean (S : ℝ) : ℝ := S / 524288

/-- The regularised reciprocal standard deviation from the sum and the sum of squares, the variance clipped at zero. -/
def krs (ε S Q : ℝ) : ℝ := (Real.sqrt (max (Q / 524288 - kmean S * kmean S) 0 + ε))⁻¹

/-- The normalised depth mean at one position of the map, from the depth sum there. -/
def kpt (ε S Q : ℝ) (D : Fin 128 → Fin 128 → ℝ) (h w : Fin 128) : ℝ := krs ε S Q * (D h w / 32 - kmean S)

/-- The descriptor from the slab's sum `S`, its sum of squares `Q` and its depth sums `D`. -/
def kfin (ε S Q : ℝ) (D : Fin 128 → Fin 128 → ℝ) : ℝ :=
  let μ := S / 524288
  let r := (Real.sqrt (max (Q / 524288 - μ * μ) 0 + ε))⁻¹
  let k := fun h w => r * (D h w / 32 - μ)
  ((∑ h, ∑ w, k h w) + (∑ w, k 1 w) + (∑ w, k 126 w) + (∑ h, k h 1) + (∑ h, k h 126)
    + k 1 1 + k 1 126 + k 126 1 + k 126 126) / 16900

/-- The descriptor in terms of the normalised depth mean. -/
theorem kfin_eq (ε S Q : ℝ) (D : Fin 128 → Fin 128 → ℝ) :
    kfin ε S Q D
      = ((∑ h, ∑ w, kpt ε S Q D h w) + (∑ w, kpt ε S Q D 1 w) + (∑ w, kpt ε S Q D 126 w)
          + (∑ h, kpt ε S Q D h 1) + (∑ h, kpt ε S Q D h 126)
          + kpt ε S Q D 1 1 + kpt ε S Q D 1 126 + kpt ε S Q D 126 1 + kpt ε S Q D 126 126) / 16900 := rfl

/-- At the slab's own sums the finish is the specification's kernel-side descriptor. -/
theorem kfin_eq_kdesc (ε : ℝ) (x : Cert.StatSpec.Slab) :
    kfin ε (Cert.StatSpec.ksum x) (Cert.StatSpec.ksq x) (fun h w => ∑ d, x d h w) = Cert.StatSpec.kdesc ε x := rfl

/-! ## Layout operations of the finish, read at an index -/

section Layout
variable {α : Type}

/-- A per-(sample, channel) value kept as a [4, 8, 1, 1] array and broadcast over the map reads that value at every
    position of the map. -/
theorem keep_apply (v : S4x8.Idx → α) (h1 : S4x8.ShapeCasts S4x8x1x1) (h2 : S4x8x1x1.Broadcasts S4x8x128x128)
    (n : Fin 4) (c : Fin 8) (h w : Fin 128) :
    broadcastTo S4x8x128x128 (shapeCast S4x8x1x1 v h1) h2 (ix4 n c h w) = v (ix2 n c) := by
  refine (broadcastTo_apply _ h2 (ix4 n c h w) (ix4 n c 0 0) fun a => ?_).trans ?_
  · match a with
    | ⟨0, _⟩ => rfl
    | ⟨1, _⟩ => rfl
    | ⟨2, _⟩ => rfl
    | ⟨3, _⟩ => rfl
  · refine shapeCast_apply v h1 (ix4 n c 0 0) (ix2 n c) ?_
    rw [Shape.rowMajor_val_two, Shape.rowMajor_val_four]
    show n.val * 8 + c.val = ((n.val * 8 + c.val) * 1 + 0) * 1 + 0
    omega

/-- Column `o` of the map, as a [4, 8, 128] array: at (n, c, h) the map at (n, c, h, o). -/
theorem col_apply (x : S4x8x128x128.Idx → α) (o : Fin 128) (hs : S4x8x128x128.Slices ![0, 0, 0, o.val] S4x8x128x1)
    (hc : S4x8x128x1.ShapeCasts S4x8x128) (n : Fin 4) (c : Fin 8) (h : Fin 128) :
    shapeCast S4x8x128 (extractStridedSlice S4x8x128x1 ![0, 0, 0, o.val] x hs) hc (ix3 n c h) = x (ix4 n c h o) := by
  refine (shapeCast_apply _ hc (ix3 n c h) (ix4 n c h 0) ?_).trans ?_
  · rw [Shape.rowMajor_val_three, Shape.rowMajor_val_four]
    show ((n.val * 8 + c.val) * 128 + h.val) * 1 + 0 = (n.val * 8 + c.val) * 128 + h.val
    omega
  · refine extractStridedSlice_apply _ x hs (ix4 n c h 0) (ix4 n c h o) fun a => ?_
    match a with
    | ⟨0, _⟩ => show n.val = 0 + n.val; omega
    | ⟨1, _⟩ => show c.val = 0 + c.val; omega
    | ⟨2, _⟩ => show h.val = 0 + h.val; omega
    | ⟨3, _⟩ => show o.val = o.val + 0; omega

/-- Row `o` of the map, as a [4, 8, 128] array: at (n, c, w) the map at (n, c, o, w). -/
theorem row_apply (x : S4x8x128x128.Idx → α) (o : Fin 128) (hs : S4x8x128x128.Slices ![0, 0, o.val, 0] S4x8x1x128)
    (hc : S4x8x1x128.ShapeCasts S4x8x128) (n : Fin 4) (c : Fin 8) (w : Fin 128) :
    shapeCast S4x8x128 (extractStridedSlice S4x8x1x128 ![0, 0, o.val, 0] x hs) hc (ix3 n c w) = x (ix4 n c o w) := by
  refine (shapeCast_apply _ hc (ix3 n c w) (ix4 n c 0 w) ?_).trans ?_
  · rw [Shape.rowMajor_val_three, Shape.rowMajor_val_four]
    show ((n.val * 8 + c.val) * 1 + 0) * 128 + w.val = (n.val * 8 + c.val) * 128 + w.val
    omega
  · refine extractStridedSlice_apply _ x hs (ix4 n c 0 w) (ix4 n c o w) fun a => ?_
    match a with
    | ⟨0, _⟩ => show n.val = 0 + n.val; omega
    | ⟨1, _⟩ => show c.val = 0 + c.val; omega
    | ⟨2, _⟩ => show o.val = o.val + 0; omega
    | ⟨3, _⟩ => show w.val = 0 + w.val; omega

/-- The entry at row `o1`, column `o2` of the map, as a [4, 8] array. -/
theorem corner_apply (x : S4x8x128x128.Idx → α) (o1 o2 : Fin 128)
    (hs : S4x8x128x128.Slices ![0, 0, o1.val, o2.val] S4x8x1x1) (hc : S4x8x1x1.ShapeCasts S4x8)
    (n : Fin 4) (c : Fin 8) :
    shapeCast S4x8 (extractStridedSlice S4x8x1x1 ![0, 0, o1.val, o2.val] x hs) hc (ix2 n c) = x (ix4 n c o1 o2) := by
  refine (shapeCast_apply _ hc (ix2 n c) (ix4 n c 0 0) ?_).trans ?_
  · rw [Shape.rowMajor_val_two, Shape.rowMajor_val_four]
    show ((n.val * 8 + c.val) * 1 + 0) * 1 + 0 = n.val * 8 + c.val
    omega
  · refine extractStridedSlice_apply _ x hs (ix4 n c 0 0) (ix4 n c o1 o2) fun a => ?_
    match a with
    | ⟨0, _⟩ => show n.val = 0 + n.val; omega
    | ⟨1, _⟩ => show c.val = 0 + c.val; omega
    | ⟨2, _⟩ => show o1.val = o1.val + 0; omega
    | ⟨3, _⟩ => show o2.val = o2.val + 0; omega

/-- The transpose of a [4, 8] array reads, at (c, n), the array at (n, c). -/
theorem transpose_apply48 (x : S4x8.Idx → α) (ht : S4x8.Transposes [1, 0] S8x4) (n : Fin 4) (c : Fin 8) :
    transpose S8x4 [1, 0] x ht (ix2 c n) = x (ix2 n c) := by
  refine transpose_apply [1, 0] x ht (ix2 c n) (ix2 n c) fun b => ?_
  match b with
  | ⟨0, _⟩ => rfl
  | ⟨1, _⟩ => rfl

end Layout

/-! ## The two sums over one axis -/

/-- The sum over the rows of the map: at (n, c, w) the sum over h of the map at (n, c, h, w). -/
theorem sum_rows (x : FVec Ideal S4x8x128x128 .f32) (hr : S4x8x128x128.Reduces [2] S4x8x128)
    (hφ : FKind.Formats .f32) (hacc : (0x00000000#32 : BitVec 32) = FKind.add.neutral .f32 hφ)
    (n : Fin 4) (c : Fin 8) (w : Fin 128) :
    multiReduction (F := Ideal) .add [2] S4x8x128 x 0x00000000#32 hr hφ hacc (ix3 n c w)
      = ∑ h : Fin 128, x (ix4 n c h w) := by
  refine (Ideal.multiReduction_add_single x 0x00000000#32 hr hφ hacc (ix3 n c w)).trans ?_
  show ∑ k : Fin 128, x (hr.lift (ix3 n c w) k) = _
  refine Finset.sum_congr rfl fun k _ => congrArg x (funext fun a => Fin.ext ?_)
  match a with
  | ⟨0, _⟩ => rfl
  | ⟨1, _⟩ => rfl
  | ⟨2, _⟩ => rfl
  | ⟨3, _⟩ => rfl

/-- The sum over the last axis of a [4, 8, 128] array: at (n, c) the sum over k of the array at (n, c, k). -/
theorem sum_lanes (x : FVec Ideal S4x8x128 .f32) (hr : S4x8x128.Reduces [2] S4x8)
    (hφ : FKind.Formats .f32) (hacc : (0x00000000#32 : BitVec 32) = FKind.add.neutral .f32 hφ)
    (n : Fin 4) (c : Fin 8) :
    multiReduction (F := Ideal) .add [2] S4x8 x 0x00000000#32 hr hφ hacc (ix2 n c)
      = ∑ k : Fin 128, x (ix3 n c k) := by
  refine (Ideal.multiReduction_add_single x 0x00000000#32 hr hφ hacc (ix2 n c)).trans ?_
  show ∑ k : Fin 128, x (hr.lift (ix2 n c) k) = _
  refine Finset.sum_congr rfl fun k _ => congrArg x (funext fun a => Fin.ext ?_)
  match a with
  | ⟨0, _⟩ => rfl
  | ⟨1, _⟩ => rfl
  | ⟨2, _⟩ => rfl

/-! ## The arithmetic of the finish at an index -/

/-- The mean, as the kernel's vector: the sum divided by the number of entries. -/
def vmean (s : FVec Ideal S4x8 .f32) : FVec Ideal S4x8 .f32 :=
  divf s (broadcast S4x8 (Scalar.ofBits .f32 0x49000000#32))

/-- The regularised reciprocal standard deviation, as the kernel's vector. -/
def vrs (s q : FVec Ideal S4x8 .f32) : FVec Ideal S4x8 .f32 :=
  rsqrt (addf (maximumf (subf (divf q (broadcast S4x8 (Scalar.ofBits .f32 0x49000000#32))) (mulf (vmean s) (vmean s)))
    (broadcast S4x8 (Scalar.ofBits .f32 0x00000000#32))) (broadcast S4x8 (Scalar.ofBits .f32 0x3727C5AC#32)))

/-- The normalised depth mean is the broadcast reciprocal standard deviation times the depth mean less the
    broadcast mean. -/
theorem pay13_eq (s q : FVec Ideal S4x8 .f32) (d : FVec Ideal S4x8x128x128 .f32) :
    k0_pay13 (F := Ideal) s q d
      = mulf (broadcastTo S4x8x128x128 (shapeCast S4x8x1x1 (vrs s q) Gen.shapeCasts_S4x8_S4x8x1x1)
          Gen.broadcasts_S4x8x1x1_S4x8x128x128)
        (subf (divf d (broadcast S4x8x128x128 (Scalar.ofBits .f32 0x42000000#32)))
          (broadcastTo S4x8x128x128 (shapeCast S4x8x1x1 (vmean s) Gen.shapeCasts_S4x8_S4x8x1x1)
            Gen.broadcasts_S4x8x1x1_S4x8x128x128)) := rfl

/-- The mean of a real sum is the real mean. -/
theorem vmean_apply (s : FVec Ideal S4x8 .f32) (S : Fin 4 → Fin 8 → ℝ)
    (hs : ∀ n c, s (ix2 n c) = ((S n c : ℝ) : EReal)) (n : Fin 4) (c : Fin 8) :
    vmean s (ix2 n c) = ((kmean (S n c) : ℝ) : EReal) := by
  show Ideal.div (s (ix2 n c)) (Ideal.ofBits .f32 0x49000000#32) = _
  rw [hs, Cert.Consts.ofBits_524288, Cert.LibERealSum.div_coe_coe _ (by norm_num)]
  rfl

/-- The reciprocal standard deviation of real sums is real: the clipped variance is non-negative and the
    regulariser positive, so the reciprocal square root is taken of a positive real. -/
theorem vrs_apply (s q : FVec Ideal S4x8 .f32) (S Q : Fin 4 → Fin 8 → ℝ)
    (hs : ∀ n c, s (ix2 n c) = ((S n c : ℝ) : EReal)) (hq : ∀ n c, q (ix2 n c) = ((Q n c : ℝ) : EReal))
    (n : Fin 4) (c : Fin 8) :
    vrs s q (ix2 n c) = ((krs Cert.Consts.eps (S n c) (Q n c) : ℝ) : EReal) := by
  show Ideal.rsqrt (max (Ideal.div (q (ix2 n c)) (Ideal.ofBits .f32 0x49000000#32)
      - vmean s (ix2 n c) * vmean s (ix2 n c)) (Ideal.ofBits .f32 0x00000000#32)
      + Ideal.ofBits .f32 0x3727C5AC#32) = _
  rw [hq, vmean_apply s S hs, Cert.Consts.ofBits_524288, Cert.LibERealSum.div_coe_coe _ (by norm_num),
    ← EReal.coe_mul, ← EReal.coe_sub, Ideal.ofBits_zero_f32, ← EReal.coe_zero, Cert.LibERealSum.max_coe,
    Cert.Consts.ofBits_eps, ← EReal.coe_add,
    Cert.LibERealSum.rsqrt_coe_pos (add_pos_of_nonneg_of_pos (le_max_right _ _) Cert.Consts.eps_pos)]
  rfl

/-- The normalised depth mean at a position of the map. -/
theorem pay13_apply (s q : FVec Ideal S4x8 .f32) (d : FVec Ideal S4x8x128x128 .f32)
    (S Q : Fin 4 → Fin 8 → ℝ) (D : Fin 4 → Fin 8 → Fin 128 → Fin 128 → ℝ)
    (hs : ∀ n c, s (ix2 n c) = ((S n c : ℝ) : EReal)) (hq : ∀ n c, q (ix2 n c) = ((Q n c : ℝ) : EReal))
    (hd : ∀ n c h w, d (ix4 n c h w) = ((D n c h w : ℝ) : EReal)) (n : Fin 4) (c : Fin 8) (h w : Fin 128) :
    k0_pay13 (F := Ideal) s q d (ix4 n c h w) = ((kpt Cert.Consts.eps (S n c) (Q n c) (D n c) h w : ℝ) : EReal) := by
  rw [pay13_eq]
  show broadcastTo S4x8x128x128 (shapeCast S4x8x1x1 (vrs s q) Gen.shapeCasts_S4x8_S4x8x1x1)
        Gen.broadcasts_S4x8x1x1_S4x8x128x128 (ix4 n c h w)
      * (Ideal.div (d (ix4 n c h w)) (Ideal.ofBits .f32 0x42000000#32)
        - broadcastTo S4x8x128x128 (shapeCast S4x8x1x1 (vmean s) Gen.shapeCasts_S4x8_S4x8x1x1)
            Gen.broadcasts_S4x8x1x1_S4x8x128x128 (ix4 n c h w)) = _
  rw [keep_apply, keep_apply, vrs_apply s q S Q hs hq, vmean_apply s S hs, hd, Cert.Consts.ofBits_32,
    Cert.LibERealSum.div_coe_coe _ (by norm_num), ← EReal.coe_sub, ← EReal.coe_mul]
  rfl

section Pieces
variable (s q : FVec Ideal S4x8 .f32) (d : FVec Ideal S4x8x128x128 .f32)
  (S Q : Fin 4 → Fin 8 → ℝ) (D : Fin 4 → Fin 8 → Fin 128 → Fin 128 → ℝ)
  (hs : ∀ n c, s (ix2 n c) = ((S n c : ℝ) : EReal)) (hq : ∀ n c, q (ix2 n c) = ((Q n c : ℝ) : EReal))
  (hd : ∀ n c h w, d (ix4 n c h w) = ((D n c h w : ℝ) : EReal))
include hs hq hd

/-- Column 1 of the normalised depth mean. -/
theorem pay14_apply (n : Fin 4) (c : Fin 8) (h : Fin 128) :
    k0_pay14 (F := Ideal) s q d (ix3 n c h) = ((kpt Cert.Consts.eps (S n c) (Q n c) (D n c) h 1 : ℝ) : EReal) := by
  unfold k0_pay14
  exact (col_apply (k0_pay13 (F := Ideal) s q d) 1 _ _ n c h).trans (pay13_apply s q d S Q D hs hq hd n c h 1)

/-- Column 126 of the normalised depth mean. -/
theorem pay15_apply (n : Fin 4) (c : Fin 8) (h : Fin 128) :
    k0_pay15 (F := Ideal) s q d (ix3 n c h) = ((kpt Cert.Consts.eps (S n c) (Q n c) (D n c) h 126 : ℝ) : EReal) := by
  unfold k0_pay15
  exact (col_apply (k0_pay13 (F := Ideal) s q d) 126 _ _ n c h).trans (pay13_apply s q d S Q D hs hq hd n c h 126)

/-- The corner at row 1, column 1. -/
theorem pay16_apply (n : Fin 4) (c : Fin 8) :
    k0_pay16 (F := Ideal) s q d (ix2 n c) = ((kpt Cert.Consts.eps (S n c) (Q n c) (D n c) 1 1 : ℝ) : EReal) := by
  unfold k0_pay16
  exact (corner_apply (k0_pay13 (F := Ideal) s q d) 1 1 _ _ n c).trans (pay13_apply s q d S Q D hs hq hd n c 1 1)

/-- The corner at row 1, column 126. -/
theorem pay17_apply (n : Fin 4) (c : Fin 8) :
    k0_pay17 (F := Ideal) s q d (ix2 n c) = ((kpt Cert.Consts.eps (S n c) (Q n c) (D n c) 1 126 : ℝ) : EReal) := by
  unfold k0_pay17
  exact (corner_apply (k0_pay13 (F := Ideal) s q d) 1 126 _ _ n c).trans (pay13_apply s q d S Q D hs hq hd n c 1 126)

/-- The corner at row 126, column 1. -/
theorem pay18_apply (n : Fin 4) (c : Fin 8) :
    k0_pay18 (F := Ideal) s q d (ix2 n c) = ((kpt Cert.Consts.eps (S n c) (Q n c) (D n c) 126 1 : ℝ) : EReal) := by
  unfold k0_pay18
  exact (corner_apply (k0_pay13 (F := Ideal) s q d) 126 1 _ _ n c).trans (pay13_apply s q d S Q D hs hq hd n c 126 1)

/-- The corner at row 126, column 126. -/
theorem pay19_apply (n : Fin 4) (c : Fin 8) :
    k0_pay19 (F := Ideal) s q d (ix2 n c) = ((kpt Cert.Consts.eps (S n c) (Q n c) (D n c) 126 126 : ℝ) : EReal) := by
  unfold k0_pay19
  exact (corner_apply (k0_pay13 (F := Ideal) s q d) 126 126 _ _ n c).trans
    (pay13_apply s q d S Q D hs hq hd n c 126 126)

/-- The sum of the whole map: the kernel sums the rows first and then along each row; over the reals the order of
    the two sums does not matter. -/
theorem pay20_apply (n : Fin 4) (c : Fin 8) :
    k0_pay20 (F := Ideal) s q d (ix2 n c)
      = ((∑ h, ∑ w, kpt Cert.Consts.eps (S n c) (Q n c) (D n c) h w : ℝ) : EReal) := by
  unfold k0_pay20
  refine (sum_lanes _ _ _ _ n c).trans ?_
  rw [Finset.sum_comm, Cert.LibERealSum.coe_sum]
  refine Finset.sum_congr rfl fun w _ => ?_
  refine (sum_rows _ _ _ _ n c w).trans ?_
  rw [Cert.LibERealSum.coe_sum]
  exact Finset.sum_congr rfl fun h _ => pay13_apply s q d S Q D hs hq hd n c h w

/-- The sum of row 1. -/
theorem pay21_apply (n : Fin 4) (c : Fin 8) :
    k0_pay21 (F := Ideal) s q d (ix2 n c)
      = ((∑ w, kpt Cert.Consts.eps (S n c) (Q n c) (D n c) 1 w : ℝ) : EReal) := by
  unfold k0_pay21
  refine (sum_lanes _ _ _ _ n c).trans ?_
  rw [Cert.LibERealSum.coe_sum]
  exact Finset.sum_congr rfl fun w _ =>
    (row_apply (k0_pay13 (F := Ideal) s q d) 1 _ _ n c w).trans (pay13_apply s q d S Q D hs hq hd n c 1 w)

/-- The sum of row 126. -/
theorem pay22_apply (n : Fin 4) (c : Fin 8) :
    k0_pay22 (F := Ideal) s q d (ix2 n c)
      = ((∑ w, kpt Cert.Consts.eps (S n c) (Q n c) (D n c) 126 w : ℝ) : EReal) := by
  unfold k0_pay22
  refine (sum_lanes _ _ _ _ n c).trans ?_
  rw [Cert.LibERealSum.coe_sum]
  exact Finset.sum_congr rfl fun w _ =>
    (row_apply (k0_pay13 (F := Ideal) s q d) 126 _ _ n c w).trans (pay13_apply s q d S Q D hs hq hd n c 126 w)

end Pieces

/-- The stored block, read at (channel, sample): the nine pieces added in the kernel's order — the whole map, rows 1
    and 126, columns 1 and 126 summed along the column, the four corners — and divided by 16900. -/
theorem pay12_apply (v47 v49 : FVec Ideal S4x8x128 .f32) (v51 v53 v55 v57 v59 v60 v61 : FVec Ideal S4x8 .f32)
    (n : Fin 4) (c : Fin 8) :
    k0_pay12 (F := Ideal) v47 v49 v51 v53 v55 v57 v59 v60 v61 (ix2 c n)
      = Ideal.div (v59 (ix2 n c) + v60 (ix2 n c) + v61 (ix2 n c) + (∑ h : Fin 128, v47 (ix3 n c h))
          + (∑ h : Fin 128, v49 (ix3 n c h)) + v51 (ix2 n c) + v53 (ix2 n c) + v55 (ix2 n c) + v57 (ix2 n c))
        (Ideal.ofBits .f32 0x46840800#32) := by
  unfold k0_pay12
  refine (transpose_apply48 _ _ n c).trans ?_
  show Ideal.div (v59 (ix2 n c) + v60 (ix2 n c) + v61 (ix2 n c)
        + multiReduction (F := Ideal) .add [2] S4x8 v47 0x00000000#32 Gen.reduces_S4x8x128_S4x8 (.inl rfl) rfl (ix2 n c)
        + multiReduction (F := Ideal) .add [2] S4x8 v49 0x00000000#32 Gen.reduces_S4x8x128_S4x8 (.inl rfl) rfl (ix2 n c)
        + v51 (ix2 n c) + v53 (ix2 n c) + v55 (ix2 n c) + v57 (ix2 n c)) (Ideal.ofBits .f32 0x46840800#32) = _
  exact congrArg₂
    (fun a b => Ideal.div (v59 (ix2 n c) + v60 (ix2 n c) + v61 (ix2 n c) + a + b + v51 (ix2 n c) + v53 (ix2 n c)
      + v55 (ix2 n c) + v57 (ix2 n c)) (Ideal.ofBits .f32 0x46840800#32))
    (sum_lanes v47 _ _ _ n c) (sum_lanes v49 _ _ _ n c)

/-- THE FINISH: from real sums, sums of squares and depth sums, the stored descriptor at (channel, sample) is the
    coercion of the real descriptor `kfin` of sample `n`, channel `c`. -/
theorem finish_apply (s q : FVec Ideal S4x8 .f32) (d : FVec Ideal S4x8x128x128 .f32)
    (S Q : Fin 4 → Fin 8 → ℝ) (D : Fin 4 → Fin 8 → Fin 128 → Fin 128 → ℝ)
    (hs : ∀ n c, s (ix2 n c) = ((S n c : ℝ) : EReal)) (hq : ∀ n c, q (ix2 n c) = ((Q n c : ℝ) : EReal))
    (hd : ∀ n c h w, d (ix4 n c h w) = ((D n c h w : ℝ) : EReal)) (n : Fin 4) (c : Fin 8) :
    k0_pay12 (F := Ideal) (k0_pay14 s q d) (k0_pay15 s q d) (k0_pay16 s q d) (k0_pay17 s q d) (k0_pay18 s q d)
        (k0_pay19 s q d) (k0_pay20 s q d) (k0_pay21 s q d) (k0_pay22 s q d) (ix2 c n)
      = ((kfin Cert.Consts.eps (S n c) (Q n c) (D n c) : ℝ) : EReal) := by
  rw [pay12_apply, pay20_apply s q d S Q D hs hq hd, pay21_apply s q d S Q D hs hq hd,
    pay22_apply s q d S Q D hs hq hd, pay16_apply s q d S Q D hs hq hd, pay17_apply s q d S Q D hs hq hd,
    pay18_apply s q d S Q D hs hq hd, pay19_apply s q d S Q D hs hq hd]
  simp only [pay14_apply s q d S Q D hs hq hd, pay15_apply s q d S Q D hs hq hd]
  rw [← Cert.LibERealSum.coe_sum, ← Cert.LibERealSum.coe_sum]
  simp only [← EReal.coe_add]
  rw [Cert.Consts.ofBits_16900, Cert.LibERealSum.div_coe_coe _ (by norm_num), kfin_eq]

end Cert.KernelIdeal.Pay

end
-- ==== Proof.StatAlgebra.lean ====
/-
  The kernel's arrangement of the statistic equals the specification's.

  Three facts carry it. The variance identity: the mean of the squares minus the square of the mean is the biased
  variance, which is a mean of squares and so non-negative; the clip at zero therefore does nothing. The depth mean
  commutes with the affine normalisation `x ↦ (x − μ) · r`. And the reflection padding of a sequence of 128 terms
  to 130 terms repeats the terms at 1 and 126 once each, so a padded sum is the plain sum plus those two terms;
  applied to rows and to columns it yields the sum of the map, two rows, two columns and four corners.
-/
import proofs.«158271_j11888469476170_2_alg».proof.Proof.StatSpec

noncomputable section

open scoped BigOperators

namespace Cert.StatSpec

/-- Summing a constant over the slab's 32 · 128 · 128 = 524288 entries. -/
theorem sum_const_slab (c : ℝ) :
    (∑ _d : Fin 32, ∑ _h : Fin 128, ∑ _w : Fin 128, c) = 524288 * c := by
  simp only [Finset.sum_const, Finset.card_univ, Fintype.card_fin, nsmul_eq_mul]
  norm_num
  ring

/-- The kernel's mean is the specification's mean. -/
theorem kmu_eq_mu (x : Slab) : kmu x = mu x := rfl

/-- The sum of the slab is its entry count times its mean. -/
theorem ksum_eq (x : Slab) : (∑ d, ∑ h, ∑ w, x d h w) = 524288 * mu x := by
  unfold mu
  ring

/-- The sum of squared deviations, with the square expanded. -/
theorem sum_sq_dev (x : Slab) :
    (∑ d, ∑ h, ∑ w, (x d h w - mu x) * (x d h w - mu x))
      = (∑ d, ∑ h, ∑ w, x d h w * x d h w) - 2 * mu x * (∑ d, ∑ h, ∑ w, x d h w)
        + 524288 * (mu x * mu x) := by
  rw [← sum_const_slab (mu x * mu x)]
  simp only [Finset.mul_sum, ← Finset.sum_sub_distrib, ← Finset.sum_add_distrib]
  refine Finset.sum_congr rfl fun d _ => Finset.sum_congr rfl fun h _ => Finset.sum_congr rfl fun w _ => ?_
  ring

/-- The variance identity: the mean of the squares minus the square of the mean is the biased variance. -/
theorem ksq_sub_eq_var (x : Slab) : ksq x / 524288 - kmu x * kmu x = var x := by
  unfold var ksq
  rw [kmu_eq_mu, sum_sq_dev x, ksum_eq x]
  ring

/-- The biased variance is a mean of squares, hence non-negative. -/
theorem var_nonneg (x : Slab) : 0 ≤ var x := by
  unfold var
  apply div_nonneg _ (by norm_num)
  exact Finset.sum_nonneg fun d _ => Finset.sum_nonneg fun h _ => Finset.sum_nonneg fun w _ =>
    mul_self_nonneg _

/-- The clip at zero does nothing: the kernel's variance is the specification's. -/
theorem kvar_eq_var (x : Slab) : kvar x = var x := by
  unfold kvar
  rw [ksq_sub_eq_var]
  exact max_eq_left (var_nonneg x)

/-- The reciprocal standard deviations agree. -/
theorem kistd_eq_istd (ε : ℝ) (x : Slab) : kistd ε x = istd ε x := by
  unfold kistd istd
  rw [kvar_eq_var]

/-- Normalising after the depth mean is the depth mean of the normalised slab. -/
theorem kxm_eq_xm (ε : ℝ) (x : Slab) (h w : Fin 128) : kxm ε x h w = xm ε x h w := by
  unfold kxm xm
  rw [kistd_eq_istd, kmu_eq_mu, ← Finset.sum_mul, Finset.sum_sub_distrib]
  simp only [Finset.sum_const, Finset.card_univ, Fintype.card_fin, nsmul_eq_mul]
  push_cast
  ring

/-- Reflection at the low end: padded coordinate 0 reads source coordinate 1. -/
theorem refl_zero : refl 0 = 1 := by
  simp [refl]

/-- Reflection at the high end: padded coordinate 129 reads source coordinate 126. -/
theorem refl_last : refl (Fin.succ (Fin.last 128)) = 126 := by
  decide

/-- In between, padded coordinate `i + 1` reads source coordinate `i`. -/
theorem refl_mid (i : Fin 128) : refl (Fin.succ (Fin.castSucc i)) = i := by
  have hi := i.isLt
  unfold refl
  have h0 : ¬ ((Fin.succ (Fin.castSucc i)).val = 0) := by simp
  have h1 : ¬ ((Fin.succ (Fin.castSucc i)).val = 129) := by simp; omega
  rw [dif_neg h0, dif_neg h1]
  apply Fin.ext
  simp

/-- A reflection-padded sum is the plain sum plus the terms at 1 and at 126. -/
theorem sum_refl (g : Fin 128 → ℝ) :
    (∑ i : Fin 130, g (refl i)) = (∑ h, g h) + g 1 + g 126 := by
  rw [Fin.sum_univ_succ, Fin.sum_univ_castSucc]
  simp only [refl_zero, refl_last, refl_mid]
  ring

/-- The kernel's descriptor is the specification's. -/
theorem kdesc_eq_desc (ε : ℝ) (x : Slab) : kdesc ε x = desc ε x := by
  unfold kdesc desc
  simp only [kxm_eq_xm]
  congr 1
  have hcol : ∀ i : Fin 130, (∑ j : Fin 130, xm ε x (refl i) (refl j))
      = (∑ w, xm ε x (refl i) w) + xm ε x (refl i) 1 + xm ε x (refl i) 126 :=
    fun i => sum_refl (fun w => xm ε x (refl i) w)
  have hrow := sum_refl (fun i => (∑ w, xm ε x i w) + xm ε x i 1 + xm ε x i 126)
  beta_reduce at hrow
  simp only [hcol]
  rw [hrow]
  simp only [Finset.sum_add_distrib]
  ring

end Cert.StatSpec

end
-- ==== Proof.KIPointVal.lean ====
/-
  The kernel's accumulators point by point, in numbers, and the descriptor it stores.

  Grid point `t` works on channel tile `t / 4` and depth tile `t % 4`: its input block holds, for each sample and each
  of 8 channels, the 8 depth slices `8 · (t % 4) … 8 · (t % 4) + 7` of the slab. The depth sum, the sum and the sum of
  squares restart at depth tile 0 and gain one block per point, so after point `t` they hold the slab's sums over
  its first `8 · (t % 4 + 1)` depth slices. At depth tile 3 that is all 32 slices: the three accumulators are the
  slab's depth sum, sum and sum of squares, and the descriptor the kernel finishes from them is the specification's.
-/
import proofs.«158271_j11888469476170_2_alg».proof.Proof.KIPieces
import proofs.«158271_j11888469476170_2_alg».proof.Proof.KILoopVal
import proofs.«158271_j11888469476170_2_alg».proof.Proof.KIBlock
import proofs.«158271_j11888469476170_2_alg».proof.Proof.KIFinish
import proofs.«158271_j11888469476170_2_alg».proof.Proof.StatAlgebra
import proofs.«158271_j11888469476170_2_alg».proof.Proof.Consts

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay Cert.LibERealSum
open scoped BigOperators

/-! ## Sums over the first depth slices -/

/-- A slab's entries along depth, extended by zero past the last slice. -/
def ext32 (f : Fin 32 → ℝ) (j : ℕ) : ℝ := if h : j < 32 then f ⟨j, h⟩ else 0

theorem ext32_of_lt (f : Fin 32 → ℝ) (j : ℕ) (hj : j < 32) : ext32 f j = f ⟨j, hj⟩ := by
  unfold ext32; rw [dif_pos hj]

/-- The sum over all 32 depth slices. -/
theorem sum_range_ext32 (f : Fin 32 → ℝ) : ∑ j ∈ Finset.range 32, ext32 f j = ∑ d : Fin 32, f d := by
  rw [Finset.sum_range]; exact Finset.sum_congr rfl fun d _ => ext32_of_lt f d.val d.isLt

/-- One more depth tile: the sum over the first `8 · (q + 1)` slices is the sum over the first `8 · q` plus the eight
    slices of tile `q`. -/
theorem sum_range_ext32_succ (f : Fin 32 → ℝ) (q : ℕ) (hq : q < 4) :
    ∑ j ∈ Finset.range (8 * (q + 1)), ext32 f j
      = ∑ j ∈ Finset.range (8 * q), ext32 f j + ∑ k : Fin 8, f ⟨8 * q + k.val, by have := k.isLt; omega⟩ := by
  rw [show 8 * (q + 1) = 8 * q + 8 by ring, Finset.sum_range_add]
  congr 1
  rw [Finset.sum_range]
  exact Finset.sum_congr rfl fun (k : Fin 8) _ => ext32_of_lt f (8 * q + k.val) (by have := k.isLt; omega)

/-! ## One point's step, over any block and any earlier accumulators -/

/-- The three accumulators after a point of depth tile `q`, from what they held: each gains the block's eight
    slices. `f` is the slab family the block is cut from. -/
theorem step (x0 : Vec Ideal S4x8x8x128x128 .f32) (d0 : Vec Ideal S4x8x128x128 .f32) (s0 q0 : Vec Ideal S4x8 .f32)
    (f : Fin 4 → Fin 8 → Fin 32 → Fin 128 → Fin 128 → ℝ) (q : ℕ) (hq : q < 4)
    (hx : ∀ n cc (k : Fin 8) h w, x0 (ix5 n cc k h w)
      = ((f n cc ⟨8 * q + k.val, by have := k.isLt; omega⟩ h w : ℝ) : EReal))
    (hd : ∀ n cc h w, d0 (ix4 n cc h w)
      = ((∑ j ∈ Finset.range (8 * q), ext32 (fun d => f n cc d h w) j : ℝ) : EReal))
    (hs : ∀ n cc, s0 (ix2 n cc)
      = ((∑ j ∈ Finset.range (8 * q), ext32 (fun d => ∑ w, ∑ h, f n cc d h w) j : ℝ) : EReal))
    (hq0 : ∀ n cc, q0 (ix2 n cc)
      = ((∑ j ∈ Finset.range (8 * q), ext32 (fun d => ∑ w, ∑ h, f n cc d h w * f n cc d h w) j : ℝ) : EReal))
    (n : Fin 4) (cc : Fin 8) :
    (∀ h w, (loopEnd x0 d0).1 (ix4 n cc h w)
        = ((∑ j ∈ Finset.range (8 * (q + 1)), ext32 (fun d => f n cc d h w) j : ℝ) : EReal))
      ∧ k0_pay10 (F := Ideal) (loopEnd x0 d0).2.1 s0 (ix2 n cc)
        = ((∑ j ∈ Finset.range (8 * (q + 1)), ext32 (fun d => ∑ w, ∑ h, f n cc d h w) j : ℝ) : EReal)
      ∧ k0_pay11 (F := Ideal) (loopEnd x0 d0).2.2 q0 (ix2 n cc)
        = ((∑ j ∈ Finset.range (8 * (q + 1)), ext32 (fun d => ∑ w, ∑ h, f n cc d h w * f n cc d h w) j : ℝ)
          : EReal) := by
  obtain ⟨hD, hA, hB⟩ := loopEnd_apply x0 d0
    (fun n cc (k : Fin 8) h w => f n cc ⟨8 * q + k.val, by have := k.isLt; omega⟩ h w)
    (fun n cc h w => ∑ j ∈ Finset.range (8 * q), ext32 (fun d => f n cc d h w) j) hx hd n cc
  refine ⟨fun h w => ?_, ?_, ?_⟩
  · rw [hD, sum_range_ext32_succ _ q hq]
  · rw [pay10_apply, hs, hA, ← EReal.coe_add, sum_range_ext32_succ _ q hq]
  · rw [pay11_apply, hq0, hB, ← EReal.coe_add, sum_range_ext32_succ _ q hq]

/-! ## The block at a point -/

variable (m : (ℓ : Loc nD τ sig) → Buf (Elt Ideal) ℓ) (c : Dev nD)
  (Xr : Fin 4 → Fin 64 → Fin 32 → Fin 128 → Fin 128 → ℝ)

/-- The channel that position `cc` of point `t`'s block holds: `8 · (t / 4) + cc`. -/
def chan (t : ℕ) (cc : Fin 8) : Fin 64 := ⟨8 * (t / 4 % 8) + cc.val, by have := cc.isLt; omega⟩

theorem chan_val (t : ℕ) (ht : t < 32) (cc : Fin 8) : (chan t cc).val = 8 * (t / 4) + cc.val := by
  show 8 * (t / 4 % 8) + cc.val = _
  omega

/-- Within a channel tile the channel does not change from one point to the next. -/
theorem chan_pred (t : ℕ) (h0 : ¬t % 4 = 0) (cc : Fin 8) : chan (t - 1) cc = chan t cc :=
  Fin.ext (by show 8 * ((t - 1) / 4 % 8) + cc.val = 8 * (t / 4 % 8) + cc.val; omega)

/-- The block at point `t`: entry (n, cc, k, h, w) is the real entry of channel `8 · (t / 4) + cc` at depth
    `8 · (t % 4) + k`. -/
theorem blk_apply (hX : ∀ n C d h w, m ((c : Thread nD τ).loc main_arg0) (ix5 n C d h w) = ((Xr n C d h w : ℝ) : EReal))
    (t : Fin cfg0.N) (n : Fin 4) (cc k : Fin 8) (h w : Fin 128) :
    (iblk m c 0 t : Vec Ideal S4x8x8x128x128 .f32) (ix5 n cc k h w)
      = ((Xr n (chan t.val cc) ⟨8 * (t.val % 4) + k.val, by have := k.isLt; omega⟩ h w : ℝ) : EReal) := by
  have hN : cfg0.N = 32 := N_0
  rw [iblk_apply m c t n cc k h w (chan t.val cc) ⟨8 * (t.val % 4) + k.val, by have := k.isLt; omega⟩
    (chan_val t.val (by have := t.isLt; omega) cc) rfl, hX]

/-! ## The accumulators after each point -/

/-- After point `n` the three accumulators hold, per sample and per channel of the tile, the slab's depth sum, sum and
    sum of squares over its first `8 · (n % 4 + 1)` depth slices. -/
def AccAt (n : ℕ) (hn : n < cfg0.N) : Prop :=
  ∀ (nn : Fin 4) (cc : Fin 8),
    (∀ h w, (outsAt0 m c n hn).2.1 (ix4 nn cc h w)
        = ((∑ j ∈ Finset.range (8 * (n % 4 + 1)), ext32 (fun d => Xr nn (chan n cc) d h w) j : ℝ) : EReal))
      ∧ (outsAt0 m c n hn).2.2.1 (ix2 nn cc)
        = ((∑ j ∈ Finset.range (8 * (n % 4 + 1)), ext32 (fun d => ∑ w, ∑ h, Xr nn (chan n cc) d h w) j : ℝ) : EReal)
      ∧ (outsAt0 m c n hn).2.2.2 (ix2 nn cc)
        = ((∑ j ∈ Finset.range (8 * (n % 4 + 1)),
            ext32 (fun d => ∑ w, ∑ h, Xr nn (chan n cc) d h w * Xr nn (chan n cc) d h w) j : ℝ) : EReal)

/-- At depth tile 0 the accumulators restart from zero and gain the first block. -/
theorem acc_A (hX : ∀ n C d h w, m ((c : Thread nD τ).loc main_arg0) (ix5 n C d h w) = ((Xr n C d h w : ℝ) : EReal))
    (t : Fin cfg0.N) (h0 : t.val % 4 = 0) : AccAt m c Xr t.val t.isLt := by
  have h1 : ¬t.val % 4 = 3 := by omega
  unfold AccAt
  intro nn cc
  have st := step (iblk m c 0 t) (k0_pay1 (F := Ideal)) (k0_pay2 (F := Ideal)) (k0_pay3 (F := Ideal))
    (fun n cc d h w => Xr n (chan t.val cc) d h w) (t.val % 4) (by omega)
    (fun n cc k h w => blk_apply m c Xr hX t n cc k h w)
    (fun n cc h w => by rw [pay1_apply, h0]; simp)
    (fun n cc => by rw [pay2_apply, h0]; simp)
    (fun n cc => by rw [pay3_apply, h0]; simp) nn cc
  rw [outsAt0_A m c t h0 h1]
  dsimp only
  rw [sout0_A_0_eq, sout0_A_1_eq, sout0_A_2_eq]
  exact st

/-- At a later depth tile the accumulators continue from what the point before left. -/
theorem acc_BC (hX : ∀ n C d h w, m ((c : Thread nD τ).loc main_arg0) (ix5 n C d h w) = ((Xr n C d h w : ℝ) : EReal))
    (t : Fin cfg0.N) (h0 : ¬t.val % 4 = 0)
    (ih : AccAt m c Xr (t.val - 1) (Nat.lt_of_le_of_lt (Nat.sub_le _ _) t.isLt)) : AccAt m c Xr t.val t.isLt := by
  unfold AccAt at ih ⊢
  intro nn cc
  have hq : (t.val - 1) % 4 + 1 = t.val % 4 := by omega
  have st := step (iblk m c 0 t) (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2
    (fun n cc d h w => Xr n (chan t.val cc) d h w) (t.val % 4) (by omega)
    (fun n cc k h w => blk_apply m c Xr hX t n cc k h w)
    (fun n cc h w => by rw [(ih n cc).1 h w, hq, chan_pred t.val h0])
    (fun n cc => by rw [(ih n cc).2.1, hq, chan_pred t.val h0])
    (fun n cc => by rw [(ih n cc).2.2, hq, chan_pred t.val h0]) nn cc
  by_cases h1 : t.val % 4 = 3
  · rw [outsAt0_C m c t h0 h1]
    dsimp only
    rw [sout0_C_0_eq, sout0_C_1_eq, sout0_C_2_eq]
    exact st
  · rw [outsAt0_B m c t h0 h1]
    dsimp only
    rw [sout0_B_0_eq, sout0_B_1_eq, sout0_B_2_eq]
    exact st

/-- The accumulators after every point, by induction on the point. -/
theorem acc_all (hX : ∀ n C d h w, m ((c : Thread nD τ).loc main_arg0) (ix5 n C d h w) = ((Xr n C d h w : ℝ) : EReal)) :
    ∀ (n : ℕ) (hn : n < cfg0.N), AccAt m c Xr n hn
  | 0, hn => acc_A m c Xr hX ⟨0, hn⟩ rfl
  | n + 1, hn => by
    by_cases h0 : (n + 1) % 4 = 0
    · exact acc_A m c Xr hX ⟨n + 1, hn⟩ h0
    · exact acc_BC m c Xr hX ⟨n + 1, hn⟩ h0 (acc_all hX n (Nat.lt_of_succ_lt hn))

/-! ## The output block at the last depth tile -/

/-- At the last depth tile the stored block is the finish of the three accumulators as the point leaves them. -/
theorem out_eq_finish (t : Fin cfg0.N) (h0 : ¬t.val % 4 = 0) (h3 : t.val % 4 = 3) :
    (outsAt0 m c t.val t.isLt).1
      = finish (outsAt0 m c t.val t.isLt).2.2.1 (outsAt0 m c t.val t.isLt).2.2.2 (outsAt0 m c t.val t.isLt).2.1 := by
  rw [outsAt0_C m c t h0 h3]
  dsimp only
  rw [out0_C_1_eq, sout0_C_0_eq, sout0_C_1_eq, sout0_C_2_eq]

/-- THE DESCRIPTOR: at a point of the last depth tile, entry (cc, n) of the stored block is the specification's
    descriptor of sample `n`, channel `C = 8 · (t / 4) + cc`. -/
theorem out_apply (hX : ∀ n C d h w, m ((c : Thread nD τ).loc main_arg0) (ix5 n C d h w) = ((Xr n C d h w : ℝ) : EReal))
    (t : Fin cfg0.N) (h3 : t.val % 4 = 3) (n : Fin 4) (cc : Fin 8) (C : Fin 64)
    (hC : C.val = 8 * (t.val / 4) + cc.val) :
    (outsAt0 m c t.val t.isLt).1 (ix2 cc n)
      = ((Cert.StatSpec.desc Cert.Consts.eps (fun d h w => Xr n C d h w) : ℝ) : EReal) := by
  have hN : cfg0.N = 32 := N_0
  have h0 : ¬t.val % 4 = 0 := by omega
  obtain rfl : C = chan t.val cc :=
    Fin.ext (by rw [chan_val t.val (by have := t.isLt; omega) cc]; exact hC)
  have acc := acc_all m c Xr hX t.val t.isLt
  unfold AccAt at acc
  rw [out_eq_finish m c t h0 h3]
  unfold finish
  rw [finish_apply _ _ _
    (fun nn cc => ∑ j ∈ Finset.range (8 * (t.val % 4 + 1)), ext32 (fun d => ∑ w, ∑ h, Xr nn (chan t.val cc) d h w) j)
    (fun nn cc => ∑ j ∈ Finset.range (8 * (t.val % 4 + 1)),
      ext32 (fun d => ∑ w, ∑ h, Xr nn (chan t.val cc) d h w * Xr nn (chan t.val cc) d h w) j)
    (fun nn cc h w => ∑ j ∈ Finset.range (8 * (t.val % 4 + 1)), ext32 (fun d => Xr nn (chan t.val cc) d h w) j)
    (fun nn cc => (acc nn cc).2.1) (fun nn cc => (acc nn cc).2.2) (fun nn cc h w => (acc nn cc).1 h w) n cc]
  have h32 : 8 * (t.val % 4 + 1) = 32 := by omega
  rw [← Cert.StatSpec.kdesc_eq_desc, ← kfin_eq_kdesc]
  simp only [h32, sum_range_ext32]
  have hS : (∑ d : Fin 32, ∑ w : Fin 128, ∑ h : Fin 128, Xr n (chan t.val cc) d h w)
      = Cert.StatSpec.ksum (fun d h w => Xr n (chan t.val cc) d h w) :=
    Finset.sum_congr rfl fun d _ => Finset.sum_comm
  have hQ : (∑ d : Fin 32, ∑ w : Fin 128, ∑ h : Fin 128, Xr n (chan t.val cc) d h w * Xr n (chan t.val cc) d h w)
      = Cert.StatSpec.ksq (fun d h w => Xr n (chan t.val cc) d h w) :=
    Finset.sum_congr rfl fun d _ => Finset.sum_comm
  rw [hS, hQ]

end Cert.KernelIdeal.Body

end
-- ==== Proof.RefAux.lean ====
/-
  Small facts the reading of the reference at an index uses, none about the program itself.

  The coercion of the reals into the extended reals commutes with finite sums. The float literals of the program
  denote 524288, 32 and 16900. A sum over the indices of a rank-4 or rank-5 array is the iterated sum over the
  coordinates. The host's sum over the trailing axes of a rank-5 or rank-4 array, or over one middle axis, read at an
  index given by coordinates, is the initial value plus the iterated sum over the reduced coordinates. Reversing an
  array along axes of extent one changes nothing.
-/
import Idealize.ShloMosaic.PureOps.Ideal
import Idealize.ShloMosaic.PureOps.Ideal.Laws
import Idealize.ShloMosaic.Lib.ValueIdx
import Idealize.ShloMosaic.Lib.ValueIdxCoords

noncomputable section

open scoped BigOperators

namespace Cert.RefAux

open Idealize.ShloMosaic Idealize.ShloMosaic.ValueIdx

/-! ## Coercion and finite sums -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The literals -/

/-- 0x49000000 is 2^19. -/
theorem ofBits_524288 : Ideal.ofBits .f32 0x49000000#32 = ((524288 : ℝ) : EReal) := by
  simp [Ideal.ofBits, Ideal.ieee]
  rw [← EReal.coe_mul]
  norm_num

/-- 0x42000000 is 2^5. -/
theorem ofBits_32 : Ideal.ofBits .f32 0x42000000#32 = ((32 : ℝ) : EReal) := by
  simp [Ideal.ofBits, Ideal.ieee]
  rw [← EReal.coe_mul]
  norm_num

/-- 0x46840800 is 8652800 / 512. -/
theorem ofBits_16900 : Ideal.ofBits .f32 0x46840800#32 = ((16900 : ℝ) : EReal) := by
  simp [Ideal.ofBits, Ideal.ieee]
  rw [← EReal.coe_mul]
  norm_num

/-! ## Sums over indices as sums over coordinates -/

/-- A rank-4 index set is the product of its coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the iterated sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A rank-5 index set is the product of its coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the iterated sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f, Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

/-- Two rank-2 indices given by coordinates are equal exactly when the coordinates are. -/
theorem ix2_inj {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Two rank-4 indices given by coordinates are equal exactly when the coordinates are. -/
theorem ix4_inj {n0 n1 n2 n3 : Nat} (a a' : Fin n0) (b b' : Fin n1) (c c' : Fin n2) (d d' : Fin n3) :
    ix4 a b c d = ix4 a' b' c' d' ↔ a = a' ∧ b = b' ∧ c = c' ∧ d = d' :=
  ⟨fun h => ⟨congrFun h 0, congrFun h 1, congrFun h 2, congrFun h 3⟩, fun h => by rw [h.1, h.2.1, h.2.2.1, h.2.2.2]⟩

/-! ## The host's sums read at an index -/

/-- The sum over depth, rows and columns of a [4, 64, 32, 128, 128] array, at (n, c). -/
theorem hostReduceAdd_d234 (h : Shape.ReducesTo ⟨5, ![4, 64, 32, 128, 128]⟩ [2, 3, 4] ⟨2, ![4, 64]⟩)
    (x : (⟨5, ![4, 64, 32, 128, 128]⟩ : Shape).Idx → EReal) (init : EReal) (n : Fin 4) (c : Fin 64) :
    Ideal.hostReduceAdd h x init (ix2 n c) = init + ∑ d : Fin 32, ∑ r : Fin 128, ∑ w : Fin 128, x (ix5 n c d r w) := by
  unfold Ideal.hostReduceAdd
  congr 1
  have hd : ∀ (a : Fin 4) (b : Fin 64) (d : Fin 32) (r : Fin 128) (w : Fin 128), h.drop (ix5 a b d r w) = ix2 a b := by
    intro a b d r w
    funext k
    match k with
    | ⟨0, _⟩ => exact Fin.ext (h.drop_apply_val_of_eq (ix5 a b d r w) ⟨0, by decide⟩ 0)
    | ⟨1, _⟩ => exact Fin.ext (h.drop_apply_val_of_eq (ix5 a b d r w) ⟨1, by decide⟩ 1)
  rw [Finset.sum_filter, sum_idx5]
  simp only [hd, ix2_inj]
  rw [Finset.sum_eq_single n, Finset.sum_eq_single c]
  · simp
  · intro b _ hb; simp [hb]
  · simp
  · intro a _ ha; simp [ha]
  · simp

/-- The sum over depth of a [4, 64, 32, 128, 128] array, at (n, c, r, w). -/
theorem hostReduceAdd_d2 (h : Shape.ReducesTo ⟨5, ![4, 64, 32, 128, 128]⟩ [2] ⟨4, ![4, 64, 128, 128]⟩)
    (x : (⟨5, ![4, 64, 32, 128, 128]⟩ : Shape).Idx → EReal) (init : EReal) (n : Fin 4) (c : Fin 64) (r w : Fin 128) :
    Ideal.hostReduceAdd h x init (ix4 n c r w) = init + ∑ d : Fin 32, x (ix5 n c d r w) := by
  unfold Ideal.hostReduceAdd
  congr 1
  have hd : ∀ (a : Fin 4) (b : Fin 64) (d : Fin 32) (r' : Fin 128) (w' : Fin 128), h.drop (ix5 a b d r' w') = ix4 a b r' w' := by
    intro a b d r' w'
    funext k
    match k with
    | ⟨0, _⟩ => exact Fin.ext (h.drop_apply_val_of_eq (ix5 a b d r' w') ⟨0, by decide⟩ 0)
    | ⟨1, _⟩ => exact Fin.ext (h.drop_apply_val_of_eq (ix5 a b d r' w') ⟨1, by decide⟩ 1)
    | ⟨2, _⟩ => exact Fin.ext (h.drop_apply_val_of_eq (ix5 a b d r' w') ⟨2, by decide⟩ 3)
    | ⟨3, _⟩ => exact Fin.ext (h.drop_apply_val_of_eq (ix5 a b d r' w') ⟨3, by decide⟩ 4)
  rw [Finset.sum_filter, sum_idx5]
  simp only [hd, ix4_inj]
  rw [Finset.sum_eq_single n, Finset.sum_eq_single c]
  · rw [Finset.sum_comm]
    rw [Finset.sum_eq_single r]
    · rw [Finset.sum_comm]
      rw [Finset.sum_eq_single w]
      · simp
      · intro w' _ hw; simp [hw]
      · simp
    · intro r' _ hr; simp [hr]
    · simp
  · intro b _ hb; simp [hb]
  · simp
  · intro a _ ha; simp [ha]
  · simp

/-- The sum over rows and columns of a [4, 64, 130, 130] array, at (n, c). -/
theorem hostReduceAdd_d23 (h : Shape.ReducesTo ⟨4, ![4, 64, 130, 130]⟩ [2, 3] ⟨2, ![4, 64]⟩)
    (x : (⟨4, ![4, 64, 130, 130]⟩ : Shape).Idx → EReal) (init : EReal) (n : Fin 4) (c : Fin 64) :
    Ideal.hostReduceAdd h x init (ix2 n c) = init + ∑ i : Fin 130, ∑ j : Fin 130, x (ix4 n c i j) := by
  unfold Ideal.hostReduceAdd
  congr 1
  have hd : ∀ (a : Fin 4) (b : Fin 64) (i : Fin 130) (j : Fin 130), h.drop (ix4 a b i j) = ix2 a b := by
    intro a b i j
    funext k
    match k with
    | ⟨0, _⟩ => exact Fin.ext (h.drop_apply_val_of_eq (ix4 a b i j) ⟨0, by decide⟩ 0)
    | ⟨1, _⟩ => exact Fin.ext (h.drop_apply_val_of_eq (ix4 a b i j) ⟨1, by decide⟩ 1)
  rw [Finset.sum_filter, sum_idx4]
  simp only [hd, ix2_inj]
  rw [Finset.sum_eq_single n, Finset.sum_eq_single c]
  · simp
  · intro b _ hb; simp [hb]
  · simp
  · intro a _ ha; simp [ha]
  · simp

/-! ## Reversal along unit axes -/

/-- Reversing along axes that all have extent one is the identity. -/
theorem reverse_unit {s : Shape} {α : Type} (axes : List (Fin s.rank)) (x : s.Idx → α) (h : ∀ a ∈ axes, s.size a = 1) :
    Host.reverse axes x = x := by
  funext j
  unfold Host.reverse
  congr 1
  funext a
  split
  · next ha =>
    apply Fin.ext
    have h1 := h a ha
    have := (j a).isLt
    have := (j a).rev.isLt
    omega
  · rfl

end Cert.RefAux

end
-- ==== Proof.RefPad.lean ====
/-
  The reflection padding read at an index: the padded map at (n, c, i, j) is the map at (n, c, refl i, refl j), where
  refl sends 0 to 1, 129 to 126 and every other i to i − 1.

  The program pads in four steps. Row 1 of the map is put before it (129 rows: row 0 reads row 1, row i > 0 reads row
  i − 1); row 127 of that, which is the map's row 126, is put after it (130 rows); then the same along the columns. The
  row or column put in place is first reversed along its own axis, which has extent one, so the reversal is the identity.
-/
import proofs.«158271_j11888469476170_2_alg».proof.Proof.RefRun
import proofs.«158271_j11888469476170_2_alg».proof.Proof.RefAux
import proofs.«158271_j11888469476170_2_alg».proof.Proof.StatSpec
import Idealize.ShloMosaic.Lib.Pipeline.Value

noncomputable section

namespace Cert.ReferenceIdeal.RefPad

open Cert.ReferenceIdeal Cert.ReferenceIdeal.Gen Cert.ReferenceIdeal.RefRun Idealize.ShloMosaic Idealize.ShloMosaic.ValueIdx

variable {F : FTy → Type} [FloatOps F]

/-- Reversing a one-row slab along its row axis is the identity. -/
theorem reverse_row {α : Type} (x : S4x64x1x128.Idx → α) : Host.reverse [2] x = x :=
  Cert.RefAux.reverse_unit _ x (by decide)

/-- Reversing a one-column slab along its column axis is the identity. -/
theorem reverse_col {α : Type} (x : S4x64x130x1.Idx → α) : Host.reverse [3] x = x :=
  Cert.RefAux.reverse_unit _ x (by decide)

/-- With row 1 put before the map: row 0 reads the map's row 1. -/
theorem padTop_zero (A : FVec F S4x64x128x128 .f32) (n : Fin 4) (c : Fin 64) (i : Fin 129) (j : Fin 128) (hi : i.val = 0) :
    padTop A (ix4 n c i j) = A (ix4 n c (⟨1, by omega⟩ : Fin 128) j) := by
  unfold padTop
  rw [reverse_row]
  refine (concatenate_pair_apply_left (t := S4x64x129x128) (s₁ := S4x64x1x128) (s₂ := S4x64x128x128) (2 : Fin 4) _ _ _ (ix4 n c i j) rfl (ix4 n c (⟨0, by omega⟩ : Fin 1) j) ?_).trans ?_
  · intro b
    match b with
    | ⟨0, _⟩ => rfl
    | ⟨1, _⟩ => rfl
    | ⟨2, _⟩ => show 0 = i.val; omega
    | ⟨3, _⟩ => rfl
  · refine extractStridedSlice_apply _ A _ _ (ix4 n c (⟨1, by omega⟩ : Fin 128) j) ?_
    intro a
    match a with
    | ⟨0, _⟩ => show n.val = 0 + n.val; omega
    | ⟨1, _⟩ => show c.val = 0 + c.val; omega
    | ⟨2, _⟩ => show 1 = 1 + 0; omega
    | ⟨3, _⟩ => show j.val = 0 + j.val; omega

/-- With row 1 put before the map: row i > 0 reads the map's row i − 1. -/
theorem padTop_pos (A : FVec F S4x64x128x128 .f32) (n : Fin 4) (c : Fin 64) (i : Fin 129) (j : Fin 128) (hi : 0 < i.val) :
    padTop A (ix4 n c i j) = A (ix4 n c (⟨i.val - 1, by omega⟩ : Fin 128) j) := by
  unfold padTop
  refine concatenate_pair_apply_right (t := S4x64x129x128) (s₁ := S4x64x1x128) (s₂ := S4x64x128x128) (2 : Fin 4) _ _ _ (ix4 n c i j) rfl rfl (ix4 n c (⟨i.val - 1, by omega⟩ : Fin 128) j) ?_ ?_
  · intro b hb
    match b, hb with
    | ⟨0, _⟩, _ => rfl
    | ⟨1, _⟩, _ => rfl
    | ⟨2, _⟩, hb => exact absurd rfl hb
    | ⟨3, _⟩, _ => rfl
  · show (i.val - 1) + 1 = i.val
    omega

/-- After the rows are padded: row i reads the map's row refl i. -/
theorem padRows_apply (A : FVec F S4x64x128x128 .f32) (n : Fin 4) (c : Fin 64) (i : Fin 130) (j : Fin 128) :
    padRows A (ix4 n c i j) = A (ix4 n c (StatSpec.refl i) j) := by
  unfold padRows
  rw [reverse_row]
  by_cases h129 : i.val = 129
  · -- the last row: row 127 of the 129 rows, the map's row 126
    refine (concatenate_pair_apply_right (t := S4x64x130x128) (s₁ := S4x64x129x128) (s₂ := S4x64x1x128) (2 : Fin 4) _ _ _ (ix4 n c i j) rfl rfl (ix4 n c (⟨0, by omega⟩ : Fin 1) j) ?_ ?_).trans ?_
    · intro b hb
      match b, hb with
      | ⟨0, _⟩, _ => rfl
      | ⟨1, _⟩, _ => rfl
      | ⟨2, _⟩, hb => exact absurd rfl hb
      | ⟨3, _⟩, _ => rfl
    · show 0 + 129 = i.val
      omega
    · refine (extractStridedSlice_apply _ (padTop A) _ _ (ix4 n c (⟨127, by omega⟩ : Fin 129) j) ?_).trans ?_
      · intro a
        match a with
        | ⟨0, _⟩ => show n.val = 0 + n.val; omega
        | ⟨1, _⟩ => show c.val = 0 + c.val; omega
        | ⟨2, _⟩ => show 127 = 127 + 0; omega
        | ⟨3, _⟩ => show j.val = 0 + j.val; omega
      · rw [padTop_pos A n c _ j (by show 0 < 127; omega)]
        have hr : StatSpec.refl i = ⟨126, by omega⟩ := by
          unfold StatSpec.refl
          rw [dif_neg (by omega), dif_pos h129]
        exact (congrArg (fun k => A (ix4 n c k j)) hr).symm
  · -- one of the first 129 rows
    have hlt : i.val < 129 := by have := i.isLt; omega
    refine (concatenate_pair_apply_left (t := S4x64x130x128) (s₁ := S4x64x129x128) (s₂ := S4x64x1x128) (2 : Fin 4) _ _ _ (ix4 n c i j) rfl (ix4 n c (⟨i.val, hlt⟩ : Fin 129) j) ?_).trans ?_
    · intro b
      match b with
      | ⟨0, _⟩ => rfl
      | ⟨1, _⟩ => rfl
      | ⟨2, _⟩ => rfl
      | ⟨3, _⟩ => rfl
    · by_cases h0 : i.val = 0
      · rw [padTop_zero A n c _ j (by show i.val = 0; exact h0)]
        have hr : StatSpec.refl i = ⟨1, by omega⟩ := by
          unfold StatSpec.refl
          rw [dif_pos h0]
        exact (congrArg (fun k => A (ix4 n c k j)) hr).symm
      · rw [padTop_pos A n c _ j (by show 0 < i.val; omega)]
        have hr : StatSpec.refl i = ⟨i.val - 1, by omega⟩ := by
          unfold StatSpec.refl
          rw [dif_neg h0, dif_neg h129]
        exact (congrArg (fun k => A (ix4 n c k j)) hr).symm

/-- With column 1 put before the row-padded map: column 0 reads its column 1. -/
theorem padLeft_zero (A : FVec F S4x64x128x128 .f32) (n : Fin 4) (c : Fin 64) (i : Fin 130) (j : Fin 129) (hj : j.val = 0) :
    padLeft A (ix4 n c i j) = padRows A (ix4 n c i (⟨1, by omega⟩ : Fin 128)) := by
  unfold padLeft
  rw [reverse_col]
  refine (concatenate_pair_apply_left (t := S4x64x130x129) (s₁ := S4x64x130x1) (s₂ := S4x64x130x128) (3 : Fin 4) _ _ _ (ix4 n c i j) rfl (ix4 n c i (⟨0, by omega⟩ : Fin 1)) ?_).trans ?_
  · intro b
    match b with
    | ⟨0, _⟩ => rfl
    | ⟨1, _⟩ => rfl
    | ⟨2, _⟩ => rfl
    | ⟨3, _⟩ => show 0 = j.val; omega
  · refine extractStridedSlice_apply _ (padRows A) _ _ (ix4 n c i (⟨1, by omega⟩ : Fin 128)) ?_
    intro a
    match a with
    | ⟨0, _⟩ => show n.val = 0 + n.val; omega
    | ⟨1, _⟩ => show c.val = 0 + c.val; omega
    | ⟨2, _⟩ => show i.val = 0 + i.val; omega
    | ⟨3, _⟩ => show 1 = 1 + 0; omega

/-- With column 1 put before the row-padded map: column j > 0 reads its column j − 1. -/
theorem padLeft_pos (A : FVec F S4x64x128x128 .f32) (n : Fin 4) (c : Fin 64) (i : Fin 130) (j : Fin 129) (hj : 0 < j.val) :
    padLeft A (ix4 n c i j) = padRows A (ix4 n c i (⟨j.val - 1, by omega⟩ : Fin 128)) := by
  unfold padLeft
  refine concatenate_pair_apply_right (t := S4x64x130x129) (s₁ := S4x64x130x1) (s₂ := S4x64x130x128) (3 : Fin 4) _ _ _ (ix4 n c i j) rfl rfl (ix4 n c i (⟨j.val - 1, by omega⟩ : Fin 128)) ?_ ?_
  · intro b hb
    match b, hb with
    | ⟨0, _⟩, _ => rfl
    | ⟨1, _⟩, _ => rfl
    | ⟨2, _⟩, _ => rfl
    | ⟨3, _⟩, hb => exact absurd rfl hb
  · show (j.val - 1) + 1 = j.val
    omega

/-- The padded map at (n, c, i, j) is the row-padded map at column refl j. -/
theorem padded_cols (A : FVec F S4x64x128x128 .f32) (n : Fin 4) (c : Fin 64) (i : Fin 130) (j : Fin 130) :
    padded A (ix4 n c i j) = padRows A (ix4 n c i (StatSpec.refl j)) := by
  unfold padded
  rw [reverse_col]
  by_cases h129 : j.val = 129
  · refine (concatenate_pair_apply_right (t := S4x64x130x130) (s₁ := S4x64x130x129) (s₂ := S4x64x130x1) (3 : Fin 4) _ _ _ (ix4 n c i j) rfl rfl (ix4 n c i (⟨0, by omega⟩ : Fin 1)) ?_ ?_).trans ?_
    · intro b hb
      match b, hb with
      | ⟨0, _⟩, _ => rfl
      | ⟨1, _⟩, _ => rfl
      | ⟨2, _⟩, _ => rfl
      | ⟨3, _⟩, hb => exact absurd rfl hb
    · show 0 + 129 = j.val
      omega
    · refine (extractStridedSlice_apply _ (padLeft A) _ _ (ix4 n c i (⟨127, by omega⟩ : Fin 129)) ?_).trans ?_
      · intro a
        match a with
        | ⟨0, _⟩ => show n.val = 0 + n.val; omega
        | ⟨1, _⟩ => show c.val = 0 + c.val; omega
        | ⟨2, _⟩ => show i.val = 0 + i.val; omega
        | ⟨3, _⟩ => show 127 = 127 + 0; omega
      · rw [padLeft_pos A n c i _ (by show 0 < 127; omega)]
        have hr : StatSpec.refl j = ⟨126, by omega⟩ := by
          unfold StatSpec.refl
          rw [dif_neg (by omega), dif_pos h129]
        exact (congrArg (fun k => padRows A (ix4 n c i k)) hr).symm
  · have hlt : j.val < 129 := by have := j.isLt; omega
    refine (concatenate_pair_apply_left (t := S4x64x130x130) (s₁ := S4x64x130x129) (s₂ := S4x64x130x1) (3 : Fin 4) _ _ _ (ix4 n c i j) rfl (ix4 n c i (⟨j.val, hlt⟩ : Fin 129)) ?_).trans ?_
    · intro b
      match b with
      | ⟨0, _⟩ => rfl
      | ⟨1, _⟩ => rfl
      | ⟨2, _⟩ => rfl
      | ⟨3, _⟩ => rfl
    · by_cases h0 : j.val = 0
      · rw [padLeft_zero A n c i _ (by show j.val = 0; exact h0)]
        have hr : StatSpec.refl j = ⟨1, by omega⟩ := by
          unfold StatSpec.refl
          rw [dif_pos h0]
        exact (congrArg (fun k => padRows A (ix4 n c i k)) hr).symm
      · rw [padLeft_pos A n c i _ (by show 0 < j.val; omega)]
        have hr : StatSpec.refl j = ⟨j.val - 1, by omega⟩ := by
          unfold StatSpec.refl
          rw [dif_neg h0, dif_neg h129]
        exact (congrArg (fun k => padRows A (ix4 n c i k)) hr).symm

/-- The padded map at (n, c, i, j) is the map at (n, c, refl i, refl j). -/
theorem padded_apply (A : FVec F S4x64x128x128 .f32) (n : Fin 4) (c : Fin 64) (i : Fin 130) (j : Fin 130) :
    padded A (ix4 n c i j) = A (ix4 n c (StatSpec.refl i) (StatSpec.refl j)) := by
  rw [padded_cols, padRows_apply]

end Cert.ReferenceIdeal.RefPad

end
-- ==== Proof.RefValue.lean ====
/-
  The reference's result read at an index, in terms of the shared real-valued specification.

  Every entry of the two arguments is the coercion of a real. Reading the composed term one operation at a time at an
  index given by coordinates: the mean of slab (n, c) is the coercion of the specification's mean, the centred array of
  the centred entry, and so on through the variance, the reciprocal standard deviation (the variance is nonnegative and
  the regulariser positive, so the reciprocal square root is that of a positive real), the normalised array, its mean
  over depth, the padded map (the depth mean at the reflected coordinates), the padded map's mean, and the product with
  the weights. At each step the coercion of the reals into the extended reals is pushed outward through the sum, the
  difference, the product, the division by a nonzero literal and the finite sums.
-/
import proofs.«158271_j11888469476170_2_alg».proof.Proof.RefRun
import proofs.«158271_j11888469476170_2_alg».proof.Proof.RefAux
import proofs.«158271_j11888469476170_2_alg».proof.Proof.RefPad
import proofs.«158271_j11888469476170_2_alg».proof.Proof.StatSpec
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.StatSpec Cert.RefAux

/-! ## The operations at an index -/

section Ops
variable {s : Shape} {φ : FTy}

/-- The host's quotient at an index is the quotient of the elements. -/
theorem hdivf_apply (a b : FVec Ideal s φ) (i : s.Idx) : Host.divf a b i = Ideal.div (a i) (b i) := rfl

/-- The host's reciprocal square root at an index is that of the element. -/
theorem hrsqrt_apply (a : FVec Ideal s φ) (i : s.Idx) : Host.rsqrt a i = Ideal.rsqrt (a i) := rfl

/-- The scalar zero reads 0. -/
theorem zero_apply (i : S_.Idx) : zero (F := Ideal) i = 0 := Ideal.ofBits_zero_f32

end Ops

/-- A quotient of a coerced real by a nonzero real literal is the coercion of the real quotient. -/
theorem div_lit (S : EReal) (s y : ℝ) (hy : y ≠ 0) (hS : S = (s : EReal)) : Ideal.div S (y : EReal) = ((s / y : ℝ) : EReal) := by
  rw [Ideal.div_coe hy, hS, ← EReal.coe_mul, div_eq_mul_one_div s y]

section Bcast
variable {α : Type}

/-- A scalar broadcast to any shape reads the scalar. -/
theorem bcast0_apply {t : Shape} (h : S_.BroadcastsInDim t (![] : Fin 0 → Fin t.rank)) (x : S_.Idx → α) (j : t.Idx) :
    broadcastInDim t ![] h x j = x ix0 :=
  broadcastInDim_apply _ h x j ix0 fun a => a.elim0

/-- A per-slab value broadcast to [4, 64, 1, 1, 1] reads the slab's value. -/
theorem bcast2_apply (h : S4x64.BroadcastsInDim S4x64x1x1x1 (![0, 1] : Fin 2 → Fin S4x64x1x1x1.rank)) (x : S4x64.Idx → α)
    (n : Fin 4) (c : Fin 64) (a b e : Fin 1) :
    broadcastInDim S4x64x1x1x1 ![0, 1] h x (ix5 n c a b e) = x (ix2 n c) :=
  broadcastInDim_apply _ h x _ (ix2 n c) fun k =>
    match k with
    | ⟨0, _⟩ => rfl
    | ⟨1, _⟩ => rfl

/-- A [4, 64, 1, 1, 1] array broadcast over depth, rows and columns reads the slab's value. -/
theorem bcast5_apply
    (h : S4x64x1x1x1.BroadcastsInDim S4x64x32x128x128 (![0, 1, 2, 3, 4] : Fin 5 → Fin S4x64x32x128x128.rank))
    (x : S4x64x1x1x1.Idx → α) (n : Fin 4) (c : Fin 64) (d : Fin 32) (r w : Fin 128) :
    broadcastInDim S4x64x32x128x128 ![0, 1, 2, 3, 4] h x (ix5 n c d r w) = x (ix5 n c u0 u0 u0) :=
  broadcastInDim_apply _ h x _ (ix5 n c u0 u0 u0) fun k =>
    match k with
    | ⟨0, _⟩ => rfl
    | ⟨1, _⟩ => rfl
    | ⟨2, _⟩ => rfl
    | ⟨3, _⟩ => rfl
    | ⟨4, _⟩ => rfl

end Bcast

/-! ## The statistics -/

section Stats

variable (Xa : FVec Ideal S4x64x32x128x128 .f32) (X : Fin 4 → Fin 64 → Slab)
  (hX : ∀ n c d r w, Xa (ix5 n c d r w) = ((X n c d r w : ℝ) : EReal))

include hX

/-- The mean of slab (n, c). -/
theorem mean_apply (n : Fin 4) (c : Fin 64) : mean Xa (ix5 n c u0 u0 u0) = ((mu (X n c) : ℝ) : EReal) := by
  unfold mean
  rw [hdivf_apply, bcast2_apply, bcast0_apply, constant_apply, ofBits_524288]
  unfold Host.reduceAdd
  rw [Ideal.hostReduceAdd_def, hostReduceAdd_d234, zero_apply, zero_add]
  simp only [hX]
  rw [div_lit _ (∑ d, ∑ r, ∑ w, X n c d r w) 524288 (by norm_num) (by simp only [coe_sum])]
  rfl

/-- The centred entry. -/
theorem centred_apply (n : Fin 4) (c : Fin 64) (d : Fin 32) (r w : Fin 128) :
    centred Xa (ix5 n c d r w) = ((X n c d r w - mu (X n c) : ℝ) : EReal) := by
  unfold centred
  rw [subf_apply, bcast5_apply, mean_apply Xa X hX, hX, ← EReal.coe_sub]

/-- The biased variance of slab (n, c). -/
theorem variance_apply (n : Fin 4) (c : Fin 64) : variance Xa (ix5 n c u0 u0 u0) = ((var (X n c) : ℝ) : EReal) := by
  unfold variance
  rw [hdivf_apply, bcast2_apply, bcast0_apply, constant_apply, ofBits_524288]
  unfold Host.reduceAdd
  rw [Ideal.hostReduceAdd_def, hostReduceAdd_d234, zero_apply, zero_add]
  simp only [mulf_apply, centred_apply Xa X hX, ← EReal.coe_mul]
  rw [div_lit _ (∑ d, ∑ r, ∑ w, (X n c d r w - mu (X n c)) * (X n c d r w - mu (X n c))) 524288 (by norm_num)
    (by simp only [coe_sum])]
  rfl

omit hX in
/-- The variance is nonnegative. -/
theorem var_nonneg (x : Slab) : 0 ≤ var x := by
  unfold var
  refine div_nonneg ?_ (by norm_num)
  exact Finset.sum_nonneg fun d _ => Finset.sum_nonneg fun r _ => Finset.sum_nonneg fun w _ => mul_self_nonneg _

variable (ε : ℝ) (hε : 0 < ε) (hεb : Ideal.ofBits .f32 0x3727C5AC#32 = (ε : EReal))

include hε hεb

/-- The reciprocal standard deviation of slab (n, c). -/
theorem rstd_apply (n : Fin 4) (c : Fin 64) : rstd Xa (ix5 n c u0 u0 u0) = ((istd ε (X n c) : ℝ) : EReal) := by
  unfold rstd
  rw [hrsqrt_apply, addf_apply, variance_apply Xa X hX, bcast0_apply, constant_apply, hεb, ← EReal.coe_add]
  have hpos : 0 < var (X n c) + ε := add_pos_of_nonneg_of_pos (var_nonneg _) hε
  rw [Ideal.rsqrt_coe, if_neg (not_lt.2 hpos.le), if_neg hpos.ne']
  rfl

/-- The normalised entry. -/
theorem normed_apply (n : Fin 4) (c : Fin 64) (d : Fin 32) (r w : Fin 128) :
    normed Xa (ix5 n c d r w) = (((X n c d r w - mu (X n c)) * istd ε (X n c) : ℝ) : EReal) := by
  unfold normed
  rw [mulf_apply, centred_apply Xa X hX, bcast5_apply, rstd_apply Xa X hX ε hε hεb, ← EReal.coe_mul]

/-- The normalised slab's mean over depth. -/
theorem depthMean_apply (n : Fin 4) (c : Fin 64) (r w : Fin 128) :
    depthMean Xa (ix4 n c r w) = ((xm ε (X n c) r w : ℝ) : EReal) := by
  unfold depthMean
  rw [hdivf_apply, bcast0_apply, constant_apply, ofBits_32]
  unfold Host.reduceAdd
  rw [Ideal.hostReduceAdd_def, hostReduceAdd_d2, zero_apply, zero_add]
  simp only [normed_apply Xa X hX ε hε hεb]
  rw [div_lit _ (∑ d, (X n c d r w - mu (X n c)) * istd ε (X n c)) 32 (by norm_num) (by simp only [coe_sum])]
  rfl

/-- The mean of the padded map of slab (n, c). -/
theorem descr_apply (n : Fin 4) (c : Fin 64) : descr Xa (ix2 n c) = ((desc ε (X n c) : ℝ) : EReal) := by
  unfold descr
  rw [hdivf_apply, bcast0_apply, constant_apply, ofBits_16900]
  unfold Host.reduceAdd
  rw [Ideal.hostReduceAdd_def, hostReduceAdd_d23, zero_apply, zero_add]
  simp only [RefPad.padded_apply, depthMean_apply Xa X hX ε hε hεb]
  rw [div_lit _ (∑ i : Fin 130, ∑ j : Fin 130, xm ε (X n c) (StatSpec.refl i) (StatSpec.refl j)) 16900 (by norm_num)
    (by simp only [coe_sum])]
  rfl

end Stats

/-! ## The product with the weights -/

/-- The one contracted axis of the product has the 64 channels. -/
def chan : dot_S4x64_S64x256_S4x256_1_0_0_1_n_n.contr.Idx ≃ Fin 64 :=
  contrEquiv1 dot_S4x64_S64x256_S4x256_1_0_0_1_n_n 64 rfl rfl

/-- The left operand's index at result (n, j) and channel k is (n, k). -/
theorem lhsIdx_eq (n : Fin 4) (j : Fin 256) (k : Fin 64) :
    dot_S4x64_S64x256_S4x256_1_0_0_1_n_n.lhsIdx (ix2 n j) (chan.symm k) = ix2 n k := by
  funext a
  match a with
  | ⟨0, _⟩ => exact Fin.ext rfl
  | ⟨1, _⟩ =>
    refine Fin.ext ?_
    exact (DotDims.lhsIdx_val_of_single _ rfl (ix2 n j) (chan.symm k)).trans (contrEquiv1_symm_val _ 64 rfl rfl k)

/-- The right operand's index at result (n, j) and channel k is (k, j). -/
theorem rhsIdx_eq (n : Fin 4) (j : Fin 256) (k : Fin 64) :
    dot_S4x64_S64x256_S4x256_1_0_0_1_n_n.rhsIdx (ix2 n j) (chan.symm k) = ix2 k j := by
  funext a
  match a with
  | ⟨0, _⟩ =>
    refine Fin.ext ?_
    exact (DotDims.rhsIdx_val_of_single _ rfl (ix2 n j) (chan.symm k)).trans (contrEquiv1_symm_val _ 64 rfl rfl k)
  | ⟨1, _⟩ => exact Fin.ext rfl

/-- The reference's result at (n, j) is the specification's. -/
theorem result_apply (Xa : FVec Ideal S4x64x32x128x128 .f32) (Wa : FVec Ideal S64x256 .f32)
    (X : Fin 4 → Fin 64 → Slab) (W : Fin 64 → Fin 256 → ℝ) (ε : ℝ) (hε : 0 < ε)
    (hεb : Ideal.ofBits .f32 0x3727C5AC#32 = (ε : EReal))
    (hX : ∀ n c d h w, Xa (ix5 n c d h w) = ((X n c d h w : ℝ) : EReal))
    (hW : ∀ c j, Wa (ix2 c j) = ((W c j : ℝ) : EReal)) (n : Fin 4) (j : Fin 256) :
    RefRun.result Xa Wa (ix2 n j) = ((Cert.StatSpec.out ε X W n j : ℝ) : EReal) := by
  unfold RefRun.result
  simp only [Host.dotGeneral]
  rw [Ideal.dotGeneral_apply, ← Equiv.sum_comp chan.symm]
  simp only [lhsIdx_eq, rhsIdx_eq, descr_apply Xa X hX ε hε hεb, hW, ← EReal.coe_mul]
  unfold Cert.StatSpec.out
  rw [coe_sum]

end Cert.ReferenceIdeal.RefValue

end
-- ==== Proof.FiniteInputs.lean ====
/-
  From the precondition to real witnesses.

  The precondition's predicate is the conjunction of two statements "every entry has absolute value below +∞", one
  per input array, each a reduction by `and` of the entrywise comparisons. An extended real whose absolute value
  `max x (−x)` is below `⊤` is neither `⊤` nor `⊥`, hence the coercion of a real. So where the predicate holds,
  every entry of either input is the coercion of a real.
-/
import proofs.«158271_j11888469476170_2_alg».proof.Defs
import proofs.«158271_j11888469476170_2_alg».proof.Proof.Gen.Pre_finite_inputs
import Idealize.ShloMosaic.Lib.ReduceAll
import Idealize.ShloMosaic.Lib.ValueIdx

noncomputable section

namespace Cert.FiniteInputs

open Idealize.ShloMosaic Idealize.ShloMosaic.ValueIdx Cert.Pre_finite_inputs

/-- The rank-0 shape has one index. -/
instance : Subsingleton S_.Idx := ⟨fun a b => funext fun d => d.elim0⟩

/-- The pattern of `+∞` (exponent field all ones, significand field zero) denotes `⊤`. -/
theorem ofBits_inf : Ideal.ofBits .f32 0x7F800000#32 = ⊤ := by
  simp [Ideal.ofBits, Ideal.ieee]

/-- An extended real whose absolute value `max x (−x)` compares below `+∞` is the coercion of a real. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- Where the precondition's predicate holds, every entry of either input is the coercion of a real. -/
theorem reals (Xa : FVec Ideal S4x64x32x128x128 .f32) (Wa : FVec Ideal S64x256 .f32)
    (h : Cert.Pre_finite_inputs.fn (F := Ideal) Xa Wa = fun _ => 1#1) :
    (∀ i, ∃ r : ℝ, Xa i = (r : EReal)) ∧ (∀ i, ∃ r : ℝ, Wa i = (r : EReal)) := by
  have h0 := congrFun h ValueIdx.ix0
  dsimp only [Cert.Pre_finite_inputs.fn] at h0
  obtain ⟨hX, hW⟩ := IntOp.andi_eq_one.1 h0
  refine ⟨fun i => ?_, fun i => ?_⟩
  · have e := Host.reduce_andi_all _ _ _ _ _ hX i
    exact real_of_abs_lt_inf (Xa i) e
  · have e := Host.reduce_andi_all _ _ _ _ _ hW i
    exact real_of_abs_lt_inf (Wa i) e

open Idealize.SL.Sem in
/-- Under the kernel's precondition, on every device both of its argument arrays hold coerced reals. -/
theorem reals_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i
        = (r : EReal))
      ∧ (∀ i, ∃ r : ℝ, m ((c.tc : Thread Cert.KernelIdeal.nD Cert.KernelIdeal.τ).loc Cert.KernelIdeal.main_arg1) i
        = (r : EReal)) :=
  reals _ _ (h c)

open Idealize.SL.Sem in
/-- Under the reference's precondition, on every device both of its argument arrays hold coerced reals. -/
theorem reals_ReferenceIdeal
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, m ((c.tc : Thread Cert.ReferenceIdeal.nD Cert.ReferenceIdeal.τ).loc Cert.ReferenceIdeal.main_arg0) i
        = (r : EReal))
      ∧ (∀ i, ∃ r : ℝ, m ((c.tc : Thread Cert.ReferenceIdeal.nD Cert.ReferenceIdeal.τ).loc Cert.ReferenceIdeal.main_arg1) i
        = (r : EReal)) :=
  reals _ _ (h c)

end Cert.FiniteInputs

end
-- ==== Proof.Bridge.lean ====
/-
  The two programs compute one function. Under the precondition every entry of the two argument arrays is a real
  number. Read at those reals, the kernel's result at (n, j) is the sum over the channels of the descriptor times the
  weight — the descriptor reached through the kernel's arrangement, which equals the specification's — and the
  reference's result is the same sum.
-/
import proofs.«158271_j11888469476170_2_alg».proof.Defs
import proofs.«158271_j11888469476170_2_alg».proof.Proof.KIArray
import proofs.«158271_j11888469476170_2_alg».proof.Proof.KIPointVal
import proofs.«158271_j11888469476170_2_alg».proof.Proof.RefValue
import proofs.«158271_j11888469476170_2_alg».proof.Proof.FiniteInputs
import proofs.«158271_j11888469476170_2_alg».proof.Proof.LibERealSum
import proofs.«158271_j11888469476170_2_alg».proof.Proof.Consts

set_option maxRecDepth 16384

noncomputable section

namespace Cert.Bridge

open Idealize.ShloMosaic Idealize.ShloMosaic.TcCoe Idealize.SL.Sem Idealize.ShloMosaic.ValueIdx
open Cert.LibERealSum
open scoped BigOperators

/-- The kernel's result, entry by entry, when the arguments' entries are the reals `Xr` and `Wr`. -/
theorem kernel_apply (m : (ℓ : Loc Cert.KernelIdeal.nD Cert.KernelIdeal.τ Cert.KernelIdeal.sig) → Buf (Elt Ideal) ℓ)
    (c : Dev Cert.KernelIdeal.nD) (Xr : Fin 4 → Fin 64 → Fin 32 → Fin 128 → Fin 128 → ℝ) (Wr : Fin 64 → Fin 256 → ℝ)
    (hX : ∀ n C d h w, m ((c : Thread Cert.KernelIdeal.nD Cert.KernelIdeal.τ).loc Cert.KernelIdeal.main_arg0) (ix5 n C d h w) = ((Xr n C d h w : ℝ) : EReal))
    (hW : ∀ C j, m ((c : Thread Cert.KernelIdeal.nD Cert.KernelIdeal.τ).loc Cert.KernelIdeal.main_arg1) (ix2 C j) = ((Wr C j : ℝ) : EReal))
    (n : Fin 4) (j : Fin 256) :
    (Pipeline.afterTail₀ Cert.KernelIdeal.cfgs (Cert.KernelIdeal.Body.dats m) 0 (Cert.KernelIdeal.Gen.V0 m) [Cert.KernelIdeal.Gen.hostOps1] c Cert.KernelIdeal.main_v2 (ix2 n j) : EReal)
      = ((Cert.StatSpec.out Cert.Consts.eps (fun n C d h w => Xr n C d h w) Wr n j : ℝ) : EReal) := by
  have hB : Cert.KernelIdeal.Body.BlockVal m c Xr := fun t h3 j' C hC => by
    have e := Cert.KernelIdeal.Body.out_apply m c Xr hX t h3 (j' 1) (j' 0) C hC
    exact (congrArg (Cert.KernelIdeal.Body.outsAt0 m c t.val t.isLt).1 (eq_ix2 (n0 := 8) (n1 := 4) j')).trans e
  have key : ∀ g : Fin 64 → EReal, (∀ C, g C = ((Wr C j : ℝ) : EReal)) →
      (∑ C : Fin 64, ((Cert.StatSpec.desc Cert.Consts.eps (fun d h w => Xr n C d h w) : ℝ) : EReal) * g C)
        = ((Cert.StatSpec.out Cert.Consts.eps (fun n C d h w => Xr n C d h w) Wr n j : ℝ) : EReal) := by
    intro g hg
    unfold Cert.StatSpec.out
    rw [coe_sum]
    refine Finset.sum_congr rfl fun C _ => ?_
    rw [hg, ← EReal.coe_mul]
  exact (Cert.KernelIdeal.Body.result_apply m c Xr hB n j).trans
    (key (fun C => m ((c : Thread Cert.KernelIdeal.nD Cert.KernelIdeal.τ).loc Cert.KernelIdeal.main_arg1) (ix2 C j)) (fun C => hW C j))

/-- At the ideal instance, from memories agreeing on the arguments, the kernel and the reference end with equal results:
    both are the specification's value at every entry. -/
theorem algebraic : Cert.algebraic_KernelIdeal_ReferenceIdeal := by
  intro m ρ m' ρ' hpre hagree
  refine ⟨fun c => Pipeline.afterTail₀ Cert.KernelIdeal.cfgs (Cert.KernelIdeal.Body.dats m) 0 (Cert.KernelIdeal.Gen.V0 m) [Cert.KernelIdeal.Gen.hostOps1] c Cert.KernelIdeal.main_v2,
    Cert.KernelIdeal.Body.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  obtain ⟨hXr, hWr⟩ := Cert.FiniteInputs.reals_KernelIdeal m hpre c
  choose Xf hXf using hXr
  choose Wf hWf using hWr
  funext i
  obtain ⟨n, j, rfl⟩ : ∃ (n : Fin 4) (j : Fin 256), i = ix2 n j := ⟨i 0, i 1, eq_ix2 (n0 := 4) (n1 := 256) i⟩
  refine (Cert.ReferenceIdeal.RefValue.result_apply _ _ (fun n C d h w => Xf (ix5 n C d h w)) (fun C j => Wf (ix2 C j))
    Cert.Consts.eps Cert.Consts.eps_pos Cert.Consts.ofBits_eps (fun n C d h w => hXf _) (fun C j => hWf _) n j).trans ?_
  exact (kernel_apply m c _ _ (fun n C d h w => hXf _) (fun C j => hWf _) n j).symm

end Cert.Bridge

end
-- ==== Proof.lean ====
/-
  The certificate of the statistics kernel against its reference.

  Per (sample, channel) slab of the input the program computes the mean of the reflection-padded, depth-averaged,
  instance-normalised slab — the descriptor — and multiplies the descriptor matrix by the weights. The kernel walks
  8 channel tiles by 4 depth tiles, keeping three accumulators between depth tiles (the per-pixel depth sum, the sum,
  the sum of squares) and finishing the descriptor at the last depth tile; the reference is the textbook chain.

  The frames of the two kernel programs come from one body proof read at the two float instances; the reference's
  frame is its run with the result dropped; the idealisation rewrote nothing; and at the ideal instance, over finite
  inputs, both results are the specification's value entry by entry.
-/
import proofs.«158271_j11888469476170_2_alg».proof.Defs
import proofs.«158271_j11888469476170_2_alg».proof.Proof.KFrame
import proofs.«158271_j11888469476170_2_alg».proof.Proof.KIFrame
import proofs.«158271_j11888469476170_2_alg».proof.Proof.RefRun
import proofs.«158271_j11888469476170_2_alg».proof.Proof.Bridge
import proofs.«158271_j11888469476170_2_alg».proof.Proof.Gen.Kernel
import proofs.«158271_j11888469476170_2_alg».proof.Proof.Gen.KernelIdeal
import proofs.«158271_j11888469476170_2_alg».proof.Proof.Gen.ReferenceIdeal
import proofs.«158271_j11888469476170_2_alg».proof.Proof.Gen.Pre_finite_inputs

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
